-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 151
  | .vmem => 38
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S1x128, .f32⟩
  | 88 => ⟨S100000x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S100000x128, .f32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x128, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1x128, .f32⟩
  | 7 => ⟨S100000x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S100000x128, .f32⟩
  | 21 => ⟨S1x64, .f32⟩
  | 22 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_v58_2 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_cst_15 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95_0 : Ref sig .tc := ⟨.hbm, 135, rfl⟩
abbrev main_v95_1 : Ref sig .tc := ⟨.hbm, 136, rfl⟩
abbrev main_v95_2 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v56) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v93) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v95_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v95_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v95_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v103) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v104) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v104) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S128, .f32⟩
  | 102 => ⟨S_, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1600000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S1600000x128, .f32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x64, .f32⟩
  | 60 => ⟨S1x64, .f32⟩
  | 61 => ⟨S100000x64, .f32⟩
  | 62 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_19 : Ref sig .tc := ⟨.hbm, 122, rfl⟩
abbrev main_v87 : Ref sig .tc := ⟨.hbm, 123, rfl⟩
abbrev main_v88 : Ref sig .tc := ⟨.hbm, 124, rfl⟩
abbrev main_c_20 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_24 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_25 : Ref sig .tc := ⟨.hbm, 157, rfl⟩
abbrev main_v116 : Ref sig .tc := ⟨.hbm, 158, rfl⟩
abbrev main_cst_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_27 : Ref sig .tc := ⟨.hbm, 166, rfl⟩
abbrev main_v123 : Ref sig .tc := ⟨.hbm, 167, rfl⟩
abbrev main_cst_28 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_29 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named.

  @main is twelve segments: seven stretches of host operations and five launched regions.  Every weakly fair execution
  terminates without a fault, and in the final state every unscoped buffer of a core holds the last boundary's contents:
  the fold of the stretches' results and of the regions' write-backs over the launch memory.  Read at the result buffer
  this names the kernel's result; read at the twelve argument buffers it gives them back unchanged.
-/
import proofs.«111273_j58016418234783_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_main : θ_run defs (onTc (τ := τ) (main (F := F))) ⟨m, fun _ => 0, ρ⟩ (fun r => ∀ c : Dev nD,
      r.2.mem ((c.tc : Thread nD τ).loc main_v106) = W12 m ρ c (Proc.devRef .tc main_v106) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v106 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.KRun

end
-- ==== Proof.RefDefs.lean ====
/-
  The reference's host computation as named functions of whole arrays, at any float interpretation.

  From the edge list (two rows of node numbers): the degree of every node (a sum of ones scattered to the first row's
  nodes), its inverse square root where the degree is positive and zero elsewhere, and the edge weight, the product of
  the two end nodes' values.  One propagation step gathers the source node's feature row for every edge, scales it by
  the edge weight and adds it into the destination node's row of an array of zeros.  A linear layer is a matrix product
  plus a bias row; the normalisation subtracts the per-column mean, scales by the reciprocal square root of the
  per-column mean squared deviation plus a small offset, and applies a per-column scale and shift.  The whole
  reference is two propagation steps, a linear layer and a normalisation, twice over, then a last linear layer.
-/
import proofs.«111273_j58016418234783_1_alg».proof.ReferenceIdeal

noncomputable section

namespace Cert.ReferenceIdeal.HostFn

open Cert.ReferenceIdeal Idealize.ShloMosaic

variable {F : FTy → Type} [FloatOps F] [Cert.ReferenceIdeal.Facts]
open Cert.ReferenceIdeal.Facts₀ Cert.ReferenceIdeal.Facts

/-- The first row of the edge list: each edge's source node. -/
def rowIx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The second row of the edge list: each edge's destination node. -/
def colIx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A vector of node numbers as a column of index words. -/
def colOf (v : (⟨S1600000, .i32⟩ : BufTy).Contents (Elt F)) : (⟨S1600000x1, .i32⟩ : BufTy).Contents (Elt F) :=
  broadcastInDim S1600000x1 ![0] bcast_S1600000_S1600000x1_0 v

/-- Node numbers with the negative ones shifted up by the node count, as a column of index words. -/
def wrapIx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The degree of every node: ones added at each edge's source node. -/
def deg (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (colOf (rowIx ei))
    (broadcastInDim S1600000 ![] bcast_S_S1600000 (constant S_ .f32 0x3F800000#32))

/-- One over the square root of the degree (taken at least one) where the degree is positive, zero elsewhere. -/
def dis (ei : (⟨S2x1600000, .i32⟩ : BufTy).Contents (Elt F)) : (⟨S100000, .f32⟩ : BufTy).Contents (Elt F) :=
  select (cmpf .ogt (deg ei) (broadcastInDim S100000 ![] bcast_S_S100000 (constant S_ .f32 0x00000000#32)))
    (Host.divf (broadcastInDim S100000 ![] bcast_S_S100000 (constant S_ .f32 0x3F800000#32))
      (Host.sqrt (maximumf (deg ei) (broadcastInDim S100000 ![] bcast_S_S100000 (constant S_ .f32 0x3F800000#32)))))
    (broadcastInDim S100000 ![] bcast_S_S100000 (id (constant S_ .f32 0x00000000#32)))

/-- The weight of every edge: the product of its two end nodes' values. -/
def norm (ei : (⟨S2x1600000, .i32⟩ : BufTy).Contents (Elt F)) : (⟨S1600000, .f32⟩ : BufTy).Contents (Elt F) :=
  mulf (Host.gather gather_S100000_S1600000x1_S1600000_n_0_n_n_0_1_1 (dis ei) (wrapIx (rowIx ei)))
    (Host.gather gather_S100000_S1600000x1_S1600000_n_0_n_n_0_1_1 (dis ei) (wrapIx (colIx ei)))

/-- One propagation step: every edge's weighted source row added into its destination row of zeros. -/
def step (ei : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (colOf (colIx ei))
    (mulf (broadcastInDim S1600000x128 ![0, 1] bcast_S1600000x1_S1600000x128_0_1
        (broadcastInDim S1600000x1 ![0] bcast_S1600000_S1600000x1_0 (norm ei)))
      (Host.gather gather_S100000x128_S1600000x1_S1600000x128_1_0_n_n_0_1_1128 h (wrapIx (rowIx ei))))

/-- A per-column vector repeated down all the rows. -/
def rows128 (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- A linear layer into 128 columns: the matrix product plus the bias of each column. -/
def lin128 (h : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none h W) (rows128 b)

/-- The per-column mean: the column's sum divided by the row count. -/
def meanH (y : (⟨S100000x128, .f32⟩ : BufTy).Contents (Elt F)) : (⟨S128, .f32⟩ : BufTy).Contents (Elt F) :=
  Host.divf (Host.reduceAdd y (constant S_ .f32 0x00000000#32) reducesTo_S100000x128_S128_d0 h_S_)
    (broadcastInDim S128 ![] bcast_S_S128 (constant S_ .f32 0x47C35000#32))

/-- The per-column mean squared deviation from the mean. -/
def varH (y : (⟨S100000x128, .f32⟩ : BufTy).Contents (Elt F)) : (⟨S128, .f32⟩ : BufTy).Contents (Elt F) :=
  Host.divf (Host.reduceAdd (mulf (subf y (rows128 (meanH y))) (subf y (rows128 (meanH y))))
      (constant S_ .f32 0x00000000#32) reducesTo_S100000x128_S128_d0 h_S_)
    (broadcastInDim S128 ![] bcast_S_S128 (constant S_ .f32 0x47C35000#32))

/-- The normalisation of every column with scale g and shift be. -/
def bnH (y : (⟨S100000x128, .f32⟩ : BufTy).Contents (Elt F)) (g be : (⟨S128, .f32⟩ : BufTy).Contents (Elt F)) :
    (⟨S100000x128, .f32⟩ : BufTy).Contents (Elt F) :=
  addf (mulf (mulf (rows128 g) (subf y (rows128 (meanH y))))
      (rows128 (Host.rsqrt (addf (varH y) (broadcastInDim S128 ![] bcast_S_S128 (constant S_ .f32 0x3727C5AC#32))))))
    (rows128 be)

/-- The last linear layer, into 64 columns. -/
def lin64 (h : (⟨S100000x128, .f32⟩ : BufTy).Contents (Elt F)) (W : (⟨S128x64, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none h W)
    (broadcastInDim S100000x64 ![0, 1] bcast_S1x64_S100000x64_0_1 (broadcastInDim S1x64 ![1] bcast_S64_S1x64_1 b))

/-- The first hidden layer before its normalisation. -/
def y1 (x : (⟨S100000x128, .f32⟩ : BufTy).Contents (Elt F)) (ei : (⟨S2x1600000, .i32⟩ : BufTy).Contents (Elt F))
    (W1 : (⟨S128x128, .f32⟩ : BufTy).Contents (Elt F)) (b1 : (⟨S128, .f32⟩ : BufTy).Contents (Elt F)) :
    (⟨S100000x128, .f32⟩ : BufTy).Contents (Elt F) :=
  lin128 (step ei (step ei x)) W1 b1

/-- The whole reference. -/
def result (x : (⟨S100000x128, .f32⟩ : BufTy).Contents (Elt F)) (ei : (⟨S2x1600000, .i32⟩ : BufTy).Contents (Elt F))
    (W1 : (⟨S128x128, .f32⟩ : BufTy).Contents (Elt F)) (b1 g1 be1 : (⟨S128, .f32⟩ : BufTy).Contents (Elt F))
    (W2 : (⟨S128x128, .f32⟩ : BufTy).Contents (Elt F)) (b2 g2 be2 : (⟨S128, .f32⟩ : BufTy).Contents (Elt F))
    (W3 : (⟨S128x64, .f32⟩ : BufTy).Contents (Elt F)) (b3 : (⟨S64, .f32⟩ : BufTy).Contents (Elt F)) :
    (⟨S100000x64, .f32⟩ : BufTy).Contents (Elt F) :=
  lin64 (bnH (lin128 (step ei (step ei (bnH (y1 x ei W1 b1) g1 be1))) W2 b2) g2 be2) W3 b3

end Cert.ReferenceIdeal.HostFn

end
-- ==== Proof.LibBatchNorm.lean ====
import Idealize.ShloMosaic.PureOps.Ideal
import Mathlib.Algebra.BigOperators.Fin
import Mathlib.Tactic

/-!
# Batch normalisation on the extended reals, for finite entries

A batch of extended reals that are all finite (each the image of a real number) has a mean and
a variance, and the two textbook ways of normalising it agree:

* the variance as the second moment minus the squared mean, and the normalisation as the affine
  map x ↦ x · scale + shift with scale = γ · rsqrt (var + ε), shift = β − mean · scale;
* the variance as the mean of the squared deviations, and the normalisation as
  ((x − mean) · rsqrt (var + ε)) · γ + β.

On the extended reals these identities fail at the infinities (⊤ − ⊤ is ⊥, 0 · ⊤ is 0), so every
statement here assumes finite entries: real witnesses are chosen, the identity is computed in ℝ,
and the coercion ℝ → EReal is pushed out through sums, products and differences.

The file also has two bookkeeping facts about sums that hold for all extended reals: a sum over
a · b rows regrouped into a blocks of b rows, and a running accumulator as a partial sum.
-/

namespace Cert.LibBatchNorm

noncomputable section

open Idealize.ShloMosaic

/-! ### Finite extended reals -/

/-- An extended real is finite when it is the image of a real number. -/
def IsFin (x : EReal) : Prop := ∃ a : ℝ, x = (a : EReal)

/-- The image of a real number is finite. -/
theorem isFin_coe (a : ℝ) : IsFin (a : EReal) := ⟨a, rfl⟩

/-- Zero is finite. -/
theorem isFin_zero : IsFin (0 : EReal) := ⟨0, rfl⟩

/-- One is finite. -/
theorem isFin_one : IsFin (1 : EReal) := ⟨1, rfl⟩

/-- A finite extended real is neither ⊥ nor ⊤. -/
theorem IsFin.ne_bot_top {x : EReal} (hx : IsFin x) : x ≠ ⊥ ∧ x ≠ ⊤ := by
  obtain ⟨a, rfl⟩ := hx
  exact ⟨EReal.coe_ne_bot a, EReal.coe_ne_top a⟩

/-- An extended real that is neither ⊥ nor ⊤ is finite. -/
theorem isFin_of_ne {x : EReal} (hb : x ≠ ⊥) (ht : x ≠ ⊤) : IsFin x :=
  ⟨x.toReal, (EReal.coe_toReal ht hb).symm⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The larger of two finite extended reals is finite. -/
theorem IsFin.max {x y : EReal} (hx : IsFin x) (hy : IsFin y) : IsFin (max x y) := by
  rcases max_choice x y with h | h <;> rw [h] <;> assumption

/-- The smaller of two finite extended reals is finite. -/
theorem IsFin.min {x y : EReal} (hx : IsFin x) (hy : IsFin y) : IsFin (min x y) := by
  rcases min_choice x y with h | h <;> rw [h] <;> assumption

/-- A choice between a finite extended real and zero is finite. -/
theorem IsFin.ite_zero {x : EReal} (hx : IsFin x) (p : Prop) [Decidable p] :
    IsFin (if p then x else 0) := by
  split
  · exact hx
  · exact isFin_zero

/-- A choice between two finite extended reals is finite. -/
theorem IsFin.ite {x y : EReal} (hx : IsFin x) (hy : IsFin y) (p : Prop) [Decidable p] :
    IsFin (if p then x else y) := by
  split
  · exact hx
  · exact hy

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add
      (ih (fun i hi => h i (Finset.mem_insert_of_mem hi)))

/-- A finite extended real divided by a nonzero real is finite. -/
theorem IsFin.div_coe {x : EReal} (hx : IsFin x) {n : ℝ} (hn : n ≠ 0) :
    IsFin (Ideal.div x (n : EReal)) := by
  obtain ⟨a, rfl⟩ := hx
  rw [Ideal.div_coe hn]
  exact ⟨a * (1 / n), (EReal.coe_mul a (1 / n)).symm⟩

/-- Dividing the image of a real by a nonzero real is the image of the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The reciprocal square root of a positive real is the image of the real reciprocal square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- Finite entries are the images of one real-valued function. -/
theorem exists_real_fun {ι : Type*} (y : ι → EReal) (hy : ∀ r, IsFin (y r)) :
    ∃ a : ι → ℝ, ∀ r, y r = (a r : EReal) :=
  ⟨fun r => (hy r).choose, fun r => (hy r).choose_spec⟩

/-! ### Mean and variance of a finite batch -/

section Batch

variable {ι : Type*} [Fintype ι]

/-- The mean of a batch: the sum of its entries divided by n. -/
abbrev mean (y : ι → EReal) (n : ℝ) : EReal := Ideal.div (∑ r, y r) (n : EReal)

/-- The variance as the second moment minus the squared mean. -/
abbrev varMoment (y : ι → EReal) (n : ℝ) : EReal :=
  Ideal.div (∑ r, y r * y r) (n : EReal) - mean y n * mean y n

/-- The variance as the mean of the squared deviations from the mean. -/
abbrev varCentered (y : ι → EReal) (n : ℝ) : EReal :=
  Ideal.div (∑ r, (y r - mean y n) * (y r - mean y n)) (n : EReal)

/-- The mean of the images of reals is the image of the real mean. -/
theorem mean_coe (a : ι → ℝ) {n : ℝ} (hn : n ≠ 0) :
    mean (fun r => (a r : EReal)) n = (((∑ r, a r) / n : ℝ) : EReal) := by
  rw [mean, ← coe_sum, div_coe_coe _ hn]

/-- The moment variance of the images of reals is the image of the real moment variance. -/
theorem varMoment_coe (a : ι → ℝ) {n : ℝ} (hn : n ≠ 0) :
    varMoment (fun r => (a r : EReal)) n
      = (((∑ r, a r * a r) / n - (∑ r, a r) / n * ((∑ r, a r) / n) : ℝ) : EReal) := by
  rw [varMoment, mean_coe a hn]
  simp only [← EReal.coe_mul]
  rw [← coe_sum, div_coe_coe _ hn, ← EReal.coe_sub]

/-- The centred variance of the images of reals is the image of the real centred variance. -/
theorem varCentered_coe (a : ι → ℝ) {n : ℝ} (hn : n ≠ 0) :
    varCentered (fun r => (a r : EReal)) n
      = (((∑ r, (a r - (∑ r, a r) / n) * (a r - (∑ r, a r) / n)) / n : ℝ) : EReal) := by
  rw [varCentered, mean_coe a hn]
  simp only [← EReal.coe_sub, ← EReal.coe_mul]
  rw [← coe_sum, div_coe_coe _ hn]

/-- For reals, the second moment minus the squared mean is the mean squared deviation. -/
theorem real_var_identity (a : ι → ℝ) {n : ℝ} (hn : n ≠ 0) (hcard : (Fintype.card ι : ℝ) = n) :
    (∑ r, a r * a r) / n - (∑ r, a r) / n * ((∑ r, a r) / n)
      = (∑ r, (a r - (∑ r, a r) / n) * (a r - (∑ r, a r) / n)) / n := by
  set S := ∑ r, a r with hS
  have h1 : ∑ r, (a r - S / n) * (a r - S / n)
      = (∑ r, a r * a r) - 2 * (S / n) * S + n * (S / n * (S / n)) := by
    have : ∀ r, (a r - S / n) * (a r - S / n)
        = a r * a r - 2 * (S / n) * a r + S / n * (S / n) := fun r => by ring
    simp only [this]
    rw [Finset.sum_add_distrib, Finset.sum_sub_distrib, ← Finset.mul_sum, Finset.sum_const,
      Finset.card_univ, nsmul_eq_mul, hcard]
  rw [h1]
  field_simp
  ring

variable (y : ι → EReal) (hy : ∀ r, IsFin (y r)) (n : ℝ) (hn : 0 < n)
  (hcard : (Fintype.card ι : ℝ) = n)

include hy hn in
/-- The mean of a finite batch is finite. -/
theorem mean_isFin : IsFin (mean y n) :=
  (isFin_sum _ _ (fun r _ => hy r)).div_coe hn.ne'

include hy hn hcard in
/-- Second moment minus squared mean equals mean squared deviation, for a finite batch of n entries. -/
theorem varMoment_eq_varCentered : varMoment y n = varCentered y n := by
  obtain ⟨a, ha⟩ := exists_real_fun y hy
  obtain rfl : y = fun r => (a r : EReal) := funext ha
  rw [varMoment_coe a hn.ne', varCentered_coe a hn.ne', real_var_identity a hn.ne' hcard]

include hy hn in
/-- The mean squared deviation of a finite batch is a nonnegative real. -/
theorem varCentered_nonneg : ∃ v : ℝ, 0 ≤ v ∧ varCentered y n = (v : EReal) := by
  obtain ⟨a, ha⟩ := exists_real_fun y hy
  obtain rfl : y = fun r => (a r : EReal) := funext ha
  refine ⟨_, ?_, varCentered_coe a hn.ne'⟩
  exact div_nonneg (Finset.sum_nonneg (fun r _ => mul_self_nonneg _)) hn.le

include hy hn hcard in
/-- The moment variance of a finite batch of n entries is a nonnegative real. -/
theorem varMoment_nonneg : ∃ v : ℝ, 0 ≤ v ∧ varMoment y n = (v : EReal) := by
  rw [varMoment_eq_varCentered y hy n hn hcard]
  exact varCentered_nonneg y hy n hn

include hy hn in
/-- The reciprocal square root of variance plus a positive ε is finite. -/
theorem rsqrt_var_isFin (e : ℝ) (he : 0 < e) :
    ∃ s : ℝ, Ideal.rsqrt (varCentered y n + (e : EReal)) = (s : EReal) := by
  obtain ⟨v, hv, hve⟩ := varCentered_nonneg y hy n hn
  rw [hve, ← EReal.coe_add, rsqrt_coe_pos (by linarith)]
  exact ⟨_, rfl⟩

include hy hn hcard in
/-- The affine normalisation with the moment variance equals the centred normalisation. -/
theorem normalize_eq (g b e : ℝ) (he : 0 < e) (r0 : ι) :
    y r0 * ((g : EReal) * Ideal.rsqrt (varMoment y n + (e : EReal)))
        + ((b : EReal) - mean y n * ((g : EReal) * Ideal.rsqrt (varMoment y n + (e : EReal))))
      = ((y r0 - mean y n) * Ideal.rsqrt (varCentered y n + (e : EReal))) * (g : EReal)
        + (b : EReal) := by
  rw [varMoment_eq_varCentered y hy n hn hcard]
  obtain ⟨s, hs⟩ := rsqrt_var_isFin y hy n hn e he
  obtain ⟨m, hm⟩ := mean_isFin y hy n hn
  obtain ⟨a, ha⟩ := hy r0
  rw [hs, hm, ha]
  simp only [← EReal.coe_mul, ← EReal.coe_sub, ← EReal.coe_add]
  congr 1
  ring

include hy hn hcard in
/-- The same identity with finite extended reals γ, β in place of images of reals. -/
theorem normalize_eq_of_isFin {γ β : EReal} (hγ : IsFin γ) (hβ : IsFin β) (e : ℝ) (he : 0 < e)
    (r0 : ι) :
    y r0 * (γ * Ideal.rsqrt (varMoment y n + (e : EReal)))
        + (β - mean y n * (γ * Ideal.rsqrt (varMoment y n + (e : EReal))))
      = ((y r0 - mean y n) * Ideal.rsqrt (varCentered y n + (e : EReal))) * γ + β := by
  obtain ⟨g, rfl⟩ := hγ
  obtain ⟨b, rfl⟩ := hβ
  exact normalize_eq y hy n hn hcard g b e he r0

include hy hn hcard in
/-- The affine normalisation of a finite batch by finite γ, β and positive ε is finite. -/
theorem normalize_isFin {γ β : EReal} (hγ : IsFin γ) (hβ : IsFin β) (e : ℝ) (he : 0 < e)
    (r0 : ι) :
    IsFin (y r0 * (γ * Ideal.rsqrt (varMoment y n + (e : EReal)))
        + (β - mean y n * (γ * Ideal.rsqrt (varMoment y n + (e : EReal))))) := by
  obtain ⟨s, hs⟩ := rsqrt_var_isFin y hy n hn e he
  rw [varMoment_eq_varCentered y hy n hn hcard, hs]
  have hm := mean_isFin y hy n hn
  exact ((hy r0).mul (hγ.mul (isFin_coe s))).add (hβ.sub (hm.mul (hγ.mul (isFin_coe s))))

end Batch

/-! ### Regrouping sums -/

/-- Row q of block t, in blocks of b rows, is a row below a · b. -/
theorem block_lt {a b : ℕ} (t : Fin a) (q : Fin b) : t.val * b + q.val < a * b :=
  calc t.val * b + q.val < t.val * b + b := Nat.add_lt_add_left q.isLt _
    _ = (t.val + 1) * b := by ring
    _ ≤ a * b := Nat.mul_le_mul_right b t.isLt

/-- A sum over a · b rows is the sum over a blocks of the sums over the b rows of each block. -/
theorem sum_blocks (a b : ℕ) (f : Fin (a * b) → EReal) :
    ∑ t : Fin a, ∑ q : Fin b, f ⟨t.val * b + q.val, block_lt t q⟩ = ∑ r : Fin (a * b), f r := by
  rw [← Fintype.sum_prod_type']
  refine Fintype.sum_equiv finProdFinEquiv _ _ (fun x => ?_)
  congr 1
  ext
  simp [finProdFinEquiv]
  ring

/-- A sum over the naturals below a · b, regrouped into a blocks of b consecutive naturals. -/
theorem sum_range_blocks (a b : ℕ) (f : ℕ → EReal) :
    ∑ t ∈ Finset.range a, ∑ q ∈ Finset.range b, f (t * b + q) = ∑ r ∈ Finset.range (a * b), f r := by
  induction a with
  | zero => simp
  | succ a ih =>
    rw [Finset.sum_range_succ, ih, Nat.succ_mul, Finset.sum_range_add]

/-- An accumulator started at 0 + s 0 and increased by s (k+1) at each step is the partial sum. -/
theorem acc_eq_sum (s acc : ℕ → EReal) (h0 : acc 0 = 0 + s 0)
    (hstep : ∀ k, acc (k + 1) = acc k + s (k + 1)) (k : ℕ) :
    acc k = ∑ i ∈ Finset.range (k + 1), s i := by
  induction k with
  | zero => simp [h0]
  | succ k ih => rw [hstep, ih]; exact (Finset.sum_range_succ s (k + 1)).symm

end

end Cert.LibBatchNorm
-- ==== Proof.PreFin.lean ====
/-
  Every entry of the float inputs is a real number, read off the finiteness precondition.

  The precondition is the conjunction, input by input, of "every entry has absolute value below +infinity": each
  conjunct is the all-reduction (by "and", from true) of the entrywise comparison of |x| with the float word of
  +infinity.  A conjunction of one-bit words that is 1 has every conjunct 1; an all-reduction that is 1 has 1 at every
  entry; and on the extended reals max(x, −x) < ⊤ rules out both infinities, so the entry is the image of a real.
-/
import proofs.«111273_j58016418234783_1_alg».proof.Pre_finite_inputs
import proofs.«111273_j58016418234783_1_alg».proof.Proof.LibBatchNorm
import Idealize.ShloMosaic.PureOps.Ideal
import Idealize.ShloMosaic.Lib.ReduceAll
import Idealize.ShloMosaic.Lib.ValueIdx

noncomputable section

namespace Cert.PreFin

open Cert.Pre_finite_inputs Cert.LibBatchNorm Idealize.ShloMosaic

/-- The scalar shape has one index. -/
instance : Subsingleton S_.Idx := ⟨fun a b => funext fun d => d.elim0⟩

/-- The float word 0x7F800000 is +infinity. -/
theorem inf_word : Ideal.ofBits .f32 0x7F800000#32 = (⊤ : EReal) := by
  simp [Ideal.ofBits, Ideal.ieee]

/-- An extended real whose absolute value max(x, −x) compares below the word of +infinity is a real number. -/
theorem isFin_of_abs_lt (x : EReal)
    (h : Ideal.cmp .olt (max x (-x)) (Ideal.ofBits .f32 0x7F800000#32) = 1#1) : IsFin x := by
  rw [inf_word] at h
  have h' : max x (-x) < ⊤ := by
    unfold Ideal.cmp at h
    by_contra hn
    simp [hn] at h
  refine isFin_of_ne ?_ ?_
  · rintro rfl
    simp at h'
  · rintro rfl
    simp at h'

/-- One conjunct of the precondition: the all-reduction of |x| < +infinity over an array is 1, so every entry of the
    array is a real number. -/
theorem all_isFin {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : IsFin (x i) :=
  isFin_of_abs_lt (x i) (Host.reduce_andi_all _ _ hr hu ValueIdx.ix0 e i)

variable [Cert.Pre_finite_inputs.Facts]

theorem fn_isFin
    (a0 : FVec Ideal S100000x128 .f32) (a1 : IVec S2x1600000 32) (a2 : FVec Ideal S128x128 .f32) (a3 a4 a5 : FVec Ideal S128 .f32)
    (a6 : FVec Ideal S128x128 .f32) (a7 a8 a9 : FVec Ideal S128 .f32) (a10 : FVec Ideal S128x64 .f32) (a11 : FVec Ideal S64 .f32)
    (h : Cert.Pre_finite_inputs.fn (F := Ideal) a0 a1 a2 a3 a4 a5 a6 a7 a8 a9 a10 a11 = fun _ => 1#1) :
    (∀ i, IsFin (a0 i)) ∧ (∀ i, IsFin (a2 i)) ∧ (∀ i, IsFin (a3 i)) ∧ (∀ i, IsFin (a4 i)) ∧ (∀ i, IsFin (a5 i))
      ∧ (∀ i, IsFin (a6 i)) ∧ (∀ i, IsFin (a7 i)) ∧ (∀ i, IsFin (a8 i)) ∧ (∀ i, IsFin (a9 i)) := by
  have e := congrFun h ValueIdx.ix0
  dsimp only [fn, fn_part1, fn_part2, fn_part3] at e
  obtain ⟨e, -⟩ := IntOp.andi_eq_one.1 e
  obtain ⟨e, -⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨all_isFin a0 _ _ _ e0, all_isFin a2 _ _ _ e2, all_isFin a3 _ _ _ e3, all_isFin a4 _ _ _ e4,
    all_isFin a5 _ _ _ e5, all_isFin a6 _ _ _ e6, all_isFin a7 _ _ _ e7, all_isFin a8 _ _ _ e8, all_isFin a9 _ _ _ e9⟩

end Cert.PreFin

end
-- ==== Proof.Spec.lean ====
/-
  The mathematics both programs compute, as functions of arrays read at an index, on the extended reals.

  A node-feature array is a function of a pair (row, column); a per-column vector is kept as a one-row array, as both
  programs pass it around.  Three building blocks:
  * the affine layer  (h W + b)(i, j) = (sum over k of h(i,k) * W(k,j)) + b(0,j);
  * the column sums   s(0,j) = sum over the rows i of y(i,j)   and   q(0,j) = sum over the rows i of y(i,j) * y(i,j);
  * the normalisation (gamma(0,j) * (y(i,j) - mu(0,j))) * rsqrt(var(0,j) + eps) + beta(0,j).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- An array with R rows and C columns, as a function of its index. -/
abbrev Arr (R C : Nat) : Type := (⟨2, ![R, C]⟩ : Shape).Idx → EReal

/-- The f32 word of the variance offset (the float nearest 1e-5), read as an extended real. -/
abbrev epsE : EReal := Ideal.ofBits .f32 0x3727C5AC#32

/-- The f32 word of the row count 100000, read as an extended real. -/
abbrev cntE : EReal := Ideal.ofBits .f32 0x47C35000#32

/-- One entry of the affine layer: the contraction of row i of h with column j of W, plus the bias of column j. -/
def lin {R K C : Nat} (h : Arr R K) (W : Arr K C) (b : Arr 1 C) (i : Fin R) (j : Fin C) : EReal :=
  (∑ k : Fin K, h (ix2 i k) * W (ix2 k j)) + b (ix2 0 j)

/-- The affine layer as an array. -/
def linArr {R K C : Nat} (h : Arr R K) (W : Arr K C) (b : Arr 1 C) : Arr R C :=
  fun idx => lin h W b (idx 0) (idx 1)

theorem linArr_apply {R K C : Nat} (h : Arr R K) (W : Arr K C) (b : Arr 1 C) (i : Fin R) (j : Fin C) :
    linArr h W b (ix2 i j) = lin h W b i j := rfl

/-- The column sums of an array, as a one-row array. -/
def colSumArr {R C : Nat} (y : Arr R C) : Arr 1 C :=
  fun idx => ∑ i : Fin R, y (ix2 i (idx 1))

theorem colSumArr_apply {R C : Nat} (y : Arr R C) (u : Fin 1) (j : Fin C) :
    colSumArr y (ix2 u j) = ∑ i : Fin R, y (ix2 i j) := rfl

/-- The column sums of the squared entries, as a one-row array. -/
def colSumSqArr {R C : Nat} (y : Arr R C) : Arr 1 C :=
  fun idx => ∑ i : Fin R, y (ix2 i (idx 1)) * y (ix2 i (idx 1))

theorem colSumSqArr_apply {R C : Nat} (y : Arr R C) (u : Fin 1) (j : Fin C) :
    colSumSqArr y (ix2 u j) = ∑ i : Fin R, y (ix2 i j) * y (ix2 i j) := rfl

/-- One entry of the normalisation with given per-column mean, variance, scale and shift. -/
def bn {R C : Nat} (y : Arr R C) (mu var g be : Arr 1 C) (i : Fin R) (j : Fin C) : EReal :=
  (g (ix2 0 j) * (y (ix2 i j) - mu (ix2 0 j))) * Ideal.rsqrt (var (ix2 0 j) + epsE) + be (ix2 0 j)

/-- The normalisation as an array. -/
def bnArr {R C : Nat} (y : Arr R C) (mu var g be : Arr 1 C) : Arr R C :=
  fun idx => bn y mu var g be (idx 0) (idx 1)

theorem bnArr_apply {R C : Nat} (y : Arr R C) (mu var g be : Arr 1 C) (i : Fin R) (j : Fin C) :
    bnArr y mu var g be (ix2 i j) = bn y mu var g be i j := rfl

/-- The per-column mean from the column sums: each sum divided by the row count. -/
def meanArr {C : Nat} (s : Arr 1 C) : Arr 1 C := fun idx => Ideal.div (s idx) cntE

/-- The variance as the second moment minus the squared mean. -/
def varMomentArr {C : Nat} (s q : Arr 1 C) : Arr 1 C :=
  fun idx => Ideal.div (q idx) cntE - meanArr s idx * meanArr s idx

/-- The variance as the mean of the squared deviations from the mean. -/
def varCenteredArr {R C : Nat} (y : Arr R C) (mu : Arr 1 C) : Arr 1 C :=
  fun idx => Ideal.div (∑ i : Fin R, (y (ix2 i (idx 1)) - mu (ix2 0 (idx 1))) * (y (ix2 i (idx 1)) - mu (ix2 0 (idx 1)))) cntE

end Cert.Spec

end
-- ==== Proof.Spec2.lean ====
/-
  A per-column vector as a one-row array: the row's entry at column j is the vector's entry j.
-/
import proofs.«111273_j58016418234783_1_alg».proof.Proof.Spec

noncomputable section

namespace Cert.Spec

open Idealize.ShloMosaic Idealize.ShloMosaic.ValueIdx

/-- A vector of C entries, as a function of its index. -/
abbrev Vec1 (C : Nat) : Type := (⟨1, ![C]⟩ : Shape).Idx → EReal

/-- The vector as a one-row array. -/
def rowOf {C : Nat} (v : Vec1 C) : Arr 1 C := fun idx => v (ix1 (idx 1))

theorem rowOf_apply {C : Nat} (v : Vec1 C) (u : Fin 1) (j : Fin C) : rowOf v (ix2 u j) = v (ix1 j) := rfl

end Cert.Spec

end
-- ==== Proof.OutSpec.lean ====
/-
  The common result of the two programs, as one function of the twelve argument arrays: two propagation steps, a linear
  layer and a normalisation (with the variance taken as the second moment minus the squared mean), twice over, then a
  last linear layer.
-/
import proofs.«111273_j58016418234783_1_alg».proof.Proof.RefDefs
import proofs.«111273_j58016418234783_1_alg».proof.Proof.Spec2

noncomputable section

namespace Cert.Out

open Cert.Spec Cert.ReferenceIdeal Idealize.ShloMosaic

variable [Cert.ReferenceIdeal.Facts]

/-- The edge list's type. -/
abbrev EI : Type := (⟨Cert.ReferenceIdeal.S2x1600000, .i32⟩ : BufTy).Contents (Elt Ideal)

/-- Two propagation steps. -/
def prop (e : EI) (h : Arr 100000 128) : Arr 100000 128 := HostFn.step (F := Ideal) e (HostFn.step (F := Ideal) e h)

/-- A hidden layer: propagation, the linear layer, the normalisation from the column sums. -/
def hidden (e : EI) (h : Arr 100000 128) (W : Arr 128 128) (b g be : Vec1 128) : Arr 100000 128 :=
  bnArr (linArr (prop e h) W (rowOf b)) (meanArr (colSumArr (linArr (prop e h) W (rowOf b))))
    (varMomentArr (colSumArr (linArr (prop e h) W (rowOf b))) (colSumSqArr (linArr (prop e h) W (rowOf b))))
    (rowOf g) (rowOf be)

/-- The whole network. -/
def out (x : Arr 100000 128) (e : EI) (W1 : Arr 128 128) (b1 g1 be1 : Vec1 128) (W2 : Arr 128 128) (b2 g2 be2 : Vec1 128)
    (W3 : Arr 128 64) (b3 : Vec1 64) : Arr 100000 64 :=
  linArr (hidden e (hidden e x W1 b1 g1 be1) W2 b2 g2 be2) W3 (rowOf b3)

end Cert.Out

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.LibColumnSum.lean ====
/-
  The sum of a matrix down its rows, read at a column, at the ideal values.

  For an m × n matrix summed over axis 0 into a vector of n entries, the reduced index f with the row coordinate g
  inserted is (g, f) (`lift_col`). Hence a lane reduction `vector.multi_reduction <add>` over axis 0 reads, at f, as the
  sum over g < m of the entries (g, f) (`laneColSum_apply`), and the host's `reduce` with `add` over axis 0 reads as the
  initial value plus that same sum (`hostColSum_apply`). Any extents m, n.
-/
import Idealize.ShloMosaic.PureOps.Ideal.Laws
import Idealize.ShloMosaic.Lib.ValueIdx
import Idealize.ShloMosaic.Lib.IdealHost

open scoped BigOperators

namespace Cert.LibColumnSum

open Idealize.ShloMosaic Idealize.ShloMosaic.ValueIdx

/-- The source index of a matrix over column f with row g inserted is (g, f). -/
theorem lift_col {m n : ℕ} (h : (⟨2, ![m, n]⟩ : Shape).Reduces [0] (⟨1, ![n]⟩ : Shape)) (f : Fin n) (g : Fin m) :
    h.lift (ix1 f) g = ix2 g f := by
  funext c
  apply Fin.ext
  match c with
  | ⟨0, _⟩ => rfl
  | ⟨1, _⟩ => rfl

/-- A lane sum of a matrix over its rows, read at column f: the sum of the column's entries. -/
theorem laneColSum_apply {m n : ℕ} {φ : FTy} (x : FVec Ideal (⟨2, ![m, n]⟩ : Shape) φ) (acc : BitVec φ.bits)
    (h : (⟨2, ![m, n]⟩ : Shape).Reduces [0] (⟨1, ![n]⟩ : Shape)) (hφ : FKind.Formats φ)
    (hacc : acc = FKind.add.neutral φ hφ) (f : Fin n) :
    multiReduction .add [0] (⟨1, ![n]⟩ : Shape) x acc h hφ hacc (ix1 f) = ∑ g : Fin m, x (ix2 g f) := by
  refine (Ideal.multiReduction_add_single x acc h hφ hacc (ix1 f)).trans ?_
  exact Finset.sum_congr rfl fun g _ => congrArg x (lift_col h f g)

/-- The host's sum of a matrix over its rows from an initial value, read at column f: the initial value plus the sum
    of the column's entries. -/
theorem hostColSum_apply {m n : ℕ} {u : Shape} (x : FVec Ideal (⟨2, ![m, n]⟩ : Shape) .f32) (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (f : Fin n) :
    Host.reduceAdd x init h' hu (ix1 f) = init (Shape.Idx.first hu) + ∑ g : Fin m, x (ix2 g f) := by
  refine (hostReduceAdd_apply x init h' hu (ix1 f)).trans ?_
  refine (Ideal.hostReduceAdd_single h' h x _ (ix1 f)).trans ?_
  refine congrArg (init (Shape.Idx.first hu) + ·) ?_
  exact Finset.sum_congr rfl fun g _ => congrArg x (lift_col h f g)

end Cert.LibColumnSum
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.LibAggFinite.lean ====
/-
  Finiteness through a neighbour sum.

  A neighbour aggregation on the host is a gather of rows followed by an additive scatter of those rows into an array of
  zeros. On the extended reals a gather only moves elements, and an additive scatter read at an element is that element
  plus a finite sum of update elements; so if every entry of the gathered array is finite (the image of a real), every
  entry of the aggregate is finite. Each fact is stated first for arbitrary dimension numbers (it needs nothing about
  them), then for the row layouts: operand [N, C], one index word per row (indices [E, 1]), rows [E, C].
-/
import proofs.«111273_j58016418234783_1_alg».proof.Proof.LibBatchNorm
import proofs.«111273_j58016418234783_1_alg».proof.Proof.LibGatherRows
import proofs.«111273_j58016418234783_1_alg».proof.Proof.LibScatterAdd
import Idealize.ShloMosaic.PureOps.Ideal.Laws

noncomputable section

namespace Cert.LibAggFinite

open Idealize.ShloMosaic Idealize.ShloMosaic.ValueIdx
open Idealize.ShloMosaic.GatherAt Idealize.ShloMosaic.ScatterAddAt
open Cert.LibBatchNorm

/-! ### Any dimension numbers -/

/-- A gather only moves elements: every element of a gather of a finite array is finite. -/
theorem gather_isFin_of {s si t : Shape} {w : ℕ} (d : GatherDims s si t) (x : s.Idx → EReal) (idx : IVec si w)
    (hx : ∀ i, IsFin (x i)) (j : t.Idx) : IsFin (Host.gather d x idx j) :=
  hx _

/-- An additive scatter of finite updates into a finite array is finite at every element: the element plus a finite sum
    of update elements. -/
theorem scatterAdd_isFin_of {s si u : Shape} {w : ℕ} {φ : FTy} (d : ScatterDims s si u) (x : FVec Ideal s φ)
    (idx : IVec si w) (upd : FVec Ideal u φ) (hx : ∀ i, IsFin (x i)) (hu : ∀ j, IsFin (upd j)) (i : s.Idx) :
    IsFin (Host.scatterAdd (F := Ideal) d x idx upd i) := by
  show IsFin (Ideal.hostScatterAdd d x idx upd i)
  unfold Ideal.hostScatterAdd
  exact (hx i).add (isFin_sum _ _ (fun j _ => hu j))

/-- A broadcast only repeats elements: every element of a broadcast of a finite array is finite. -/
theorem broadcastInDim_isFin {s t : Shape} (dims : Fin s.rank → Fin t.rank) (h : s.BroadcastsInDim t dims)
    (x : s.Idx → EReal) (hx : ∀ i, IsFin (x i)) (j : t.Idx) : IsFin (broadcastInDim t dims h x j) :=
  hx _

/-- The constant array of the f32 zero pattern is zero, hence finite, at every index. -/
theorem constant_zero_isFin {s : Shape} (i : s.Idx) : IsFin (constant (F := Ideal) s .f32 0x00000000#32 i) := by
  show IsFin (Ideal.ofBits .f32 0x00000000#32)
  rw [Ideal.ofBits_zero_f32]
  exact isFin_zero

/-- The array of zeros a scalar zero is broadcast to is finite at every index. -/
theorem zeros_isFin {t : Shape} (h : (⟨0, ![]⟩ : Shape).BroadcastsInDim t ![]) (j : t.Idx) :
    IsFin (broadcastInDim t ![] h (constant (F := Ideal) ⟨0, ![]⟩ .f32 0x00000000#32) j) :=
  broadcastInDim_isFin (s := ⟨0, ![]⟩) _ h _ constant_zero_isFin j

/-- The neighbour sum of a finite array — its gathered rows scattered additively into zeros — is finite at every
    element, whatever the two index arrays. -/
theorem agg_isFin_of {s si si' u : Shape} {w w' : ℕ} (dS : ScatterDims s si' u) (dG : GatherDims s si u)
    (hb : (⟨0, ![]⟩ : Shape).BroadcastsInDim s ![]) (h : s.Idx → EReal) (hh : ∀ i, IsFin (h i))
    (src : IVec si w) (dst : IVec si' w') (i : s.Idx) :
    IsFin (Host.scatterAdd (F := Ideal) (φ := .f32) dS
      (broadcastInDim s ![] hb (constant (F := Ideal) ⟨0, ![]⟩ .f32 0x00000000#32)) dst (Host.gather dG h src) i) :=
  scatterAdd_isFin_of dS _ dst _ (zeros_isFin hb) (gather_isFin_of dG h src hh) i

/-! ### The row layouts: operand [N, C], indices [E, 1], rows [E, C] -/

section Rows
variable {N C E w w' : ℕ}

/-- A gather of rows of a finite array is finite at every element. -/
theorem gather_isFin (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : ∀ i, IsFin (x i))
    (j : (⟨2, ![E, C]⟩ : Shape).Idx) : IsFin (Host.gather (rowGDims N C E wf) x idx j) :=
  gather_isFin_of _ x idx hx j

/-- An additive scatter of finite rows into a finite array is finite at every element. -/
theorem scatterAdd_isFin (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (u : (⟨2, ![E, C]⟩ : Shape).Idx → EReal)
    (hx : ∀ i, IsFin (x i)) (hu : ∀ j, IsFin (u j)) (i : (⟨2, ![N, C]⟩ : Shape).Idx) :
    IsFin (Host.scatterAdd (F := Ideal) (φ := .f32) (rowDims N C E wf) x idx u i) :=
  scatterAdd_isFin_of (φ := .f32) _ x idx u hx hu i

/-- The neighbour sum of a finite [N, C] array over E edges is finite at every element. -/
theorem agg_isFin (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hb : (⟨0, ![]⟩ : Shape).BroadcastsInDim ⟨2, ![N, C]⟩ ![])
    (h : (⟨2, ![N, C]⟩ : Shape).Idx → EReal) (hh : ∀ i, IsFin (h i))
    (src : IVec ⟨2, ![E, 1]⟩ w) (dst : IVec ⟨2, ![E, 1]⟩ w') (i : (⟨2, ![N, C]⟩ : Shape).Idx) :
    IsFin (Host.scatterAdd (F := Ideal) (φ := .f32) (rowDims N C E wfS)
      (broadcastInDim ⟨2, ![N, C]⟩ ![] hb (constant (F := Ideal) ⟨0, ![]⟩ .f32 0x00000000#32)) dst
      (Host.gather (rowGDims N C E wfG) h src) i) :=
  agg_isFin_of _ _ hb h hh src dst i

end Rows

end Cert.LibAggFinite

end
-- ==== Proof.HostRead.lean ====
/-
  The reference's linear layers and normalisation read at an entry, on the extended reals.

  Every host stage is a composition of entrywise operations with three operations that move or combine entries: the
  matrix product (entry (i, j) is the sum over k of h(i,k) * W(k,j)), the sum down the rows (entry j is the initial
  value, zero, plus the sum over the rows i of y(i,j)), and the broadcasts (a vector laid along one row, a row repeated
  down all the rows, a scalar repeated everywhere — each reads the operand at the projected index).  Reading each of
  these at an index turns the linear layer into the affine map and the normalisation into its textbook formula with
  the centred variance.
-/
import proofs.«111273_j58016418234783_1_alg».proof.Proof.RefDefs
import proofs.«111273_j58016418234783_1_alg».proof.Proof.Spec2
import proofs.«111273_j58016418234783_1_alg».proof.Proof.LibBatchNorm
import proofs.«111273_j58016418234783_1_alg».proof.Proof.LibPlainProduct
import proofs.«111273_j58016418234783_1_alg».proof.Proof.LibColumnSum
import proofs.«111273_j58016418234783_1_alg».proof.Proof.LibAggFinite
import Idealize.ShloMosaic.Lib.KernelVsHost
import Idealize.ShloMosaic.Lib.IdealHost

noncomputable section

open scoped BigOperators

namespace Cert.ReferenceIdeal.HostRead

open Cert.ReferenceIdeal Cert.Spec Idealize.ShloMosaic Idealize.ShloMosaic.ValueIdx

/-! ### Broadcasts read at an index -/

section Broadcasts
variable {α : Type}

/-- A vector of C entries laid along one row reads, at (0, j), the vector's entry j. -/
theorem vecRow_apply {C : Nat} (h : (⟨1, ![C]⟩ : Shape).BroadcastsInDim ⟨2, ![1, C]⟩ ![1])
    (v : (⟨1, ![C]⟩ : Shape).Idx → α) (u : Fin 1) (j : Fin C) :
    broadcastInDim ⟨2, ![1, C]⟩ ![1] h v (ix2 u j) = v (ix1 j) := by
  refine broadcastInDim_apply ![1] h v (ix2 u j) (ix1 j) ?_
  intro a
  match a with
  | ⟨0, _⟩ =>
    show j.val = if C = 1 then 0 else j.val
    split
    · have := j.isLt; omega
    · rfl

/-- A vector of C entries repeated down R rows reads, at (i, j), the vector's entry j. -/
theorem vecRows_apply {R C : Nat} (h1 : (⟨1, ![C]⟩ : Shape).BroadcastsInDim ⟨2, ![1, C]⟩ ![1])
    (h2 : (⟨2, ![1, C]⟩ : Shape).BroadcastsInDim ⟨2, ![R, C]⟩ ![0, 1])
    (v : (⟨1, ![C]⟩ : Shape).Idx → α) (i : Fin R) (j : Fin C) :
    broadcastInDim ⟨2, ![R, C]⟩ ![0, 1] h2 (broadcastInDim ⟨2, ![1, C]⟩ ![1] h1 v) (ix2 i j) = v (ix1 j) :=
  (broadcastInDim_oneRow_apply h2 _ i j).trans (vecRow_apply h1 v 0 j)

end Broadcasts

variable [Cert.ReferenceIdeal.Facts]
open Cert.ReferenceIdeal.Facts₀ Cert.ReferenceIdeal.Facts

/-! ### The linear layers -/

/-- A per-column vector repeated down all the rows reads, at (i, j), the vector's entry j. -/
theorem rows128_apply (v : Vec1 128) (i : Fin 100000) (j : Fin 128) :
    HostFn.rows128 (F := Ideal) v (ix2 i j) = v (ix1 j) :=
  vecRows_apply bcast_S128_S1x128_1 bcast_S1x128_S100000x128_0_1 v i j

/-- The linear layer into 128 columns is the affine map. -/
theorem lin128_eq (h : Arr 100000 128) (W : Arr 128 128) (b : Vec1 128) :
    HostFn.lin128 (F := Ideal) h W b = linArr h W (rowOf b) := by
  funext idx
  obtain ⟨i, j, rfl⟩ : ∃ (i : Fin 100000) (j : Fin 128), idx = ix2 i j := ⟨idx 0, idx 1, eq_ix2 idx⟩
  show Host.dotGeneral (F := Ideal) (φ₁ := .f32) (φ₂ := .f32) dot_S100000x128_S128x128_S100000x128_1_0_0_1_n_n none h W (ix2 i j)
      + HostFn.rows128 (F := Ideal) b (ix2 i j) = _
  refine (congrArg₂ (· + ·)
    (Cert.LibPlainProduct.dotGeneral_plain_apply (φ₁ := .f32) (φ₂ := .f32)
      dot_S100000x128_S128x128_S100000x128_1_0_0_1_n_n_wf none h W i j)
    (rows128_apply b i j)).trans ?_
  rfl

/-- The last linear layer, into 64 columns, is the affine map. -/
theorem lin64_eq (h : Arr 100000 128) (W : Arr 128 64) (b : Vec1 64) :
    HostFn.lin64 (F := Ideal) h W b = linArr h W (rowOf b) := by
  funext idx
  obtain ⟨i, j, rfl⟩ : ∃ (i : Fin 100000) (j : Fin 64), idx = ix2 i j := ⟨idx 0, idx 1, eq_ix2 idx⟩
  show Host.dotGeneral (F := Ideal) (φ₁ := .f32) (φ₂ := .f32) dot_S100000x128_S128x64_S100000x64_1_0_0_1_n_n none h W (ix2 i j)
      + broadcastInDim S100000x64 ![0, 1] bcast_S1x64_S100000x64_0_1
          (broadcastInDim S1x64 ![1] bcast_S64_S1x64_1 b) (ix2 i j) = _
  refine (congrArg₂ (· + ·)
    (Cert.LibPlainProduct.dotGeneral_plain_apply (φ₁ := .f32) (φ₂ := .f32)
      dot_S100000x128_S128x64_S100000x64_1_0_0_1_n_n_wf none h W i j)
    (vecRows_apply bcast_S64_S1x64_1 bcast_S1x64_S100000x64_0_1 b i j)).trans ?_
  rfl

/-! ### The normalisation -/

/-- The scalar constant repeated along 128 columns reads the constant's value. -/
theorem splat128_apply (w : BitVec 32) (j : Fin 128) :
    broadcastInDim S128 ![] bcast_S_S128 (constant (F := Ideal) S_ .f32 w) (ix1 j) = Ideal.ofBits .f32 w := rfl

/-- The host's sum down the rows from the zero word reads, at column j, the column's sum. -/
theorem colSum_apply (y : Arr 100000 128) (j : Fin 128) :
    Host.reduceAdd (F := Ideal) (φ := .f32) y (constant (F := Ideal) S_ .f32 0x00000000#32)
        reducesTo_S100000x128_S128_d0 h_S_ (ix1 j)
      = ∑ i : Fin 100000, y (ix2 i j) := by
  have hr : S100000x128.Reduces [0] S128 := by
    obtain ⟨e, f⟩ := reducesTo_S100000x128_S128_d0
    exact ⟨e, Nat.zero_lt_one, f⟩
  refine (Cert.LibColumnSum.hostColSum_apply y _ reducesTo_S100000x128_S128_d0 hr h_S_ j).trans ?_
  rw [constant_apply, Ideal.ofBits_zero_f32, zero_add]

/-- The per-column mean reads, at column j, the column's sum divided by the row count. -/
theorem meanH_apply (y : Arr 100000 128) (j : Fin 128) :
    HostFn.meanH (F := Ideal) y (ix1 j) = meanArr (colSumArr y) (ix2 0 j) := by
  show Ideal.div (Host.reduceAdd (F := Ideal) (φ := .f32) y (constant (F := Ideal) S_ .f32 0x00000000#32)
        reducesTo_S100000x128_S128_d0 h_S_ (ix1 j)) (Ideal.ofBits .f32 0x47C35000#32) = _
  rw [colSum_apply]
  rfl

/-- The per-column mean squared deviation reads, at column j, the centred variance of the column. -/
theorem varH_apply (y : Arr 100000 128) (j : Fin 128) :
    HostFn.varH (F := Ideal) y (ix1 j) = varCenteredArr y (meanArr (colSumArr y)) (ix2 0 j) := by
  show Ideal.div (Host.reduceAdd (F := Ideal) (φ := .f32)
        (mulf (subf y (HostFn.rows128 (F := Ideal) (HostFn.meanH (F := Ideal) y)))
          (subf y (HostFn.rows128 (F := Ideal) (HostFn.meanH (F := Ideal) y))))
        (constant (F := Ideal) S_ .f32 0x00000000#32)
        reducesTo_S100000x128_S128_d0 h_S_ (ix1 j)) (Ideal.ofBits .f32 0x47C35000#32) = _
  rw [colSum_apply]
  show Ideal.div (∑ i : Fin 100000,
      (y (ix2 i j) - HostFn.rows128 (F := Ideal) (HostFn.meanH (F := Ideal) y) (ix2 i j))
        * (y (ix2 i j) - HostFn.rows128 (F := Ideal) (HostFn.meanH (F := Ideal) y) (ix2 i j))) cntE = _
  simp only [rows128_apply, meanH_apply]
  rfl

/-- The normalisation is the textbook formula with the per-column mean and centred variance. -/
theorem bnH_eq (y : Arr 100000 128) (g be : Vec1 128) :
    HostFn.bnH (F := Ideal) y g be
      = bnArr y (meanArr (colSumArr y)) (varCenteredArr y (meanArr (colSumArr y))) (rowOf g) (rowOf be) := by
  funext idx
  obtain ⟨i, j, rfl⟩ : ∃ (i : Fin 100000) (j : Fin 128), idx = ix2 i j := ⟨idx 0, idx 1, eq_ix2 idx⟩
  show (HostFn.rows128 (F := Ideal) g (ix2 i j)
          * (y (ix2 i j) - HostFn.rows128 (F := Ideal) (HostFn.meanH (F := Ideal) y) (ix2 i j)))
        * HostFn.rows128 (F := Ideal) (Host.rsqrt (F := Ideal) (addf (HostFn.varH (F := Ideal) y)
            (broadcastInDim S128 ![] bcast_S_S128 (constant (F := Ideal) S_ .f32 0x3727C5AC#32)))) (ix2 i j)
      + HostFn.rows128 (F := Ideal) be (ix2 i j) = _
  rw [rows128_apply, rows128_apply, rows128_apply, rows128_apply, meanH_apply]
  show (g (ix1 j) * (y (ix2 i j) - meanArr (colSumArr y) (ix2 0 j)))
        * Ideal.rsqrt (HostFn.varH (F := Ideal) y (ix1 j) + Ideal.ofBits .f32 0x3727C5AC#32)
      + be (ix1 j) = _
  rw [varH_apply]
  rfl

end Cert.ReferenceIdeal.HostRead

end
-- ==== Proof.HostFin.lean ====
/-
  A propagation step keeps real entries real.

  On the extended reals every stage of the edge weights stays among the images of the reals.  The degree of a node is
  zero plus a finite sum of ones.  Its larger with one is a real that is at least one, so the square root is a positive
  real and one over it is a real; the other branch of the choice is zero.  An edge weight is a product of two such
  values read at the edge's end nodes.  A propagation step reads, for every edge, a row of the features, scales it by
  the edge's weight and adds it into an array of zeros: an entry of the result is zero plus a finite sum of products of
  reals.

  The entrywise facts are stated for arbitrary arrays first, so that the arrays of the reference (sums over all the
  edges) are never unfolded.
-/
import proofs.«111273_j58016418234783_1_alg».proof.Proof.RefDefs
import proofs.«111273_j58016418234783_1_alg».proof.Proof.Spec2
import proofs.«111273_j58016418234783_1_alg».proof.Proof.LibBatchNorm
import proofs.«111273_j58016418234783_1_alg».proof.Proof.LibAggFinite
import Idealize.ShloMosaic.Lib.IdealHost

noncomputable section

namespace Cert.ReferenceIdeal.HostFin

open Cert.ReferenceIdeal Cert.Spec Idealize.ShloMosaic Idealize.ShloMosaic.ValueIdx
open Cert.LibBatchNorm Cert.LibAggFinite

/-! ### One over the square root of a real taken at least one -/

/-- The larger of a real and one is a real that is at least one. -/
theorem max_one_real {x : EReal} (hx : IsFin x) : ∃ r : ℝ, 1 ≤ r ∧ max x 1 = (r : EReal) := by
  obtain ⟨a, rfl⟩ := hx
  rcases le_total (a : EReal) 1 with h | h
  · exact ⟨1, le_refl _, by rw [max_eq_right h]; rfl⟩
  · refine ⟨a, ?_, max_eq_left h⟩
    exact_mod_cast h

/-- One over the square root of a real taken at least one is a real. -/
theorem inv_sqrt_max_isFin {x : EReal} (hx : IsFin x) : IsFin (Ideal.div 1 (Ideal.sqrt (max x 1))) := by
  obtain ⟨r, hr, e⟩ := max_one_real hx
  have h0 : ¬ r < 0 := by linarith
  rw [e, Ideal.sqrt_coe, if_neg h0]
  exact isFin_one.div_coe (Real.sqrt_ne_zero'.mpr (by linarith))

/-- A choice between two reals is a real, whatever the condition's bit. -/
theorem select_isFin (c : BitVec 1) {a b : EReal} (ha : IsFin a) (hb : IsFin b) : IsFin (Scalar.select c a b) := by
  unfold Scalar.select
  exact ha.ite hb _

/-! ### Entrywise operations on arbitrary arrays -/

section Entrywise
variable {s : Shape}

/-- The f32 word of one is one, a real, at every index. -/
theorem constant_one_isFin (i : s.Idx) : IsFin (constant (F := Ideal) s .f32 0x3F800000#32 i) := by
  show IsFin (Ideal.ofBits .f32 0x3F800000#32)
  rw [Ideal.ofBits_one_f32]
  exact isFin_one

/-- An entry of a product of two arrays is real when the two entries are. -/
theorem mulf_isFin (a b : FVec Ideal s .f32) (i : s.Idx) (ha : IsFin (a i)) (hb : IsFin (b i)) :
    IsFin (mulf a b i) :=
  ha.mul hb

/-- The choice, under any condition, between one over the square root of an entry taken at least one and zero is a
    real when the entry is. -/
theorem invSqrt_entry_isFin (c : IVec s 1) (d one one' zero : FVec Ideal s .f32) (n : s.Idx) (hd : IsFin (d n))
    (h1 : one n = 1) (h1' : one' n = 1) (h0 : zero n = 0) :
    IsFin (select c (Host.divf one (Host.sqrt (maximumf d one'))) zero n) := by
  show IsFin (Scalar.select (c n) (Ideal.div (one n) (Ideal.sqrt (max (d n) (one' n)))) (zero n))
  rw [h1, h1', h0]
  exact select_isFin _ (inv_sqrt_max_isFin hd) isFin_zero

end Entrywise

variable [Cert.ReferenceIdeal.Facts]
open Cert.ReferenceIdeal.Facts₀ Cert.ReferenceIdeal.Facts

/-! ### The edge weights -/

/-- Every node's degree is a real: zero plus a finite sum of ones. -/
theorem deg_isFin (ei : (⟨S2x1600000, .i32⟩ : BufTy).Contents (Elt Ideal)) :
    ∀ n, IsFin (HostFn.deg (F := Ideal) ei n) := fun n =>
  scatterAdd_isFin_of (φ := .f32) scatter_S100000_S1600000x1_S1600000_n_0_0_1 _ _ _
    (zeros_isFin bcast_S_S100000)
    (broadcastInDim_isFin (s := S_) _ bcast_S_S1600000 _ constant_one_isFin) n

/-- The scalar one repeated over the nodes reads one. -/
theorem ones_apply (n : S100000.Idx) :
    broadcastInDim S100000 ![] bcast_S_S100000 (constant (F := Ideal) S_ .f32 0x3F800000#32) n = 1 := by
  show Ideal.ofBits .f32 0x3F800000#32 = 1
  exact Ideal.ofBits_one_f32

/-- The scalar zero repeated over the nodes reads zero. -/
theorem zeros_apply (n : S100000.Idx) :
    broadcastInDim S100000 ![] bcast_S_S100000 (id (constant (F := Ideal) S_ .f32 0x00000000#32)) n = 0 := by
  show Ideal.ofBits .f32 0x00000000#32 = 0
  exact Ideal.ofBits_zero_f32

/-- Every node's value — one over the square root of its degree where that is positive, zero elsewhere — is a real. -/
theorem dis_isFin (ei : (⟨S2x1600000, .i32⟩ : BufTy).Contents (Elt Ideal)) :
    ∀ n, IsFin (HostFn.dis (F := Ideal) ei n) := by
  intro n
  unfold HostFn.dis
  exact invSqrt_entry_isFin _ (HostFn.deg (F := Ideal) ei) _ _ _ n (deg_isFin ei n) (ones_apply n) (ones_apply n)
    (zeros_apply n)

/-- Every edge's weight, the product of its two end nodes' values, is a real. -/
theorem norm_isFin (ei : (⟨S2x1600000, .i32⟩ : BufTy).Contents (Elt Ideal)) :
    ∀ e, IsFin (HostFn.norm (F := Ideal) ei e) := by
  intro e
  unfold HostFn.norm
  exact mulf_isFin _ _ e
    (gather_isFin_of gather_S100000_S1600000x1_S1600000_n_0_n_n_0_1_1 (HostFn.dis (F := Ideal) ei) _ (dis_isFin ei) e)
    (gather_isFin_of gather_S100000_S1600000x1_S1600000_n_0_n_n_0_1_1 (HostFn.dis (F := Ideal) ei) _ (dis_isFin ei) e)

/-! ### One propagation step -/

/-- Products of two arrays of reals added into an array of reals, at the places an index array names: every entry of
    the result is a real. -/
theorem scatterMul_isFin {s si u : Shape} {w : ℕ} (d : ScatterDims s si u) (z : FVec Ideal s .f32) (idx : IVec si w)
    (a b : FVec Ideal u .f32) (hz : ∀ i, IsFin (z i)) (ha : ∀ j, IsFin (a j)) (hb : ∀ j, IsFin (b j)) (i : s.Idx) :
    IsFin (Host.scatterAdd (F := Ideal) d z idx (mulf a b) i) :=
  scatterAdd_isFin_of (φ := .f32) d z idx (mulf a b) hz (fun j => (ha j).mul (hb j)) i

/-- A propagation step of an array of reals is an array of reals. -/
theorem step_isFin (ei : (⟨S2x1600000, .i32⟩ : BufTy).Contents (Elt Ideal)) (h : Arr 100000 128)
    (hh : ∀ i, IsFin (h i)) : ∀ i, IsFin (HostFn.step (F := Ideal) ei h i) := by
  intro i
  unfold HostFn.step
  refine scatterMul_isFin _ _ _ _ _ ?_ ?_ ?_ i
  · exact zeros_isFin bcast_S_S100000x128
  · intro j
    exact broadcastInDim_isFin _ _ _ (broadcastInDim_isFin _ _ _ (norm_isFin ei)) j
  · intro j
    exact gather_isFin_of _ h _ hh j

end Cert.ReferenceIdeal.HostFin

end
-- ==== Proof.Consts.lean ====
/-
  The two float constants of the normalisation, as real numbers: the row count 100000, and the variance offset, the
  float nearest 1e-5, which is 10995116 / 2^40.
-/
import proofs.«111273_j58016418234783_1_alg».proof.Proof.Spec

noncomputable section

namespace Cert.Spec

open Idealize.ShloMosaic

/-- The row count's word denotes the real 100000. -/
theorem cntE_eq : cntE = ((100000 : ℝ) : EReal) := by
  simp [cntE, Ideal.ofBits, Ideal.ieee, -EReal.coe_mul]; norm_num

/-- The variance offset's word denotes the real 10995116 / 2^40. -/
theorem epsE_eq : epsE = ((10995116 / 1099511627776 : ℝ) : EReal) := by
  simp [epsE, Ideal.ofBits, Ideal.ieee, -EReal.coe_mul]; norm_num

/-- The variance offset is a positive real. -/
theorem epsE_pos : ∃ e : ℝ, 0 < e ∧ epsE = (e : EReal) := ⟨_, by norm_num, epsE_eq⟩

end Cert.Spec

end
-- ==== Proof.BridgeMath.lean ====
/-
  The algebra that joins the two programs, on arrays whose entries are real numbers.

  For a column of real entries the second moment minus the squared mean is the mean squared deviation, so the
  normalisation computed from the column sums of y and of y * y is the normalisation computed from the deviations.
  A linear layer of real entries has real entries, and so has the normalisation of real entries with real scale and
  shift: the variance is nonnegative and the offset positive, so the reciprocal square root is real.
-/
import proofs.«111273_j58016418234783_1_alg».proof.Proof.Spec2
import proofs.«111273_j58016418234783_1_alg».proof.Proof.Consts
import proofs.«111273_j58016418234783_1_alg».proof.Proof.LibBatchNorm

noncomputable section

namespace Cert.Spec

open Idealize.ShloMosaic Idealize.ShloMosaic.ValueIdx Cert.LibBatchNorm

variable {C : Nat}

/-- An index of a one-row array is (0, j). -/
theorem row_idx (idx : (⟨2, ![1, C]⟩ : Shape).Idx) : ∃ j : Fin C, idx = ix2 (0 : Fin 1) j := by
  refine ⟨idx 1, ?_⟩
  have key : ∀ (a : Fin 1) (j : Fin C), ix2 a j = ix2 (0 : Fin 1) j := fun a j => by rw [Subsingleton.elim a 0]
  exact (eq_ix2 idx).trans (key _ _)

/-- Second moment minus squared mean is the mean squared deviation, column by column, for real entries. -/
theorem varMomentArr_eq_varCenteredArr (y : Arr 100000 C) (hy : ∀ i, IsFin (y i)) :
    varMomentArr (colSumArr y) (colSumSqArr y) = varCenteredArr y (meanArr (colSumArr y)) := by
  funext idx
  obtain ⟨j, rfl⟩ := row_idx idx
  have key := varMoment_eq_varCentered (fun i : Fin 100000 => y (ix2 i j)) (fun i => hy _) 100000 (by norm_num) (by simp)
  show Ideal.div (∑ i : Fin 100000, y (ix2 i j) * y (ix2 i j)) cntE
      - Ideal.div (∑ i : Fin 100000, y (ix2 i j)) cntE * Ideal.div (∑ i : Fin 100000, y (ix2 i j)) cntE
    = Ideal.div (∑ i : Fin 100000, (y (ix2 i j) - Ideal.div (∑ i : Fin 100000, y (ix2 i j)) cntE)
        * (y (ix2 i j) - Ideal.div (∑ i : Fin 100000, y (ix2 i j)) cntE)) cntE
  rw [cntE_eq]
  exact key

/-- The normalisation from the column sums is the normalisation from the deviations, for real entries. -/
theorem bnArr_moment_eq_centered (y : Arr 100000 C) (hy : ∀ i, IsFin (y i)) (g be : Arr 1 C) :
    bnArr y (meanArr (colSumArr y)) (varMomentArr (colSumArr y) (colSumSqArr y)) g be
      = bnArr y (meanArr (colSumArr y)) (varCenteredArr y (meanArr (colSumArr y))) g be := by
  rw [varMomentArr_eq_varCenteredArr y hy]

/-- A linear layer of real entries has real entries. -/
theorem linArr_isFin {R K : Nat} (h : Arr R K) (W : Arr K C) (b : Arr 1 C) (hh : ∀ i, IsFin (h i)) (hW : ∀ i, IsFin (W i))
    (hb : ∀ i, IsFin (b i)) (idx : (⟨2, ![R, C]⟩ : Shape).Idx) : IsFin (linArr h W b idx) :=
  (isFin_sum _ _ (fun k _ => (hh _).mul (hW _))).add (hb _)

/-- The per-column mean of real entries is real. -/
theorem meanArr_colSum_isFin (y : Arr 100000 C) (hy : ∀ i, IsFin (y i)) (idx : (⟨2, ![1, C]⟩ : Shape).Idx) :
    IsFin (meanArr (colSumArr y) idx) := by
  show IsFin (Ideal.div (∑ i : Fin 100000, y (ix2 i (idx 1))) cntE)
  rw [cntE_eq]
  exact (isFin_sum _ _ (fun i _ => hy _)).div_coe (by norm_num)

/-- The normalisation of real entries with real scale and shift has real entries. -/
theorem bnArr_isFin (y : Arr 100000 C) (hy : ∀ i, IsFin (y i)) (g be : Arr 1 C) (hg : ∀ i, IsFin (g i))
    (hbe : ∀ i, IsFin (be i)) (idx : (⟨2, ![100000, C]⟩ : Shape).Idx) :
    IsFin (bnArr y (meanArr (colSumArr y)) (varCenteredArr y (meanArr (colSumArr y))) g be idx) := by
  obtain ⟨e, he, hee⟩ := epsE_pos
  obtain ⟨s, hs⟩ := rsqrt_var_isFin (fun i : Fin 100000 => y (ix2 i (idx 1))) (fun i => hy _) 100000 (by norm_num) e he
  have hm := meanArr_colSum_isFin y hy (ix2 0 (idx 1))
  have hr : Ideal.rsqrt (varCenteredArr y (meanArr (colSumArr y)) (ix2 0 (idx 1)) + epsE) = (s : EReal) := by
    rw [hee, ← hs]
    show Ideal.rsqrt (Ideal.div (∑ i : Fin 100000, (y (ix2 i (idx 1)) - Ideal.div (∑ i : Fin 100000, y (ix2 i (idx 1))) cntE)
        * (y (ix2 i (idx 1)) - Ideal.div (∑ i : Fin 100000, y (ix2 i (idx 1))) cntE)) cntE + (e : EReal)) = _
    rw [cntE_eq]
  show IsFin ((g (ix2 0 (idx 1)) * (y (ix2 (idx 0) (idx 1)) - meanArr (colSumArr y) (ix2 0 (idx 1))))
      * Ideal.rsqrt (varCenteredArr y (meanArr (colSumArr y)) (ix2 0 (idx 1)) + epsE) + be (ix2 0 (idx 1)))
  rw [hr]
  exact (((hg _).mul ((hy _).sub hm)).mul (isFin_coe s)).add (hbe _)

/-- A per-column vector of real entries, as a one-row array, has real entries. -/
theorem rowOf_isFin (v : Vec1 C) (hv : ∀ i, IsFin (v i)) (idx : (⟨2, ![1, C]⟩ : Shape).Idx) : IsFin (rowOf v idx) := hv _

end Cert.Spec

end
-- ==== Proof.RefValue.lean ====
/-
  The reference's whole result is the common specification, for real inputs.

  Each hidden layer of the reference is two propagation steps, the linear layer and the normalisation with the variance
  taken as the mean squared deviation.  Read at an entry, the linear layer is the affine map and the normalisation its
  textbook formula.  A propagation step keeps real entries real, and so do the affine map and the normalisation; for
  real entries the mean squared deviation is the second moment minus the squared mean, which is how the common
  specification takes the variance.  So each hidden layer of the reference is the specification's hidden layer, with
  real entries again, and the last linear layer is the specification's last affine map.
-/
import proofs.«111273_j58016418234783_1_alg».proof.Proof.OutSpec
import proofs.«111273_j58016418234783_1_alg».proof.Proof.HostRead
import proofs.«111273_j58016418234783_1_alg».proof.Proof.HostFin
import proofs.«111273_j58016418234783_1_alg».proof.Proof.BridgeMath

noncomputable section

namespace Cert.ReferenceIdeal.RefValue

open Cert.Spec Cert.Out Cert.LibBatchNorm Cert.ReferenceIdeal Idealize.ShloMosaic

variable [Cert.ReferenceIdeal.Facts]

/-- Two propagation steps of an array of reals are an array of reals. -/
theorem step2_isFin (e : EI) (h : Arr 100000 128) (hh : ∀ i, IsFin (h i)) :
    ∀ i, IsFin ((HostFn.step (F := Ideal) e (HostFn.step (F := Ideal) e h) : Arr 100000 128) i) :=
  HostFin.step_isFin e _ (HostFin.step_isFin e h hh)

/-- The linear layer after two propagation steps of an array of reals, with real weights and bias, has real entries. -/
theorem linStep2_isFin (e : EI) (h : Arr 100000 128) (W : Arr 128 128) (b : Vec1 128) (hh : ∀ i, IsFin (h i))
    (hW : ∀ i, IsFin (W i)) (hb : ∀ i, IsFin (b i)) :
    ∀ i, IsFin (linArr (HostFn.step (F := Ideal) e (HostFn.step (F := Ideal) e h) : Arr 100000 128) W (rowOf b) i) :=
  linArr_isFin _ W _ (step2_isFin e h hh) hW (rowOf_isFin b hb)

/-- A hidden layer of real inputs has real entries. -/
theorem hidden_isFin (e : EI) (h : Arr 100000 128) (W : Arr 128 128) (b g be : Vec1 128) (hh : ∀ i, IsFin (h i))
    (hW : ∀ i, IsFin (W i)) (hb : ∀ i, IsFin (b i)) (hg : ∀ i, IsFin (g i)) (hbe : ∀ i, IsFin (be i)) :
    ∀ i, IsFin (hidden e h W b g be i) := by
  intro i
  unfold Cert.Out.hidden Cert.Out.prop
  rw [bnArr_moment_eq_centered _ (linStep2_isFin e h W b hh hW hb)]
  exact bnArr_isFin _ (linStep2_isFin e h W b hh hW hb) _ _ (rowOf_isFin g hg) (rowOf_isFin be hbe) i

/-- A hidden layer of the reference is the specification's hidden layer, for real inputs. -/
theorem layer_eq (e : EI) (h : Arr 100000 128) (W : Arr 128 128) (b g be : Vec1 128) (hh : ∀ i, IsFin (h i))
    (hW : ∀ i, IsFin (W i)) (hb : ∀ i, IsFin (b i)) (hg : ∀ i, IsFin (g i)) (hbe : ∀ i, IsFin (be i)) :
    HostFn.bnH (F := Ideal)
        (HostFn.lin128 (F := Ideal) (HostFn.step (F := Ideal) e (HostFn.step (F := Ideal) e h)) W b) g be
      = hidden e h W b g be := by
  unfold Cert.Out.hidden Cert.Out.prop
  rw [HostRead.lin128_eq (HostFn.step (F := Ideal) e (HostFn.step (F := Ideal) e h)) W b,
    HostRead.bnH_eq _ g be, bnArr_moment_eq_centered _ (linStep2_isFin e h W b hh hW hb)]

/-- The reference's whole result is the specification's, for real inputs. -/
theorem result_eq (x : Arr 100000 128) (e : EI) (W1 : Arr 128 128) (b1 g1 be1 : Vec1 128) (W2 : Arr 128 128)
    (b2 g2 be2 : Vec1 128) (W3 : Arr 128 64) (b3 : Vec1 64)
    (hx : ∀ i, IsFin (x i)) (hW1 : ∀ i, IsFin (W1 i)) (hb1 : ∀ i, IsFin (b1 i)) (hg1 : ∀ i, IsFin (g1 i))
    (hbe1 : ∀ i, IsFin (be1 i))
    (hW2 : ∀ i, IsFin (W2 i)) (hb2 : ∀ i, IsFin (b2 i)) (hg2 : ∀ i, IsFin (g2 i)) (hbe2 : ∀ i, IsFin (be2 i)) :
    HostFn.result (F := Ideal) x e W1 b1 g1 be1 W2 b2 g2 be2 W3 b3 = out x e W1 b1 g1 be1 W2 b2 g2 be2 W3 b3 := by
  unfold HostFn.result HostFn.y1 Cert.Out.out
  rw [layer_eq e x W1 b1 g1 be1 hx hW1 hb1 hg1 hbe1,
    layer_eq e (hidden e x W1 b1 g1 be1) W2 b2 g2 be2 (hidden_isFin e x W1 b1 g1 be1 hx hW1 hb1 hg1 hbe1) hW2 hb2 hg2
      hbe2,
    HostRead.lin64_eq]

end Cert.ReferenceIdeal.RefValue

end
-- ==== Proof.Final.lean ====
/-
  The claims, assembled.

  The three frame claims are the generated frames (the reference's is its run with the result dropped).  The algebraic
  claim: both programs end with one and the same array, the network's output as a function of the twelve argument
  arrays — two propagation steps, a linear layer and a normalisation, twice over, then a last linear layer.  The
  kernel's run ends with the value its last region leaves, which is that function of the arguments (the hypothesis of
  `algebraic_of`); the reference's run ends with its own composed stages, which are that function whenever the float
  arguments are real numbers, and they are: the precondition says every entry has absolute value below +infinity.
-/
import proofs.«111273_j58016418234783_1_alg».proof.Defs
import proofs.«111273_j58016418234783_1_alg».proof.Proof.Gen.Kernel
import proofs.«111273_j58016418234783_1_alg».proof.Proof.Gen.Kernel.Frame
import proofs.«111273_j58016418234783_1_alg».proof.Proof.Gen.KernelIdeal
import proofs.«111273_j58016418234783_1_alg».proof.Proof.Gen.KernelIdeal.Frame
import proofs.«111273_j58016418234783_1_alg».proof.Proof.Gen.ReferenceIdeal
import proofs.«111273_j58016418234783_1_alg».proof.Proof.Gen.Pre_finite_inputs
import proofs.«111273_j58016418234783_1_alg».proof.Proof.KRun
import proofs.«111273_j58016418234783_1_alg».proof.Proof.RefRun
import proofs.«111273_j58016418234783_1_alg».proof.Proof.PreFin
import proofs.«111273_j58016418234783_1_alg».proof.Proof.OutSpec
import proofs.«111273_j58016418234783_1_alg».proof.Proof.RefValue

noncomputable section

namespace Cert.Proof.Final

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the network's output of the arguments, given that the kernel's last region leaves it. -/
theorem algebraic_of
    (hk : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      Cert.KernelIdeal.Gen.W12 m ρ c (Proc.devRef .tc Cert.KernelIdeal.main_v106)
        = Cert.Out.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))) :
    Cert.algebraic_KernelIdeal_ReferenceIdeal := by
  intro m ρ m' ρ' hpre hagree
  refine ⟨fun c => Cert.Out.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)), ?_, ?_⟩
  · exact (θ_run Cert.KernelIdeal.defs _ _).mono (fun r h c => ⟨(h c).1.trans (hk m ρ c), (h c).2⟩)
      (Cert.KernelIdeal.KRun.run_main m ρ)
  · refine (θ_run Cert.ReferenceIdeal.defs _ _).mono (fun r h c => ⟨(h c).1.trans ?_, (h c).2⟩)
      (Cert.ReferenceIdeal.RunP.run (F := Ideal) m' ρ')
    unfold Cert.ReferenceIdeal.RunP.res_main_v144
    obtain ⟨a0, a1, a2, a3, a4, a5, a6, a7, a8, a9, a10, a11⟩ := hagree c
    rw [a0, a1, a2, a3, a4, a5, a6, a7, a8, a9, a10, a11]
    obtain ⟨f0, f2, f3, f4, f5, f6, f7, f8, f9⟩ := Cert.PreFin.fn_isFin _ _ _ _ _ _ _ _ _ _ _ _ (hpre c)
    exact Cert.ReferenceIdeal.RefValue.result_eq _ _ _ _ _ _ _ _ _ _ _ _ f0 f2 f3 f4 f5 f6 f7 f8 f9

end Cert.Proof.Final

end
-- ==== Proof.RefStages.lean ====
/-
  The reference's stages over explicit operands: the same functions as its named host functions, with the degree, the
  nodes' values, the edge weights and the two rows of node numbers passed in rather than computed from the edge list.
-/
import proofs.«111273_j58016418234783_1_alg».proof.Proof.RefDefs

noncomputable section

namespace Cert.ReferenceIdeal.HostFn

open Cert.ReferenceIdeal Idealize.ShloMosaic

variable {F : FTy → Type} [FloatOps F] [Cert.ReferenceIdeal.Facts]
open Cert.ReferenceIdeal.Facts₀ Cert.ReferenceIdeal.Facts

/-- "The degree is positive", node by node. -/
def cndW (dg : (⟨S100000, .f32⟩ : BufTy).Contents (Elt F)) : (⟨S100000, .i1⟩ : BufTy).Contents (Elt F) :=
  cmpf .ogt dg (broadcastInDim S100000 ![] bcast_S_S100000 (constant S_ .f32 0x00000000#32))

/-- One over the square root of the degree taken at least one. -/
def invW (dg : (⟨S100000, .f32⟩ : BufTy).Contents (Elt F)) : (⟨S100000, .f32⟩ : BufTy).Contents (Elt F) :=
  Host.divf (broadcastInDim S100000 ![] bcast_S_S100000 (constant S_ .f32 0x3F800000#32))
    (Host.sqrt (maximumf dg (broadcastInDim S100000 ![] bcast_S_S100000 (constant S_ .f32 0x3F800000#32))))

/-- The choice between a per-node value and a scalar repeated over the nodes. -/
def disW (cnd : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select cnd a (broadcastInDim S100000 ![] bcast_S_S100000 (id z))

/-- The edge weights from the nodes' values and the two rows of node numbers. -/
def normW (d : (⟨S100000, .f32⟩ : BufTy).Contents (Elt F)) (r cl : (⟨S1600000, .i32⟩ : BufTy).Contents (Elt F)) :
    (⟨S1600000, .f32⟩ : BufTy).Contents (Elt F) :=
  mulf (Host.gather gather_S100000_S1600000x1_S1600000_n_0_n_n_0_1_1 d (wrapIx r))
    (Host.gather gather_S100000_S1600000x1_S1600000_n_0_n_n_0_1_1 d (wrapIx cl))

/-- One propagation step from the edge weights and the two rows of node numbers. -/
def stepW (nrm : (⟨S1600000, .f32⟩ : BufTy).Contents (Elt F)) (r cl : (⟨S1600000, .i32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (colOf cl)
    (mulf (broadcastInDim S1600000x128 ![0, 1] bcast_S1600000x1_S1600000x128_0_1
        (broadcastInDim S1600000x1 ![0] bcast_S1600000_S1600000x1_0 nrm))
      (Host.gather gather_S100000x128_S1600000x1_S1600000x128_1_0_n_n_0_1_1128 h (wrapIx r)))

theorem dis_eq (e : (⟨S2x1600000, .i32⟩ : BufTy).Contents (Elt F)) :
    dis (F := F) e = disW (cndW (deg e)) (invW (deg e)) (constant S_ .f32 0x00000000#32) := rfl
theorem norm_eq (e : (⟨S2x1600000, .i32⟩ : BufTy).Contents (Elt F)) :
    norm (F := F) e = normW (dis e) (rowIx e) (colIx e) := rfl
theorem step_eq (e : (⟨S2x1600000, .i32⟩ : BufTy).Contents (Elt F)) (h : (⟨S100000x128, .f32⟩ : BufTy).Contents (Elt F)) :
    step (F := F) e h = stepW (norm e) (rowIx e) (colIx e) h := rfl

end Cert.ReferenceIdeal.HostFn

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.KHost.lean ====
/-
  The idealized kernel's host stretches, each read as a function of the contents it starts from.

  A stretch of host operations is a fold over the buffers' contents.  For contents M that hold given values at the
  stretch's operands, each result buffer holds the operations' composed function of those values.  The functions are
  the reference's own stages (both programs run the same host code around the kernel's regions): the degree, its
  inverse square root, the edge weights, the propagation step; the per-column mean and variance from the column sums;
  a per-column vector laid out as a row.  A buffer that no operation of a stretch writes keeps its contents.
-/
import proofs.«111273_j58016418234783_1_alg».proof.Proof.Gen.KernelIdeal.Frame
import proofs.«111273_j58016418234783_1_alg».proof.Proof.RefDefs
import proofs.«111273_j58016418234783_1_alg».proof.Proof.RefStages
import proofs.«111273_j58016418234783_1_alg».proof.Proof.Gen.ReferenceIdeal
import proofs.«111273_j58016418234783_1_alg».proof.Proof.Spec2
import proofs.«111273_j58016418234783_1_alg».proof.Proof.BridgeMath
import proofs.«111273_j58016418234783_1_alg».proof.Proof.LibRowCast
import Idealize.ShloMosaic.PureOps.Ideal
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.ValueIdx
open Cert.ReferenceIdeal.HostFn Cert.Spec

/-- Discharges "no operation of this stretch writes the buffer": the stretch's list opened, each operation's written
    buffer compared with the buffer by deciding the references' inequality. -/
macro "kept" : tactic => `(tactic|
  exact List.forall_iff_forall_mem.mp (by
    simp only [hostOps0, hostOps0_1, hostOps0_2, hostOps1, hostOps2, hostOps3, hostOps4,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- "No operation of the list writes the buffer". -/
abbrev Kept (ops : List (HloOp τ sig (Elt Ideal))) (b : Ref sig .tc) : Prop :=
  ∀ op ∈ ops, (Proc.devRef .tc b : DevRef τ sig) ∉ op.writes

/-- A buffer no operation of the stretch writes keeps its contents. -/
theorem keeps (ops : List (HloOp τ sig (Elt Ideal))) (M : Valuation τ sig (Elt Ideal)) (b : Ref sig .tc) (h : Kept ops b) :
    StableHlo.after ops M (Proc.devRef .tc b) = M (Proc.devRef .tc b) :=
  StableHlo.after_of_forall_not_mem (b := Proc.devRef .tc b) ops M h

/-! ### The reference's stages over explicit operands -/

abbrev RI32 : Type := (⟨Cert.ReferenceIdeal.S1600000, .i32⟩ : BufTy).Contents (Elt Ideal)
abbrev RE : Type := (⟨Cert.ReferenceIdeal.S1600000, .f32⟩ : BufTy).Contents (Elt Ideal)
abbrev RN : Type := (⟨Cert.ReferenceIdeal.S100000, .f32⟩ : BufTy).Contents (Elt Ideal)
abbrev RX : Type := (⟨Cert.ReferenceIdeal.S100000x128, .f32⟩ : BufTy).Contents (Elt Ideal)
abbrev REI : Type := (⟨Cert.ReferenceIdeal.S2x1600000, .i32⟩ : BufTy).Contents (Elt Ideal)

variable (M : Valuation τ sig (Elt Ideal))

/-! ### The first stretch: the rows of node numbers, the degree test and the inverse square root -/

section S0
variable (e : REI) (h1 : M (Proc.devRef .tc main_arg1) = e)
include h1

theorem s0_v1 : StableHlo.after hostOps0 M (Proc.devRef .tc main_v1) = rowIx (F := Ideal) e := by
  simp only [hostOps0]; after_results_simp; rw [h1]; rfl
theorem s0_v3 : StableHlo.after hostOps0 M (Proc.devRef .tc main_v3) = colIx (F := Ideal) e := by
  simp only [hostOps0]; after_results_simp; rw [h1]; rfl
theorem s0_v9 : StableHlo.after hostOps0 M (Proc.devRef .tc main_v9) = cndW (deg (F := Ideal) e) := by
  simp only [hostOps0]; after_results_simp; rw [h1]; rfl
theorem s0_v14 : StableHlo.after hostOps0 M (Proc.devRef .tc main_v14) = invW (deg (F := Ideal) e) := by
  simp only [hostOps0]; after_results_simp; rw [h1]; rfl
omit h1 in
theorem s0_cst4 : StableHlo.after hostOps0 M (Proc.devRef .tc main_cst_4)
    = constant (F := Ideal) Cert.ReferenceIdeal.S_ .f32 0x00000000#32 := by
  simp only [hostOps0]; after_results_simp
end S0

/-! ### The outlined choice -/

theorem s01_v15 (cnd : (⟨Cert.ReferenceIdeal.S100000, .i1⟩ : BufTy).Contents (Elt Ideal)) (a : RN)
    (z : (⟨Cert.ReferenceIdeal.S_, .f32⟩ : BufTy).Contents (Elt Ideal))
    (h9 : M (Proc.devRef .tc main_v9) = cnd) (h14 : M (Proc.devRef .tc main_v14) = a)
    (hz : M (Proc.devRef .tc main_cst_4) = z) :
    StableHlo.after hostOps0_1 M (Proc.devRef .tc main_v15) = disW cnd a z := by
  simp only [hostOps0_1]; after_results_simp; rw [h9, h14, hz]; rfl

/-! ### The third stretch: the edge weights, two propagation steps, the first bias as a row -/

section S02
variable (d : RN) (r cl : RI32) (h15 : M (Proc.devRef .tc main_v15) = d) (h1 : M (Proc.devRef .tc main_v1) = r)
  (h3 : M (Proc.devRef .tc main_v3) = cl)
include h15 h1 h3

theorem s02_v30 : StableHlo.after hostOps0_2 M (Proc.devRef .tc main_v30) = normW d r cl := by
  simp only [hostOps0_2]; after_results_simp; rw [h15, h1, h3]; rfl

theorem s02_v56 (x : RX) (h0 : M (Proc.devRef .tc main_arg0) = x) :
    StableHlo.after hostOps0_2 M (Proc.devRef .tc main_v56)
      = stepW (normW d r cl) r cl (stepW (normW d r cl) r cl x) := by
  simp only [hostOps0_2]; after_results_simp; rw [h15, h1, h3, h0]; rfl
end S02

/-! ### The stretch before region 2: two propagation steps of the first hidden layer -/

theorem s2_v93 (nrm : RE) (r cl : RI32) (h : RX) (hn : M (Proc.devRef .tc main_v30) = nrm)
    (h1 : M (Proc.devRef .tc main_v1) = r) (h3 : M (Proc.devRef .tc main_v3) = cl)
    (hh : M (Proc.devRef .tc main_v67) = h) :
    StableHlo.after hostOps2 M (Proc.devRef .tc main_v93) = stepW nrm r cl (stepW nrm r cl h) := by
  simp only [hostOps2]; after_results_simp; rw [hn, h1, h3, hh]; rfl

end Cert.KernelIdeal.KHost

end
-- ==== Proof.KHostSmall.lean ====
/-
  The idealized kernel's short host stretches, each read as a function of the contents it starts from.

  Between two regions the host turns the column sums into the per-column mean and variance: the sums s and q of a
  column of y and of y · y, each divided by the row count, give the mean and the second moment, and the variance is the
  second moment minus the squared mean.  It also lays a per-column vector (a scale, a shift, a bias) out as a one-row
  array: the row's entry at column j is the vector's entry j.  A buffer that no operation of a stretch writes keeps
  its contents.
-/
import proofs.«111273_j58016418234783_1_alg».proof.Proof.Gen.KernelIdeal.Frame
import proofs.«111273_j58016418234783_1_alg».proof.Proof.Spec2
import proofs.«111273_j58016418234783_1_alg».proof.Proof.BridgeMath
import proofs.«111273_j58016418234783_1_alg».proof.Proof.LibRowCast
import Idealize.ShloMosaic.PureOps.Ideal
import Idealize.ShloMosaic.Lib.StableHlo.Run

set_option maxRecDepth 16384

noncomputable section

namespace Cert.KernelIdeal.KHostSmall

open Cert.KernelIdeal Cert.KernelIdeal.Gen
open Idealize.ShloMosaic Idealize.ShloMosaic.TcCoe Idealize.SL.Sem Idealize.ShloMosaic.ValueIdx
open Cert.Spec

/-- Discharges "no operation of this stretch writes the buffer": the stretch's list opened, each operation's written
    buffer compared with the buffer by deciding the references' inequality. -/
macro "kept_small" : tactic => `(tactic|
  exact List.forall_iff_forall_mem.mp (by
    simp only [hostOps0_2, hostOps1, hostOps2, hostOps3, hostOps4,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- "No operation of the list writes the buffer". -/
abbrev Kept (ops : List (HloOp τ sig (Elt Ideal))) (b : Ref sig .tc) : Prop :=
  ∀ op ∈ ops, (Proc.devRef .tc b : DevRef τ sig) ∉ op.writes

/-- A buffer no operation of the stretch writes keeps its contents. -/
theorem keeps (ops : List (HloOp τ sig (Elt Ideal))) (M : Valuation τ sig (Elt Ideal)) (b : Ref sig .tc) (h : Kept ops b) :
    StableHlo.after ops M (Proc.devRef .tc b) = M (Proc.devRef .tc b) :=
  StableHlo.after_of_forall_not_mem (b := Proc.devRef .tc b) ops M h

/-- A vector reshaped to one row is the vector laid out as a row. -/
theorem shapeCast_rowOf {n : ℕ} (v : Vec1 n) (h : (⟨1, ![n]⟩ : Shape).ShapeCasts ⟨2, ![1, n]⟩) :
    shapeCast ⟨2, ![1, n]⟩ v h = rowOf v := by
  funext idx
  obtain ⟨j, rfl⟩ := row_idx idx
  exact Idealize.ShloMosaic.RowCast.shapeCast_row_apply _ _ _ _

variable (M : Valuation τ sig (Elt Ideal))

/-! ### Between the first statistics region and the first normalisation region -/

theorem s1_y : StableHlo.after hostOps1 M (Proc.devRef .tc main_v58_0) = M (Proc.devRef .tc main_v58_0) :=
  keeps hostOps1 M main_v58_0 (by kept_small)

theorem s1_mu (s : Arr 1 128) (hs : M (Proc.devRef .tc main_v58_1) = s) :
    StableHlo.after hostOps1 M (Proc.devRef .tc main_v60) = meanArr s := by
  simp only [hostOps1]; after_results_simp; rw [hs]; rfl

theorem s1_var (s q : Arr 1 128) (hs : M (Proc.devRef .tc main_v58_1) = s) (hq : M (Proc.devRef .tc main_v58_2) = q) :
    StableHlo.after hostOps1 M (Proc.devRef .tc main_v64) = varMomentArr s q := by
  simp only [hostOps1]; after_results_simp; rw [hs, hq]; rfl

theorem s1_g (g : Vec1 128) (hg : M (Proc.devRef .tc main_arg4) = g) :
    StableHlo.after hostOps1 M (Proc.devRef .tc main_v65) = rowOf g := by
  simp only [hostOps1]; after_results_simp; rw [hg]; exact shapeCast_rowOf g _

theorem s1_be (be : Vec1 128) (hbe : M (Proc.devRef .tc main_arg5) = be) :
    StableHlo.after hostOps1 M (Proc.devRef .tc main_v66) = rowOf be := by
  simp only [hostOps1]; after_results_simp; rw [hbe]; exact shapeCast_rowOf be _

/-! ### Between the second statistics region and the second normalisation region -/

theorem s3_y : StableHlo.after hostOps3 M (Proc.devRef .tc main_v95_0) = M (Proc.devRef .tc main_v95_0) :=
  keeps hostOps3 M main_v95_0 (by kept_small)

theorem s3_mu (s : Arr 1 128) (hs : M (Proc.devRef .tc main_v95_1) = s) :
    StableHlo.after hostOps3 M (Proc.devRef .tc main_v97) = meanArr s := by
  simp only [hostOps3]; after_results_simp; rw [hs]; rfl

theorem s3_var (s q : Arr 1 128) (hs : M (Proc.devRef .tc main_v95_1) = s) (hq : M (Proc.devRef .tc main_v95_2) = q) :
    StableHlo.after hostOps3 M (Proc.devRef .tc main_v101) = varMomentArr s q := by
  simp only [hostOps3]; after_results_simp; rw [hs, hq]; rfl

theorem s3_g (g : Vec1 128) (hg : M (Proc.devRef .tc main_arg8) = g) :
    StableHlo.after hostOps3 M (Proc.devRef .tc main_v102) = rowOf g := by
  simp only [hostOps3]; after_results_simp; rw [hg]; exact shapeCast_rowOf g _

theorem s3_be (be : Vec1 128) (hbe : M (Proc.devRef .tc main_arg9) = be) :
    StableHlo.after hostOps3 M (Proc.devRef .tc main_v103) = rowOf be := by
  simp only [hostOps3]; after_results_simp; rw [hbe]; exact shapeCast_rowOf be _

/-! ### The bias rows -/

theorem s02_b (b : Vec1 128) (hb : M (Proc.devRef .tc main_arg3) = b) :
    StableHlo.after hostOps0_2 M (Proc.devRef .tc main_v57) = rowOf b := by
  simp only [hostOps0_2]; after_results_simp; rw [hb]; exact shapeCast_rowOf b _

theorem s2_b (b : Vec1 128) (hb : M (Proc.devRef .tc main_arg7) = b) :
    StableHlo.after hostOps2 M (Proc.devRef .tc main_v94) = rowOf b := by
  simp only [hostOps2]; after_results_simp; rw [hb]; exact shapeCast_rowOf b _

theorem s4_b (b : Vec1 64) (hb : M (Proc.devRef .tc main_arg11) = b) :
    StableHlo.after hostOps4 M (Proc.devRef .tc main_v105) = rowOf b := by
  simp only [hostOps4]; after_results_simp; rw [hb]; exact shapeCast_rowOf b _

theorem s4_h : StableHlo.after hostOps4 M (Proc.devRef .tc main_v104) = M (Proc.devRef .tc main_v104) :=
  keeps hostOps4 M main_v104 (by kept_small)

end Cert.KernelIdeal.KHostSmall

end
-- ==== Proof.Walk.lean ====
/-
  A buffer's contents walked back through the program's segments.

  The program is a chain of segments: stretches of host operations and, between them, the five regions.  A stretch
  leaves every buffer it does not write as it found it, and a region leaves every buffer that is not one of its
  windows' arrays as it found it.  So a buffer that none of the first k segments touches holds, at the k-th boundary,
  what the launch memory held (`a1` … `a11`, one more segment each); and a buffer written before the first region
  and untouched by the first two regions and the stretch between them holds, after the second region, what it held
  when the first region was entered (`b4`, `b6`).  The instances below are those facts for the arguments and
  intermediate buffers the later segments read.
-/
import proofs.«111273_j58016418234783_1_alg».proof.Proof.KHost

set_option maxRecDepth 16384

noncomputable section

namespace Cert.KernelIdeal.Walk

open Cert.KernelIdeal Cert.KernelIdeal.Gen
open Idealize.ShloMosaic Idealize.ShloMosaic.TcCoe Idealize.SL.Sem Idealize.ShloMosaic.ValueIdx
open Cert.ReferenceIdeal.HostFn Cert.Spec
open Cert.KernelIdeal.KHost

variable (m : (ℓ : Loc nD τ sig) → Buf (Elt Ideal) ℓ) (ρ : Dev nD → PrngReg) (c : Dev nD) (b : Ref sig .tc)

/-- At launch a buffer holds the launch memory's contents. -/
theorem a0 : W0 m ρ c (Proc.devRef .tc b) = m ((c : Thread nD τ).loc b) := rfl

/-- One more stretch of host operations that does not write the buffer. -/
theorem a1 (k0 : Kept hostOps0 b) :
    W1 m ρ c (Proc.devRef .tc b) = m ((c : Thread nD τ).loc b) :=
  (keeps hostOps0 (W0 m ρ c) b k0).trans (a0 m ρ c b)

/-- One more stretch of host operations that does not write the buffer. -/
theorem a2 (k0 : Kept hostOps0 b) (k01 : Kept hostOps0_1 b) :
    W2 m ρ c (Proc.devRef .tc b) = m ((c : Thread nD τ).loc b) :=
  (keeps hostOps0_1 (W1 m ρ c) b k01).trans (a1 m ρ c b k0)

/-- One more stretch of host operations that does not write the buffer. -/
theorem a3 (k0 : Kept hostOps0 b) (k01 : Kept hostOps0_1 b) (k02 : Kept hostOps0_2 b) :
    W3 m ρ c (Proc.devRef .tc b) = m ((c : Thread nD τ).loc b) :=
  (keeps hostOps0_2 (W2 m ρ c) b k02).trans (a2 m ρ c b k0 k01)

/-- One more region none of whose arrays is the buffer. -/
theorem a4 (k0 : Kept hostOps0 b) (k01 : Kept hostOps0_1 b) (k02 : Kept hostOps0_2 b) (n0 : ∀ w, Pipeline.arrRef spec0 w ≠ b) :
    W4 m ρ c (Proc.devRef .tc b) = m ((c : Thread nD τ).loc b) :=
  (W4_of_ne m ρ c b n0).trans (a3 m ρ c b k0 k01 k02)

/-- One more stretch of host operations that does not write the buffer. -/
theorem a5 (k0 : Kept hostOps0 b) (k01 : Kept hostOps0_1 b) (k02 : Kept hostOps0_2 b) (n0 : ∀ w, Pipeline.arrRef spec0 w ≠ b) (k1 : Kept hostOps1 b) :
    W5 m ρ c (Proc.devRef .tc b) = m ((c : Thread nD τ).loc b) :=
  (keeps hostOps1 (W4 m ρ c) b k1).trans (a4 m ρ c b k0 k01 k02 n0)

/-- One more region none of whose arrays is the buffer. -/
theorem a6 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) :
    W6 m ρ c (Proc.devRef .tc b) = m ((c : Thread nD τ).loc b) :=
  (W6_of_ne m ρ c b n1).trans (a5 m ρ c b k0 k01 k02 n0 k1)

/-- One more stretch of host operations that does not write the buffer. -/
theorem a7 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) (k2 : Kept hostOps2 b) :
    W7 m ρ c (Proc.devRef .tc b) = m ((c : Thread nD τ).loc b) :=
  (keeps hostOps2 (W6 m ρ c) b k2).trans (a6 m ρ c b k0 k01 k02 n0 k1 n1)

/-- One more region none of whose arrays is the buffer. -/
theorem a8 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) (k2 : Kept hostOps2 b) (n2 : ∀ w, Pipeline.arrRef spec2 w ≠ b) :
    W8 m ρ c (Proc.devRef .tc b) = m ((c : Thread nD τ).loc b) :=
  (W8_of_ne m ρ c b n2).trans (a7 m ρ c b k0 k01 k02 n0 k1 n1 k2)

/-- One more stretch of host operations that does not write the buffer. -/
theorem a9 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) (k2 : Kept hostOps2 b) (n2 : ∀ w, Pipeline.arrRef spec2 w ≠ b) (k3 : Kept hostOps3 b) :
    W9 m ρ c (Proc.devRef .tc b) = m ((c : Thread nD τ).loc b) :=
  (keeps hostOps3 (W8 m ρ c) b k3).trans (a8 m ρ c b k0 k01 k02 n0 k1 n1 k2 n2)

/-- One more region none of whose arrays is the buffer. -/
theorem a10 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) (k2 : Kept hostOps2 b) (n2 : ∀ w, Pipeline.arrRef spec2 w ≠ b) (k3 : Kept hostOps3 b) (n3 : ∀ w, Pipeline.arrRef spec3 w ≠ b) :
    W10 m ρ c (Proc.devRef .tc b) = m ((c : Thread nD τ).loc b) :=
  (W10_of_ne m ρ c b n3).trans (a9 m ρ c b k0 k01 k02 n0 k1 n1 k2 n2 k3)

/-- One more stretch of host operations that does not write the buffer. -/
theorem a11 (k0 : Kept hostOps0 b) (k01 : Kept hostOps0_1 b) (k02 : Kept hostOps0_2 b) (n0 : ∀ w, Pipeline.arrRef spec0 w ≠ b) (k1 : Kept hostOps1 b) (n1 : ∀ w, Pipeline.arrRef spec1 w ≠ b) (k2 : Kept hostOps2 b) (n2 : ∀ w, Pipeline.arrRef spec2 w ≠ b) (k3 : Kept hostOps3 b) (n3 : ∀ w, Pipeline.arrRef spec3 w ≠ b) (k4 : Kept hostOps4 b) :
    W11 m ρ c (Proc.devRef .tc b) = m ((c : Thread nD τ).loc b) :=
  (keeps hostOps4 (W10 m ρ c) b k4).trans (a10 m ρ c b k0 k01 k02 n0 k1 n1 k2 n2 k3 n3)

/-- A buffer that is none of the first region's arrays holds, after it, what it held when the region was entered. -/
theorem b4 (n0 : ∀ w, Pipeline.arrRef spec0 w ≠ b) : W4 m ρ c (Proc.devRef .tc b) = W3 m ρ c (Proc.devRef .tc b) :=
  W4_of_ne m ρ c b n0

/-- The same through the next stretch and the second region. -/
theorem b6 (n0 : ∀ w, Pipeline.arrRef spec0 w ≠ b) (k1 : Kept hostOps1 b) (n1 : ∀ w, Pipeline.arrRef spec1 w ≠ b) :
    W6 m ρ c (Proc.devRef .tc b) = W3 m ρ c (Proc.devRef .tc b) :=
  (W6_of_ne m ρ c b n1).trans ((keeps hostOps1 (W4 m ρ c) b k1).trans (b4 m ρ c b n0))

/-! ## The instances -/
theorem W2_arg0 : W2 m ρ c (Proc.devRef .tc main_arg0) = m ((c : Thread nD τ).loc main_arg0) :=
  a2 m ρ c main_arg0 (by kept) (by kept)
theorem W2_arg3 : W2 m ρ c (Proc.devRef .tc main_arg3) = m ((c : Thread nD τ).loc main_arg3) :=
  a2 m ρ c main_arg3 (by kept) (by kept)
theorem W3_arg2 : W3 m ρ c (Proc.devRef .tc main_arg2) = m ((c : Thread nD τ).loc main_arg2) :=
  a3 m ρ c main_arg2 (by kept) (by kept) (by kept)
theorem W4_arg4 : W4 m ρ c (Proc.devRef .tc main_arg4) = m ((c : Thread nD τ).loc main_arg4) :=
  a4 m ρ c main_arg4 (by kept) (by kept) (by kept) (by decide)
theorem W4_arg5 : W4 m ρ c (Proc.devRef .tc main_arg5) = m ((c : Thread nD τ).loc main_arg5) :=
  a4 m ρ c main_arg5 (by kept) (by kept) (by kept) (by decide)
theorem W6_arg7 : W6 m ρ c (Proc.devRef .tc main_arg7) = m ((c : Thread nD τ).loc main_arg7) :=
  a6 m ρ c main_arg7 (by kept) (by kept) (by kept) (by decide) (by kept) (by decide)
theorem W7_arg6 : W7 m ρ c (Proc.devRef .tc main_arg6) = m ((c : Thread nD τ).loc main_arg6) :=
  a7 m ρ c main_arg6 (by kept) (by kept) (by kept) (by decide) (by kept) (by decide) (by kept)
theorem W8_arg8 : W8 m ρ c (Proc.devRef .tc main_arg8) = m ((c : Thread nD τ).loc main_arg8) :=
  a8 m ρ c main_arg8 (by kept) (by kept) (by kept) (by decide) (by kept) (by decide) (by kept) (by decide)
theorem W8_arg9 : W8 m ρ c (Proc.devRef .tc main_arg9) = m ((c : Thread nD τ).loc main_arg9) :=
  a8 m ρ c main_arg9 (by kept) (by kept) (by kept) (by decide) (by kept) (by decide) (by kept) (by decide)
theorem W10_arg11 : W10 m ρ c (Proc.devRef .tc main_arg11) = m ((c : Thread nD τ).loc main_arg11) :=
  a10 m ρ c main_arg11 (by kept) (by kept) (by kept) (by decide) (by kept) (by decide) (by kept) (by decide) (by kept) (by decide)
theorem W11_arg10 : W11 m ρ c (Proc.devRef .tc main_arg10) = m ((c : Thread nD τ).loc main_arg10) :=
  a11 m ρ c main_arg10 (by kept) (by kept) (by kept) (by decide) (by kept) (by decide) (by kept) (by decide) (by kept) (by decide) (by kept)
theorem W6_v30 : W6 m ρ c (Proc.devRef .tc main_v30) = W3 m ρ c (Proc.devRef .tc main_v30) :=
  b6 m ρ c main_v30 (by decide) (by kept) (by decide)
theorem W6_v1 : W6 m ρ c (Proc.devRef .tc main_v1) = W3 m ρ c (Proc.devRef .tc main_v1) :=
  b6 m ρ c main_v1 (by decide) (by kept) (by decide)
theorem W6_v3 : W6 m ρ c (Proc.devRef .tc main_v3) = W3 m ρ c (Proc.devRef .tc main_v3) :=
  b6 m ρ c main_v3 (by decide) (by kept) (by decide)

end Cert.KernelIdeal.Walk

end
-- ==== Proof.Stats0Pay.lean ====
/-
  The arithmetic of one grid point of the affine-layer-with-statistics body, read at an entry, at the ideal values:
  the block of h W + b (`pay3_apply`), the updated column sums (`pay4_apply`) and the updated column sums of squares
  (`pay5_apply`), and the zero rows the first point stores (`pay1_apply`, `pay2_apply`).
-/
import proofs.«111273_j58016418234783_1_alg».proof.Proof.Gen.KernelIdeal.Skeleton
import proofs.«111273_j58016418234783_1_alg».proof.Proof.Spec
import proofs.«111273_j58016418234783_1_alg».proof.Proof.LibPlainProduct
import proofs.«111273_j58016418234783_1_alg».proof.Proof.LibColumnSum
import Idealize.ShloMosaic.Lib.Pipeline.Value
import Idealize.ShloMosaic.Lib.ValueLayout

noncomputable section

open scoped BigOperators

namespace Cert.KernelIdeal.Stats0Pay

open Cert.KernelIdeal Cert.KernelIdeal.Gen Cert.Spec Idealize.ShloMosaic Idealize.ShloMosaic.ValueIdx

/-- The block of the affine layer the body stores: at row p and column q of the block, the contraction of row p of
    the block of h with column q of W, plus the bias of column q.  Rounding the operands to bf16 is the identity on
    the extended reals, and the product is accumulated into a zero block. -/
theorem pay3_apply (x0 : Vec Ideal S5000x128 .f32) (x1 : Vec Ideal S128x128 .f32) (x2 : Vec Ideal S1x128 .f32)
    (p : Fin 5000) (q : Fin 128) :
    k0_pay3 x0 x1 x2 (ix2 p q) = (∑ k : Fin 128, x0 (ix2 p k) * x1 (ix2 k q)) + x2 (ix2 (0 : Fin 1) q) := by
  unfold k0_pay3
  refine (addf_apply _ _ (ix2 p q)).trans ?_
  refine congrArg₂ (· + ·) ?_ ?_
  · refine (Cert.LibPlainProduct.matmul_zero_plain_apply dot_S5000x128_S128x128_S5000x128_1_0_0_1_n_n_wf none _ _ p q).trans ?_
    refine Finset.sum_congr rfl fun k _ => ?_
    rw [truncf_apply, truncf_apply, shapeCast_self]
  · refine (broadcastTo_1b_ab_apply _ broadcasts_S1x128_S5000x128 p q).trans ?_
    rw [shapeCast_self]

/-- The one-row index (u, j) with its leading unit coordinate dropped is the vector index j. -/
theorem drop_unit (u : Fin 1) (j : Fin 128) : (fun a : Fin 1 => (ix2 u j : S1x128.Idx) a.succ) = (ix1 j : S128.Idx) := by
  funext a
  match a with
  | ⟨0, _⟩ => rfl

/-- The lane sums of a block over its 5000 rows, kept as one row: at column j the sum of the block's column j. -/
theorem rowOfLaneSums_apply (x : FVec Ideal S5000x128 .f32) (u : Fin 1) (j : Fin 128) :
    shapeCast S1x128 (multiReduction .add [0] S128 x 0x00000000#32 reduces_S5000x128_S128 (.inl rfl) rfl) shapeCasts_S128_S1x128 (ix2 u j)
      = ∑ g : Fin 5000, x (ix2 g j) := by
  refine (shapeCast_addUnit_apply ![128] _ shapeCasts_S128_S1x128 (ix2 u j)).trans ?_
  rw [drop_unit]
  exact Cert.LibColumnSum.laneColSum_apply x 0x00000000#32 reduces_S5000x128_S128 (.inl rfl) rfl j

/-- The updated column sums: what the accumulator held plus the column sums of the block of the affine layer. -/
theorem pay4_apply (x0 : Vec Ideal S5000x128 .f32) (x1 : Vec Ideal S128x128 .f32) (x2 : Vec Ideal S1x128 .f32)
    (acc : Vec Ideal S1x128 .f32) (u : Fin 1) (j : Fin 128) :
    k0_pay4 x0 x1 x2 acc (ix2 u j) = acc (ix2 u j) + ∑ g : Fin 5000, k0_pay3 x0 x1 x2 (ix2 g j) := by
  unfold k0_pay4
  refine (addf_apply _ _ (ix2 u j)).trans ?_
  refine congrArg₂ (· + ·) ?_ ?_
  · rw [shapeCast_self]
  · exact rowOfLaneSums_apply (k0_pay3 x0 x1 x2) u j

/-- The updated column sums of squares: what the accumulator held plus the column sums of the squared entries of the
    block of the affine layer. -/
theorem pay5_apply (x0 : Vec Ideal S5000x128 .f32) (x1 : Vec Ideal S128x128 .f32) (x2 : Vec Ideal S1x128 .f32)
    (acc : Vec Ideal S1x128 .f32) (u : Fin 1) (j : Fin 128) :
    k0_pay5 x0 x1 x2 acc (ix2 u j)
      = acc (ix2 u j) + ∑ g : Fin 5000, k0_pay3 x0 x1 x2 (ix2 g j) * k0_pay3 x0 x1 x2 (ix2 g j) := by
  unfold k0_pay5
  refine (addf_apply _ _ (ix2 u j)).trans ?_
  refine congrArg₂ (· + ·) ?_ ?_
  · rw [shapeCast_self]
  · refine (rowOfLaneSums_apply (mulf (k0_pay3 x0 x1 x2) (k0_pay3 x0 x1 x2)) u j).trans ?_
    exact Finset.sum_congr rfl fun g _ => mulf_apply _ _ (ix2 g j)

/-- The zero row the first point stores into an accumulator. -/
theorem pay1_apply (i : S1x128.Idx) : k0_pay1 (F := Ideal) i = 0 := by
  unfold k0_pay1
  exact Ideal.ofBits_zero_f32

theorem pay2_apply (i : S1x128.Idx) : k0_pay2 (F := Ideal) i = 0 := by
  unfold k0_pay2
  exact Ideal.ofBits_zero_f32

end Cert.KernelIdeal.Stats0Pay

end
-- ==== Proof.Stats0Pieces.lean ====
/-
  What the body of the affine-layer-with-statistics kernel leaves in each output block, in each of its two control
  cases (the first grid point, which zeroes the two accumulators before adding to them; every later point, which adds
  to what they held): each is the payload of the last store into that block, every load reading a whole buffer.
  For any float values.
-/
import proofs.«111273_j58016418234783_1_alg».proof.Proof.Gen.KernelIdeal.Frame
import Idealize.ShloMosaic.Lib.Pipeline.Value
import Idealize.ShloMosaic.Lib.Tactic

noncomputable section

namespace Cert.KernelIdeal.Stats0Pieces

open Cert.KernelIdeal Cert.KernelIdeal.Gen Idealize.ShloMosaic
open Idealize.ShloMosaic.TcCoe Idealize.SL.Sem

variable {F : FTy → Type} [FloatOps F]

theorem hz : (![0, 0] : Fin 2 → Nat) = fun _ => 0 := funext fun a => by fin_cases a <;> rfl

/-- At the first point the body leaves, in the block of the affine layer, the block computed from the three input
    blocks: its one store covers the block. -/
theorem out_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S5000x128 .f32) (x1 : Vec F S128x128 .f32) (x2 : Vec F S1x128 .f32) :
    out0_A_3 c i arg1 harg1 arg2 harg2 arg3 harg3 arg4 harg4 arg5 harg5 arg6 harg6 hc0 x0 x1 x2 = k0_pay3 x0 x1 x2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  try sl_unfold_words
  rw [View.canon_unit_zero hz]
  simp only [View.readAt_eq_ld, harg1.read_unread, harg2.read_unread, harg3.read_unread, View.ld_unit_zero (S := S5000x128) hz, View.ld_unit_zero (S := S128x128) hz, View.ld_unit_zero (S := S1x128) hz]

/-- At a later point the same block is left. -/
theorem out_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S5000x128 .f32) (x1 : Vec F S128x128 .f32) (x2 : Vec F S1x128 .f32) (xo4 xo5 : Vec F S1x128 .f32) :
    out0_B_3 c i arg1 harg1 arg2 harg2 arg3 harg3 arg4 harg4 arg5 harg5 arg6 harg6 hc0 x0 x1 x2 xo4 xo5 = k0_pay3 x0 x1 x2 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

/-- At the first point the accumulator of column sums is zeroed, read back, and left at the zero row plus the block's
    column sums. -/
theorem out_A_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S5000x128 .f32) (x1 : Vec F S128x128 .f32) (x2 : Vec F S1x128 .f32) :
    out0_A_4 c i arg1 harg1 arg2 harg2 arg3 harg3 arg4 harg4 arg5 harg5 arg6 harg6 hc0 x0 x1 x2 = k0_pay4 x0 x1 x2 (k0_pay1 (F := F)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S5000x128) hz, View.ld_unit_zero (S := S128x128) hz, View.ld_unit_zero (S := S1x128) hz]

/-- At a later point the accumulator of column sums is left at what it held plus the block's column sums. -/
theorem out_B_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S5000x128 .f32) (x1 : Vec F S128x128 .f32) (x2 : Vec F S1x128 .f32) (xo4 xo5 : Vec F S1x128 .f32) :
    out0_B_4 c i arg1 harg1 arg2 harg2 arg3 harg3 arg4 harg4 arg5 harg5 arg6 harg6 hc0 x0 x1 x2 xo4 xo5 = k0_pay4 x0 x1 x2 xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

/-- The same for the accumulator of column sums of squares, at the first point -/
theorem out_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S5000x128 .f32) (x1 : Vec F S128x128 .f32) (x2 : Vec F S1x128 .f32) :
    out0_A_5 c i arg1 harg1 arg2 harg2 arg3 harg3 arg4 harg4 arg5 harg5 arg6 harg6 hc0 x0 x1 x2 = k0_pay5 x0 x1 x2 (k0_pay2 (F := F)) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S5000x128) hz, View.ld_unit_zero (S := S128x128) hz, View.ld_unit_zero (S := S1x128) hz]

/-- and at a later point. -/
theorem out_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S5000x128 .f32) (x1 : Vec F S128x128 .f32) (x2 : Vec F S1x128 .f32) (xo4 xo5 : Vec F S1x128 .f32) :
    out0_B_5 c i arg1 harg1 arg2 harg2 arg3 harg3 arg4 harg4 arg5 harg5 arg6 harg6 hc0 x0 x1 x2 xo4 xo5 = k0_pay5 x0 x1 x2 xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

end Cert.KernelIdeal.Stats0Pieces

end
-- ==== Proof.Stats0.lean ====
/-
  The value of the affine-layer-with-statistics region, read off its generated frame for any contents the region finds.

  The region walks 20 grid points.  At point t it reads rows 5000 t … 5000 t + 4999 of h, all of W and the bias row b,
  stores the block y = h W + b of those rows, and adds the block's column sums, and the column sums of its squared
  entries, onto two one-row accumulators that are zeroed at the first point and carried from point to point.

  * The array y: every point writes its own block back, block t is the affine layer of the whole arrays restricted to
    its rows (`flushed3_eq`), and the twenty blocks cover the array (`cover3`): the array ends at h W + b (`y_eq`).
  * The two accumulators: by induction on the point, after point n column j holds the sum of column j of y (of its
    squares) over the rows of blocks 0 … n (`acc4_eq`, `acc5_eq`); twenty blocks of 5000 rows are the 100000 rows, a
    regrouping that uses only commutativity and associativity of addition on the extended reals (`rowsF_total`);
    the one write-back, after the last point, writes the whole row (`s_eq`, `q_eq`).
-/
import proofs.«111273_j58016418234783_1_alg».proof.Proof.Gen.KernelIdeal.Frame
import proofs.«111273_j58016418234783_1_alg».proof.Proof.Spec
import proofs.«111273_j58016418234783_1_alg».proof.Proof.LibBatchNorm
import proofs.«111273_j58016418234783_1_alg».proof.Proof.Stats0Pay
import proofs.«111273_j58016418234783_1_alg».proof.Proof.Stats0Pieces
import Idealize.ShloMosaic.Lib.Pipeline.Value
import Idealize.ShloMosaic.Lib.Tactic

noncomputable section

open scoped BigOperators

namespace Cert.KernelIdeal.Stats0

open Cert.KernelIdeal Cert.KernelIdeal.Gen Cert.Spec Idealize.ShloMosaic Idealize.ShloMosaic.ValueIdx
open Idealize.ShloMosaic.TcCoe Idealize.SL.Sem
open Idealize.ShloMosaic.Pipeline (Dat)
open Cert.KernelIdeal.Stats0Pay Cert.KernelIdeal.Stats0Pieces

variable (V : (c : Dev nD) → (b : Ref sig .tc) → Buf (Elt Ideal) ((c : Thread nD τ).loc b))

/-! ## The grid: 20 points, block t of each row-blocked window at rows 5000 t … 5000 t + 4999 -/

/-- The printed index maps, decided once over the grid: the two row-blocked windows move with the point, the four
    whole-array windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of block t is a row of the array. -/
theorem blockRow_lt (t : Fin cfg0.N) (p : Fin 5000) : t.val * 5000 + p.val < 100000 := by
  have hN : cfg0.N = 20 := N_0
  have h1 := t.isLt
  have h2 := p.isLt
  omega

/-- The last grid point. -/
abbrev tLast : Fin cfg0.N := ⟨19, by rw [show cfg0.N = 20 from N_0]; decide⟩

/-! ## The input blocks as entries of the arrays the region finds -/

/-- Entry (p, k) of block t of the first operand is entry (5000 t + p, k) of its array. -/
theorem blk0_apply (c : Dev nD) (t : Fin cfg0.N) (p : Fin 5000) (k : Fin 128) :
    (iblk0 V c 0 t : Vec Ideal S5000x128 .f32) (ix2 p k)
      = (V c (Pipeline.arrRef spec0 0) : S100000x128.Idx → EReal) (ix2 ⟨t.val * 5000 + p.val, blockRow_lt t p⟩ k) := by
  obtain ⟨e0, e1, -⟩ := idx_facts t
  unfold iblk0
  rw [View.read_apply]
  show (V c (Pipeline.arrRef spec0 0) : S100000x128.Idx → EReal) _ = _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The second operand's one block is its whole array. -/
theorem blk1_apply (c : Dev nD) (t : Fin cfg0.N) (k : Fin 128) (q : Fin 128) :
    (iblk0 V c 1 t : Vec Ideal S128x128 .f32) (ix2 k q)
      = (V c (Pipeline.arrRef spec0 1) : S128x128.Idx → EReal) (ix2 k q) := by
  obtain ⟨-, -, e0, e1, -⟩ := idx_facts t
  unfold iblk0
  rw [View.read_apply]
  show (V c (Pipeline.arrRef spec0 1) : S128x128.Idx → EReal) _ = _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- The bias row's one block is its whole array. -/
theorem blk2_apply (c : Dev nD) (t : Fin cfg0.N) (u : Fin 1) (q : Fin 128) :
    (iblk0 V c 2 t : Vec Ideal S1x128 .f32) (ix2 u q)
      = (V c (Pipeline.arrRef spec0 2) : S1x128.Idx → EReal) (ix2 u q) := by
  obtain ⟨-, -, -, -, e0, e1, -⟩ := idx_facts t
  unfold iblk0
  rw [View.read_apply]
  show (V c (Pipeline.arrRef spec0 2) : S1x128.Idx → EReal) _ = _
  congr 1
  funext a
  apply Fin.ext
  match a with
  | ⟨0, _⟩ => show win0_2.index t 0 * 1 + 1 * u.val = u.val; rw [e0]; omega
  | ⟨1, _⟩ => show win0_2.index t 1 * 128 + 1 * q.val = q.val; rw [e1]; omega

/-- Entry (p, q) of the block of the affine layer computed at point t is entry (5000 t + p, q) of the affine layer of
    the whole arrays. -/
theorem blockLin (c : Dev nD) (h : Arr 100000 128) (W : Arr 128 128) (b : Arr 1 128)
    (hh : V c (Pipeline.arrRef spec0 0) = h) (hW : V c (Pipeline.arrRef spec0 1) = W) (hb : V c (Pipeline.arrRef spec0 2) = b)
    (t : Fin cfg0.N) (p : Fin 5000) (q : Fin 128) :
    k0_pay3 (iblk0 V c 0 t) (iblk0 V c 1 t) (iblk0 V c 2 t) (ix2 p q)
      = linArr h W b (ix2 ⟨t.val * 5000 + p.val, blockRow_lt t p⟩ q) := by
  subst hh hW hb
  refine (pay3_apply (iblk0 V c 0 t) (iblk0 V c 1 t) (iblk0 V c 2 t) p q).trans ?_
  rw [linArr_apply]
  unfold lin
  refine congrArg₂ (· + ·) (Finset.sum_congr rfl fun k _ => congrArg₂ (· * ·) ?_ ?_) ?_
  · exact blk0_apply V c t p k
  · exact blk1_apply V c t k q
  · exact blk2_apply V c t 0 q

/-! ## The affine layer: every point writes its own block back -/

/-- After the body at any point the block of the affine layer holds the block computed from the point's input blocks. -/
theorem after3 (c : Dev nD) (t : Fin cfg0.N) :
    (outsAt0 V c t.val t.isLt).1 = k0_pay3 (iblk0 V c 0 t) (iblk0 V c 1 t) (iblk0 V c 2 t) := by
  by_cases h0 : t.val % 20 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hc => h0 ((hcond0_0 t).mp hc)) (iblk0 V c 0 t) (iblk0 V c 1 t) (iblk0 V c 2 t) _ _

/-- What point t writes back is block t of the affine layer of the whole arrays. -/
theorem flushed3_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (t : Fin cfg0.N) :
    (dat0 (F := Ideal) V c).flushed 3 t = ((cfg0.win 3).blk t).view.read (Elt Ideal) (linArr h W b) := by
  show (cfg0.win 3).cut (grid0.coords t) ((dat0 (F := Ideal) V c).after 3 t) = _
  rw [after0_3, after3 V c t]
  obtain ⟨-, -, -, -, -, -, e0, e1, -⟩ := idx_facts t
  refine funext fun (jj : S5000x128.Idx) => ?_
  obtain ⟨p, q, rfl⟩ : ∃ (p : Fin 5000) (q : Fin 128), jj = ix2 p q := ⟨jj 0, jj 1, eq_ix2 jj⟩
  rw [View.read_apply]
  show k0_pay3 (iblk0 V c 0 t) (iblk0 V c 1 t) (iblk0 V c 2 t) (ix2 p q) = linArr h W b (((cfg0.win 3).blk t).view.emb (ix2 p q))
  rw [blockLin V c h W b hh hW hb t p q]
  congr 1
  funext a
  apply Fin.ext
  match a with
  | ⟨0, _⟩ => show t.val * 5000 + p.val = win0_3.index t 0 * 5000 + 1 * p.val; rw [e0]; omega
  | ⟨1, _⟩ => show q.val = win0_3.index t 1 * 128 + 1 * q.val; rw [e1]; omega

/-- An index of the array is in point t's block iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v58_0).slice (win0_3.rect t)).set ↔ _
  rw [View.set_slice_whole, Rect.mem_set_unit]
  exact Iff.rfl

/-- Row r lies in the block of point r / 5000: the twenty blocks cover the array. -/
theorem cover3 (i : S100000x128.Idx) :
    ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  refine ⟨⟨(i 0).val / 5000, by omega⟩, flush0_3 _, ?_⟩
  rw [mem_blk3]
  obtain ⟨-, -, -, -, -, -, e0, e1, -⟩ := idx_facts (⟨(i 0).val / 5000, by omega⟩ : Fin cfg0.N)
  intro a
  match a with
  | ⟨0, _⟩ =>
    show win0_3.index _ 0 * 5000 ≤ (i 0).val ∧ (i 0).val < win0_3.index _ 0 * 5000 + 5000
    rw [e0]; dsimp only; omega
  | ⟨1, _⟩ =>
    show win0_3.index _ 1 * 128 ≤ (i 1).val ∧ (i 1).val < win0_3.index _ 1 * 128 + 128
    rw [e1]; omega

/-- The affine layer's array after the region: h W + b of the arrays the region finds. -/
theorem y_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) :
    (dat0 (F := Ideal) V c).arrAt 3 cfg0.N = linArr h W b :=
  (dat0 (F := Ideal) V c).arrAt_eq_of_cover 3 (linArr h W b) (fun t _ => flushed3_eq V c h W b hh hW hb t) cover3

/-! ## The two one-row accumulators: carried from point to point, written back once, after the last point -/

/-- Column j of an array, as a function of the row number, zero past the last row. -/
def rowsF (Y : Arr 100000 128) (j : Fin 128) (r : ℕ) : EReal := if hr : r < 100000 then Y (ix2 ⟨r, hr⟩ j) else 0

/-- Twenty blocks of 5000 rows are the 100000 rows: only the order of summation changes. -/
theorem rowsF_total (Y : Arr 100000 128) (j : Fin 128) :
    ∑ i ∈ Finset.range 20, ∑ q ∈ Finset.range 5000, rowsF Y j (i * 5000 + q) = ∑ r : Fin 100000, Y (ix2 r j) := by
  rw [Cert.LibBatchNorm.sum_range_blocks 20 5000 (rowsF Y j), show 20 * 5000 = 100000 from rfl, Finset.sum_range]
  refine Finset.sum_congr rfl fun r _ => ?_
  unfold rowsF
  rw [dif_pos r.isLt]

/-- The squared entries of the affine layer, as an array. -/
def sqArr (y : Arr 100000 128) : Arr 100000 128 := fun idx => y idx * y idx

/-- The column sums of the block computed at point t are the sums of the array's column over the block's rows. -/
theorem blockSum (c : Dev nD) (h : Arr 100000 128) (W : Arr 128 128) (b : Arr 1 128)
    (hh : V c (Pipeline.arrRef spec0 0) = h) (hW : V c (Pipeline.arrRef spec0 1) = W) (hb : V c (Pipeline.arrRef spec0 2) = b) (t : Fin cfg0.N) (j : Fin 128) :
    ∑ g : Fin 5000, k0_pay3 (iblk0 V c 0 t) (iblk0 V c 1 t) (iblk0 V c 2 t) (ix2 g j)
      = ∑ q ∈ Finset.range 5000, rowsF (linArr h W b) j (t.val * 5000 + q) := by
  rw [Finset.sum_range]
  refine Finset.sum_congr rfl fun g _ => ?_
  rw [blockLin V c h W b hh hW hb t g j]
  unfold rowsF
  rw [dif_pos (blockRow_lt t g)]

/-- The same for the squared entries. -/
theorem blockSumSq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (t : Fin cfg0.N) (j : Fin 128) :
    ∑ g : Fin 5000, k0_pay3 (iblk0 V c 0 t) (iblk0 V c 1 t) (iblk0 V c 2 t) (ix2 g j) * k0_pay3 (iblk0 V c 0 t) (iblk0 V c 1 t) (iblk0 V c 2 t) (ix2 g j)
      = ∑ q ∈ Finset.range 5000, rowsF (sqArr (linArr h W b)) j (t.val * 5000 + q) := by
  rw [Finset.sum_range]
  refine Finset.sum_congr rfl fun g _ => ?_
  rw [blockLin V c h W b hh hW hb t g j]
  unfold rowsF
  rw [dif_pos (blockRow_lt t g)]
  rfl

/-- The first point leaves, in the accumulator of column sums, the zero row plus its block's column sums, -/
theorem acc4_zero (c : Dev nD) (hn : 0 < cfg0.N) :
    (outsAt0 V c 0 hn).2.1 = k0_pay4 (iblk0 V c 0 ⟨0, hn⟩) (iblk0 V c 1 ⟨0, hn⟩) (iblk0 V c 2 ⟨0, hn⟩) (k0_pay1 (F := Ideal)) := by
  rw [outsAt0_A V c ⟨0, hn⟩ rfl]
  dsimp only
  exact out_A_4 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr rfl) (iblk0 V c 0 ⟨0, hn⟩) (iblk0 V c 1 ⟨0, hn⟩) (iblk0 V c 2 ⟨0, hn⟩)

/-- and each later point what the point before left plus its own block's column sums. -/
theorem acc4_succ (c : Dev nD) (n : ℕ) (hn : n + 1 < cfg0.N) :
    (outsAt0 V c (n + 1) hn).2.1
      = k0_pay4 (iblk0 V c 0 ⟨n + 1, hn⟩) (iblk0 V c 1 ⟨n + 1, hn⟩) (iblk0 V c 2 ⟨n + 1, hn⟩) (outsAt0 V c n (Nat.lt_of_succ_lt hn)).2.1 := by
  have hN : cfg0.N = 20 := N_0
  have hB : ¬(⟨n + 1, hn⟩ : Fin cfg0.N).val % 20 = 0 := by dsimp only; omega
  rw [outsAt0_B V c ⟨n + 1, hn⟩ hB]
  dsimp only
  exact out_B_4 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun hc => hB ((hcond0_0 ⟨n + 1, hn⟩).mp hc)) (iblk0 V c 0 ⟨n + 1, hn⟩) (iblk0 V c 1 ⟨n + 1, hn⟩) (iblk0 V c 2 ⟨n + 1, hn⟩) _ _

/-- The same two facts for the accumulator of column sums of squares. -/
theorem acc5_zero (c : Dev nD) (hn : 0 < cfg0.N) :
    (outsAt0 V c 0 hn).2.2 = k0_pay5 (iblk0 V c 0 ⟨0, hn⟩) (iblk0 V c 1 ⟨0, hn⟩) (iblk0 V c 2 ⟨0, hn⟩) (k0_pay2 (F := Ideal)) := by
  rw [outsAt0_A V c ⟨0, hn⟩ rfl]
  dsimp only
  exact out_A_5 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr rfl) (iblk0 V c 0 ⟨0, hn⟩) (iblk0 V c 1 ⟨0, hn⟩) (iblk0 V c 2 ⟨0, hn⟩)

theorem acc5_succ (c : Dev nD) (n : ℕ) (hn : n + 1 < cfg0.N) :
    (outsAt0 V c (n + 1) hn).2.2
      = k0_pay5 (iblk0 V c 0 ⟨n + 1, hn⟩) (iblk0 V c 1 ⟨n + 1, hn⟩) (iblk0 V c 2 ⟨n + 1, hn⟩) (outsAt0 V c n (Nat.lt_of_succ_lt hn)).2.2 := by
  have hN : cfg0.N = 20 := N_0
  have hB : ¬(⟨n + 1, hn⟩ : Fin cfg0.N).val % 20 = 0 := by dsimp only; omega
  rw [outsAt0_B V c ⟨n + 1, hn⟩ hB]
  dsimp only
  exact out_B_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun hc => hB ((hcond0_0 ⟨n + 1, hn⟩).mp hc)) (iblk0 V c 0 ⟨n + 1, hn⟩) (iblk0 V c 1 ⟨n + 1, hn⟩) (iblk0 V c 2 ⟨n + 1, hn⟩) _ _

/-- After point n the accumulator of column sums holds, at column j, the sum of the affine layer's column j over the
    rows of blocks 0 … n: by induction on the point. -/
theorem acc4_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (j : Fin 128) :
    ∀ (n : ℕ) (hn : n < cfg0.N), (outsAt0 V c n hn).2.1 (ix2 (0 : Fin 1) j)
      = ∑ i ∈ Finset.range (n + 1), ∑ q ∈ Finset.range 5000, rowsF (linArr h W b) j (i * 5000 + q)
  | 0, hn => by
    rw [acc4_zero V c hn]
    refine (pay4_apply (iblk0 V c 0 ⟨0, hn⟩) (iblk0 V c 1 ⟨0, hn⟩) (iblk0 V c 2 ⟨0, hn⟩) (k0_pay1 (F := Ideal)) 0 j).trans ?_
    rw [pay1_apply, zero_add, blockSum V c h W b hh hW hb ⟨0, hn⟩ j, Finset.sum_range_one]
  | n + 1, hn => by
    rw [acc4_succ V c n hn]
    refine (pay4_apply (iblk0 V c 0 ⟨n + 1, hn⟩) (iblk0 V c 1 ⟨n + 1, hn⟩) (iblk0 V c 2 ⟨n + 1, hn⟩) (outsAt0 V c n (Nat.lt_of_succ_lt hn)).2.1 0 j).trans ?_
    rw [acc4_eq c h W b hh hW hb j n (Nat.lt_of_succ_lt hn), blockSum V c h W b hh hW hb ⟨n + 1, hn⟩ j]
    exact (Finset.sum_range_succ (fun i => ∑ q ∈ Finset.range 5000, rowsF (linArr h W b) j (i * 5000 + q)) (n + 1)).symm

/-- The same for the accumulator of column sums of squares. -/
theorem acc5_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (j : Fin 128) :
    ∀ (n : ℕ) (hn : n < cfg0.N), (outsAt0 V c n hn).2.2 (ix2 (0 : Fin 1) j)
      = ∑ i ∈ Finset.range (n + 1), ∑ q ∈ Finset.range 5000, rowsF (sqArr (linArr h W b)) j (i * 5000 + q)
  | 0, hn => by
    rw [acc5_zero V c hn]
    refine (pay5_apply (iblk0 V c 0 ⟨0, hn⟩) (iblk0 V c 1 ⟨0, hn⟩) (iblk0 V c 2 ⟨0, hn⟩) (k0_pay2 (F := Ideal)) 0 j).trans ?_
    rw [pay2_apply, zero_add, blockSumSq V c h W b hh hW hb ⟨0, hn⟩ j, Finset.sum_range_one]
  | n + 1, hn => by
    rw [acc5_succ V c n hn]
    refine (pay5_apply (iblk0 V c 0 ⟨n + 1, hn⟩) (iblk0 V c 1 ⟨n + 1, hn⟩) (iblk0 V c 2 ⟨n + 1, hn⟩) (outsAt0 V c n (Nat.lt_of_succ_lt hn)).2.2 0 j).trans ?_
    rw [acc5_eq c h W b hh hW hb j n (Nat.lt_of_succ_lt hn), blockSumSq V c h W b hh hW hb ⟨n + 1, hn⟩ j]
    exact (Finset.sum_range_succ (fun i => ∑ q ∈ Finset.range 5000, rowsF (sqArr (linArr h W b)) j (i * 5000 + q)) (n + 1)).symm

/-- After the last point the accumulator of column sums holds the column sums of the affine layer, -/
theorem last4 (c : Dev nD) (h : Arr 100000 128) (W : Arr 128 128) (b : Arr 1 128)
    (hh : V c (Pipeline.arrRef spec0 0) = h) (hW : V c (Pipeline.arrRef spec0 1) = W) (hb : V c (Pipeline.arrRef spec0 2) = b) :
    (outsAt0 V c (tLast : Fin cfg0.N).val (tLast : Fin cfg0.N).isLt).2.1 = colSumArr (linArr h W b) := by
  refine funext fun (idx : S1x128.Idx) => ?_
  obtain ⟨u, j, rfl⟩ : ∃ (u : Fin 1) (j : Fin 128), idx = ix2 u j := ⟨idx 0, idx 1, eq_ix2 idx⟩
  obtain rfl : u = 0 := Subsingleton.elim _ _
  rw [acc4_eq V c h W b hh hW hb j _ _, colSumArr_apply]
  exact rowsF_total (linArr h W b) j

/-- and the other accumulator the column sums of its squared entries. -/
theorem last5 (c : Dev nD) (h : Arr 100000 128) (W : Arr 128 128) (b : Arr 1 128)
    (hh : V c (Pipeline.arrRef spec0 0) = h) (hW : V c (Pipeline.arrRef spec0 1) = W) (hb : V c (Pipeline.arrRef spec0 2) = b) :
    (outsAt0 V c (tLast : Fin cfg0.N).val (tLast : Fin cfg0.N).isLt).2.2 = colSumSqArr (linArr h W b) := by
  refine funext fun (idx : S1x128.Idx) => ?_
  obtain ⟨u, j, rfl⟩ : ∃ (u : Fin 1) (j : Fin 128), idx = ix2 u j := ⟨idx 0, idx 1, eq_ix2 idx⟩
  obtain rfl : u = 0 := Subsingleton.elim _ _
  rw [acc5_eq V c h W b hh hW hb j _ _, colSumSqArr_apply]
  exact rowsF_total (sqArr (linArr h W b)) j

/-- The one write-back of window 4, after the last point, writes the whole one-row array. -/
theorem flushed4_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (t : Fin cfg0.N) (hf : (cfg0.win 4).flush t = true) :
    (dat0 (F := Ideal) V c).flushed 4 t = ((cfg0.win 4).blk t).view.read (Elt Ideal) (colSumArr (linArr h W b)) := by
  have hN : cfg0.N = 20 := N_0
  have h19 : t.val = 19 := by have := (flush0_4 t).mp hf; have := t.isLt; omega
  obtain rfl : t = tLast := Fin.ext h19
  show (cfg0.win 4).cut (grid0.coords tLast) ((dat0 (F := Ideal) V c).after 4 tLast) = _
  rw [after0_4, last4 V c h W b hh hW hb]
  have hz' : (fun a => win0_4.index tLast a * main_v58_1.ty.shape.size a) = fun _ => 0 := funext fun a => by fin_cases a <;> decide +kernel
  exact (Memref.read_access_unit_zero (Elt Ideal) main_v58_1 hz' (fun a => by rw [congrFun hz' a]; simp) (colSumArr (linArr h W b))).symm

/-- The last point's block is the whole one-row array. -/
theorem cover4 (i : S1x128.Idx) :
    ∃ t : Fin cfg0.N, (cfg0.win 4).flush t = true ∧ i ∈ ((cfg0.win 4).blk t).view.set := by
  refine ⟨tLast, (flush0_4 tLast).mpr rfl, ?_⟩
  show i ∈ ((View.whole main_v58_1).slice (win0_4.rect tLast)).set
  rw [View.set_slice_whole, Rect.mem_set_unit]
  intro a
  have h0 : (i 0 : Nat) < 1 := idx2_lt0 i
  have h1 : (i 1 : Nat) < 128 := idx2_lt1 i
  match a with
  | ⟨0, _⟩ =>
    show win0_4.index tLast 0 * win0_4.size 0 ≤ (i 0 : Nat) ∧ (i 0 : Nat) < win0_4.index tLast 0 * win0_4.size 0 + win0_4.xsize (grid0.coords tLast) 0
    rw [show win0_4.index tLast 0 * win0_4.size 0 = 0 from by decide +kernel, show win0_4.xsize (grid0.coords tLast) 0 = 1 from by decide +kernel]; omega
  | ⟨1, _⟩ =>
    show win0_4.index tLast 1 * win0_4.size 1 ≤ (i 1 : Nat) ∧ (i 1 : Nat) < win0_4.index tLast 1 * win0_4.size 1 + win0_4.xsize (grid0.coords tLast) 1
    rw [show win0_4.index tLast 1 * win0_4.size 1 = 0 from by decide +kernel, show win0_4.xsize (grid0.coords tLast) 1 = 128 from by decide +kernel]; omega

theorem s_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) :
    (dat0 (F := Ideal) V c).arrAt 4 cfg0.N = colSumArr (linArr h W b) :=
  (dat0 (F := Ideal) V c).arrAt_eq_of_cover 4 (colSumArr (linArr h W b)) (flushed4_eq V c h W b hh hW hb) cover4

/-- The one write-back of window 5, after the last point, writes the whole one-row array. -/
theorem flushed5_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) (t : Fin cfg0.N) (hf : (cfg0.win 5).flush t = true) :
    (dat0 (F := Ideal) V c).flushed 5 t = ((cfg0.win 5).blk t).view.read (Elt Ideal) (colSumSqArr (linArr h W b)) := by
  have hN : cfg0.N = 20 := N_0
  have h19 : t.val = 19 := by have := (flush0_5 t).mp hf; have := t.isLt; omega
  obtain rfl : t = tLast := Fin.ext h19
  show (cfg0.win 5).cut (grid0.coords tLast) ((dat0 (F := Ideal) V c).after 5 tLast) = _
  rw [after0_5, last5 V c h W b hh hW hb]
  have hz' : (fun a => win0_5.index tLast a * main_v58_2.ty.shape.size a) = fun _ => 0 := funext fun a => by fin_cases a <;> decide +kernel
  exact (Memref.read_access_unit_zero (Elt Ideal) main_v58_2 hz' (fun a => by rw [congrFun hz' a]; simp) (colSumSqArr (linArr h W b))).symm

/-- The last point's block is the whole one-row array. -/
theorem cover5 (i : S1x128.Idx) :
    ∃ t : Fin cfg0.N, (cfg0.win 5).flush t = true ∧ i ∈ ((cfg0.win 5).blk t).view.set := by
  refine ⟨tLast, (flush0_5 tLast).mpr rfl, ?_⟩
  show i ∈ ((View.whole main_v58_2).slice (win0_5.rect tLast)).set
  rw [View.set_slice_whole, Rect.mem_set_unit]
  intro a
  have h0 : (i 0 : Nat) < 1 := idx2_lt0 i
  have h1 : (i 1 : Nat) < 128 := idx2_lt1 i
  match a with
  | ⟨0, _⟩ =>
    show win0_5.index tLast 0 * win0_5.size 0 ≤ (i 0 : Nat) ∧ (i 0 : Nat) < win0_5.index tLast 0 * win0_5.size 0 + win0_5.xsize (grid0.coords tLast) 0
    rw [show win0_5.index tLast 0 * win0_5.size 0 = 0 from by decide +kernel, show win0_5.xsize (grid0.coords tLast) 0 = 1 from by decide +kernel]; omega
  | ⟨1, _⟩ =>
    show win0_5.index tLast 1 * win0_5.size 1 ≤ (i 1 : Nat) ∧ (i 1 : Nat) < win0_5.index tLast 1 * win0_5.size 1 + win0_5.xsize (grid0.coords tLast) 1
    rw [show win0_5.index tLast 1 * win0_5.size 1 = 0 from by decide +kernel, show win0_5.xsize (grid0.coords tLast) 1 = 128 from by decide +kernel]; omega

theorem q_eq (c : Dev nD) (h : Arr 100000 128) (W : Arr 128 128) (b : Arr 1 128)
    (hh : V c (Pipeline.arrRef spec0 0) = h) (hW : V c (Pipeline.arrRef spec0 1) = W) (hb : V c (Pipeline.arrRef spec0 2) = b) :
    (dat0 (F := Ideal) V c).arrAt 5 cfg0.N = colSumSqArr (linArr h W b) :=
  (dat0 (F := Ideal) V c).arrAt_eq_of_cover 5 (colSumSqArr (linArr h W b)) (flushed5_eq V c h W b hh hW hb) cover5

end Cert.KernelIdeal.Stats0

end
-- ==== Proof.Stats2Pay.lean ====
/-
  The arithmetic of one grid point of the affine-layer-with-statistics body, read at an entry, at the ideal values:
  the block of h W + b (`pay3_apply`), the updated column sums (`pay4_apply`) and the updated column sums of squares
  (`pay5_apply`), and the zero rows the first point stores (`pay1_apply`, `pay2_apply`).
-/
import proofs.«111273_j58016418234783_1_alg».proof.Proof.Gen.KernelIdeal.Skeleton
import proofs.«111273_j58016418234783_1_alg».proof.Proof.Spec
import proofs.«111273_j58016418234783_1_alg».proof.Proof.LibPlainProduct
import proofs.«111273_j58016418234783_1_alg».proof.Proof.LibColumnSum
import Idealize.ShloMosaic.Lib.Pipeline.Value
import Idealize.ShloMosaic.Lib.ValueLayout

noncomputable section

open scoped BigOperators

namespace Cert.KernelIdeal.Stats2Pay

open Cert.KernelIdeal Cert.KernelIdeal.Gen Cert.Spec Idealize.ShloMosaic Idealize.ShloMosaic.ValueIdx

/-- The block of the affine layer the body stores: at row p and column q of the block, the contraction of row p of
    the block of h with column q of W, plus the bias of column q.  Rounding the operands to bf16 is the identity on
    the extended reals, and the product is accumulated into a zero block. -/
theorem pay3_apply (x0 : Vec Ideal S5000x128 .f32) (x1 : Vec Ideal S128x128 .f32) (x2 : Vec Ideal S1x128 .f32)
    (p : Fin 5000) (q : Fin 128) :
    k2_pay3 x0 x1 x2 (ix2 p q) = (∑ k : Fin 128, x0 (ix2 p k) * x1 (ix2 k q)) + x2 (ix2 (0 : Fin 1) q) := by
  unfold k2_pay3
  refine (addf_apply _ _ (ix2 p q)).trans ?_
  refine congrArg₂ (· + ·) ?_ ?_
  · refine (Cert.LibPlainProduct.matmul_zero_plain_apply dot_S5000x128_S128x128_S5000x128_1_0_0_1_n_n_wf none _ _ p q).trans ?_
    refine Finset.sum_congr rfl fun k _ => ?_
    rw [truncf_apply, truncf_apply, shapeCast_self]
  · refine (broadcastTo_1b_ab_apply _ broadcasts_S1x128_S5000x128 p q).trans ?_
    rw [shapeCast_self]

/-- The one-row index (u, j) with its leading unit coordinate dropped is the vector index j. -/
theorem drop_unit (u : Fin 1) (j : Fin 128) : (fun a : Fin 1 => (ix2 u j : S1x128.Idx) a.succ) = (ix1 j : S128.Idx) := by
  funext a
  match a with
  | ⟨0, _⟩ => rfl

/-- The lane sums of a block over its 5000 rows, kept as one row: at column j the sum of the block's column j. -/
theorem rowOfLaneSums_apply (x : FVec Ideal S5000x128 .f32) (u : Fin 1) (j : Fin 128) :
    shapeCast S1x128 (multiReduction .add [0] S128 x 0x00000000#32 reduces_S5000x128_S128 (.inl rfl) rfl) shapeCasts_S128_S1x128 (ix2 u j)
      = ∑ g : Fin 5000, x (ix2 g j) := by
  refine (shapeCast_addUnit_apply ![128] _ shapeCasts_S128_S1x128 (ix2 u j)).trans ?_
  rw [drop_unit]
  exact Cert.LibColumnSum.laneColSum_apply x 0x00000000#32 reduces_S5000x128_S128 (.inl rfl) rfl j

/-- The updated column sums: what the accumulator held plus the column sums of the block of the affine layer. -/
theorem pay4_apply (x0 : Vec Ideal S5000x128 .f32) (x1 : Vec Ideal S128x128 .f32) (x2 : Vec Ideal S1x128 .f32)
    (acc : Vec Ideal S1x128 .f32) (u : Fin 1) (j : Fin 128) :
    k2_pay4 x0 x1 x2 acc (ix2 u j) = acc (ix2 u j) + ∑ g : Fin 5000, k2_pay3 x0 x1 x2 (ix2 g j) := by
  unfold k2_pay4
  refine (addf_apply _ _ (ix2 u j)).trans ?_
  refine congrArg₂ (· + ·) ?_ ?_
  · rw [shapeCast_self]
  · exact rowOfLaneSums_apply (k2_pay3 x0 x1 x2) u j

/-- The updated column sums of squares: what the accumulator held plus the column sums of the squared entries of the
    block of the affine layer. -/
theorem pay5_apply (x0 : Vec Ideal S5000x128 .f32) (x1 : Vec Ideal S128x128 .f32) (x2 : Vec Ideal S1x128 .f32)
    (acc : Vec Ideal S1x128 .f32) (u : Fin 1) (j : Fin 128) :
    k2_pay5 x0 x1 x2 acc (ix2 u j)
      = acc (ix2 u j) + ∑ g : Fin 5000, k2_pay3 x0 x1 x2 (ix2 g j) * k2_pay3 x0 x1 x2 (ix2 g j) := by
  unfold k2_pay5
  refine (addf_apply _ _ (ix2 u j)).trans ?_
  refine congrArg₂ (· + ·) ?_ ?_
  · rw [shapeCast_self]
  · refine (rowOfLaneSums_apply (mulf (k2_pay3 x0 x1 x2) (k2_pay3 x0 x1 x2)) u j).trans ?_
    exact Finset.sum_congr rfl fun g _ => mulf_apply _ _ (ix2 g j)

/-- The zero row the first point stores into an accumulator. -/
theorem pay1_apply (i : S1x128.Idx) : k2_pay1 (F := Ideal) i = 0 := by
  unfold k2_pay1
  exact Ideal.ofBits_zero_f32

theorem pay2_apply (i : S1x128.Idx) : k2_pay2 (F := Ideal) i = 0 := by
  unfold k2_pay2
  exact Ideal.ofBits_zero_f32

end Cert.KernelIdeal.Stats2Pay

end
-- ==== Proof.Stats2Pieces.lean ====
/-
  What the body of the affine-layer-with-statistics kernel leaves in each output block, in each of its two control
  cases (the first grid point, which zeroes the two accumulators before adding to them; every later point, which adds
  to what they held): each is the payload of the last store into that block, every load reading a whole buffer.
  For any float values.
-/
import proofs.«111273_j58016418234783_1_alg».proof.Proof.Gen.KernelIdeal.Frame
import Idealize.ShloMosaic.Lib.Pipeline.Value
import Idealize.ShloMosaic.Lib.Tactic

noncomputable section

namespace Cert.KernelIdeal.Stats2Pieces

open Cert.KernelIdeal Cert.KernelIdeal.Gen Idealize.ShloMosaic
open Idealize.ShloMosaic.TcCoe Idealize.SL.Sem

variable {F : FTy → Type} [FloatOps F]

theorem hz : (![0, 0] : Fin 2 → Nat) = fun _ => 0 := funext fun a => by fin_cases a <;> rfl

/-- At the first point the body leaves, in the block of the affine layer, the block computed from the three input
    blocks: its one store covers the block. -/
theorem out_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S5000x128 .f32) (x1 : Vec F S128x128 .f32) (x2 : Vec F S1x128 .f32) :
    out2_A_3 c i arg1 harg1 arg2 harg2 arg3 harg3 arg4 harg4 arg5 harg5 arg6 harg6 hc0 x0 x1 x2 = k2_pay3 x0 x1 x2 := by
  unfold out2_A_3
  rw [View.read_writes_eq_canon _ _ _ (cover2_A_3 c i arg1 harg1 arg2 harg2 arg3 harg3 arg4 harg4 arg5 harg5 arg6 harg6 hc0 x0 x1 x2)]
  unfold kernelRun2_A
  dsimp only
  try sl_unfold_words
  rw [View.canon_unit_zero hz]
  simp only [View.readAt_eq_ld, harg1.read_unread, harg2.read_unread, harg3.read_unread, View.ld_unit_zero (S := S5000x128) hz, View.ld_unit_zero (S := S128x128) hz, View.ld_unit_zero (S := S1x128) hz]

/-- At a later point the same block is left. -/
theorem out_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S5000x128 .f32) (x1 : Vec F S128x128 .f32) (x2 : Vec F S1x128 .f32) (xo4 xo5 : Vec F S1x128 .f32) :
    out2_B_3 c i arg1 harg1 arg2 harg2 arg3 harg3 arg4 harg4 arg5 harg5 arg6 harg6 hc0 x0 x1 x2 xo4 xo5 = k2_pay3 x0 x1 x2 := by
  unfold out2_B_3
  rw [View.read_writes_eq_canon _ _ _ (cover2_B_3 c i arg1 harg1 arg2 harg2 arg3 harg3 arg4 harg4 arg5 harg5 arg6 harg6 hc0 x0 x1 x2 xo4 xo5)]
  unfold kernelRun2_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

/-- At the first point the accumulator of column sums is zeroed, read back, and left at the zero row plus the block's
    column sums. -/
theorem out_A_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S5000x128 .f32) (x1 : Vec F S128x128 .f32) (x2 : Vec F S1x128 .f32) :
    out2_A_4 c i arg1 harg1 arg2 harg2 arg3 harg3 arg4 harg4 arg5 harg5 arg6 harg6 hc0 x0 x1 x2 = k2_pay4 x0 x1 x2 (k2_pay1 (F := F)) := by
  unfold out2_A_4
  rw [View.read_writes_eq_canon _ _ _ (cover2_A_4 c i arg1 harg1 arg2 harg2 arg3 harg3 arg4 harg4 arg5 harg5 arg6 harg6 hc0 x0 x1 x2)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S5000x128) hz, View.ld_unit_zero (S := S128x128) hz, View.ld_unit_zero (S := S1x128) hz]

/-- At a later point the accumulator of column sums is left at what it held plus the block's column sums. -/
theorem out_B_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S5000x128 .f32) (x1 : Vec F S128x128 .f32) (x2 : Vec F S1x128 .f32) (xo4 xo5 : Vec F S1x128 .f32) :
    out2_B_4 c i arg1 harg1 arg2 harg2 arg3 harg3 arg4 harg4 arg5 harg5 arg6 harg6 hc0 x0 x1 x2 xo4 xo5 = k2_pay4 x0 x1 x2 xo4 := by
  unfold out2_B_4
  rw [View.read_writes_eq_canon _ _ _ (cover2_B_4 c i arg1 harg1 arg2 harg2 arg3 harg3 arg4 harg4 arg5 harg5 arg6 harg6 hc0 x0 x1 x2 xo4 xo5)]
  unfold kernelRun2_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

/-- The same for the accumulator of column sums of squares, at the first point -/
theorem out_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S5000x128 .f32) (x1 : Vec F S128x128 .f32) (x2 : Vec F S1x128 .f32) :
    out2_A_5 c i arg1 harg1 arg2 harg2 arg3 harg3 arg4 harg4 arg5 harg5 arg6 harg6 hc0 x0 x1 x2 = k2_pay5 x0 x1 x2 (k2_pay2 (F := F)) := by
  unfold out2_A_5
  rw [View.read_writes_eq_canon _ _ _ (cover2_A_5 c i arg1 harg1 arg2 harg2 arg3 harg3 arg4 harg4 arg5 harg5 arg6 harg6 hc0 x0 x1 x2)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S5000x128) hz, View.ld_unit_zero (S := S128x128) hz, View.ld_unit_zero (S := S1x128) hz]

/-- and at a later point. -/
theorem out_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S5000x128 .f32) (x1 : Vec F S128x128 .f32) (x2 : Vec F S1x128 .f32) (xo4 xo5 : Vec F S1x128 .f32) :
    out2_B_5 c i arg1 harg1 arg2 harg2 arg3 harg3 arg4 harg4 arg5 harg5 arg6 harg6 hc0 x0 x1 x2 xo4 xo5 = k2_pay5 x0 x1 x2 xo5 := by
  unfold out2_B_5
  rw [View.read_writes_eq_canon _ _ _ (cover2_B_5 c i arg1 harg1 arg2 harg2 arg3 harg3 arg4 harg4 arg5 harg5 arg6 harg6 hc0 x0 x1 x2 xo4 xo5)]
  unfold kernelRun2_B
  dsimp only
  try sl_unfold_words
  rw [View.canon_unit_zero hz]
  simp only [View.readAt_eq_ld, harg1.read_unread, harg2.read_unread, harg3.read_unread, harg5.read_unread, harg6.read_unread, View.ld_unit_zero (S := S5000x128) hz, View.ld_unit_zero (S := S128x128) hz, View.ld_unit_zero (S := S1x128) hz]

end Cert.KernelIdeal.Stats2Pieces

end
-- ==== Proof.Stats2.lean ====
/-
  The value of the affine-layer-with-statistics region, read off its generated frame for any contents the region finds.

  The region walks 20 grid points.  At point t it reads rows 5000 t … 5000 t + 4999 of h, all of W and the bias row b,
  stores the block y = h W + b of those rows, and adds the block's column sums, and the column sums of its squared
  entries, onto two one-row accumulators that are zeroed at the first point and carried from point to point.

  * The array y: every point writes its own block back, block t is the affine layer of the whole arrays restricted to
    its rows (`flushed3_eq`), and the twenty blocks cover the array (`cover3`): the array ends at h W + b (`y_eq`).
  * The two accumulators: by induction on the point, after point n column j holds the sum of column j of y (of its
    squares) over the rows of blocks 0 … n (`acc4_eq`, `acc5_eq`); twenty blocks of 5000 rows are the 100000 rows, a
    regrouping that uses only commutativity and associativity of addition on the extended reals (`rowsF_total`);
    the one write-back, after the last point, writes the whole row (`s_eq`, `q_eq`).
-/
import proofs.«111273_j58016418234783_1_alg».proof.Proof.Gen.KernelIdeal.Frame
import proofs.«111273_j58016418234783_1_alg».proof.Proof.Spec
import proofs.«111273_j58016418234783_1_alg».proof.Proof.LibBatchNorm
import proofs.«111273_j58016418234783_1_alg».proof.Proof.Stats2Pay
import proofs.«111273_j58016418234783_1_alg».proof.Proof.Stats2Pieces
import Idealize.ShloMosaic.Lib.Pipeline.Value
import Idealize.ShloMosaic.Lib.Tactic

noncomputable section

open scoped BigOperators

namespace Cert.KernelIdeal.Stats2

open Cert.KernelIdeal Cert.KernelIdeal.Gen Cert.Spec Idealize.ShloMosaic Idealize.ShloMosaic.ValueIdx
open Idealize.ShloMosaic.TcCoe Idealize.SL.Sem
open Idealize.ShloMosaic.Pipeline (Dat)
open Cert.KernelIdeal.Stats2Pay Cert.KernelIdeal.Stats2Pieces

variable (V : (c : Dev nD) → (b : Ref sig .tc) → Buf (Elt Ideal) ((c : Thread nD τ).loc b))

/-! ## The grid: 20 points, block t of each row-blocked window at rows 5000 t … 5000 t + 4999 -/

/-- The printed index maps, decided once over the grid: the two row-blocked windows move with the point, the four
    whole-array windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of block t is a row of the array. -/
theorem blockRow_lt (t : Fin cfg2.N) (p : Fin 5000) : t.val * 5000 + p.val < 100000 := by
  have hN : cfg2.N = 20 := N_2
  have h1 := t.isLt
  have h2 := p.isLt
  omega

/-- The last grid point. -/
abbrev tLast : Fin cfg2.N := ⟨19, by rw [show cfg2.N = 20 from N_2]; decide⟩

/-! ## The input blocks as entries of the arrays the region finds -/

/-- Entry (p, k) of block t of the first operand is entry (5000 t + p, k) of its array. -/
theorem blk0_apply (c : Dev nD) (t : Fin cfg2.N) (p : Fin 5000) (k : Fin 128) :
    (iblk2 V c 0 t : Vec Ideal S5000x128 .f32) (ix2 p k)
      = (V c (Pipeline.arrRef spec2 0) : S100000x128.Idx → EReal) (ix2 ⟨t.val * 5000 + p.val, blockRow_lt t p⟩ k) := by
  obtain ⟨e0, e1, -⟩ := idx_facts t
  unfold iblk2
  rw [View.read_apply]
  show (V c (Pipeline.arrRef spec2 0) : S100000x128.Idx → EReal) _ = _
  congr 1
  funext a
  apply Fin.ext
  match a with
  | ⟨0, _⟩ => show win2_0.index t 0 * 5000 + 1 * p.val = t.val * 5000 + p.val; rw [e0]; omega
  | ⟨1, _⟩ => show win2_0.index t 1 * 128 + 1 * k.val = k.val; rw [e1]; omega

/-- The second operand's one block is its whole array. -/
theorem blk1_apply (c : Dev nD) (t : Fin cfg2.N) (k : Fin 128) (q : Fin 128) :
    (iblk2 V c 1 t : Vec Ideal S128x128 .f32) (ix2 k q)
      = (V c (Pipeline.arrRef spec2 1) : S128x128.Idx → EReal) (ix2 k q) := by
  obtain ⟨-, -, e0, e1, -⟩ := idx_facts t
  unfold iblk2
  rw [View.read_apply]
  show (V c (Pipeline.arrRef spec2 1) : S128x128.Idx → EReal) _ = _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The bias row's one block is its whole array. -/
theorem blk2_apply (c : Dev nD) (t : Fin cfg2.N) (u : Fin 1) (q : Fin 128) :
    (iblk2 V c 2 t : Vec Ideal S1x128 .f32) (ix2 u q)
      = (V c (Pipeline.arrRef spec2 2) : S1x128.Idx → EReal) (ix2 u q) := by
  obtain ⟨-, -, -, -, e0, e1, -⟩ := idx_facts t
  unfold iblk2
  rw [View.read_apply]
  show (V c (Pipeline.arrRef spec2 2) : S1x128.Idx → EReal) _ = _
  congr 1
  funext a
  apply Fin.ext
  match a with
  | ⟨0, _⟩ => show win2_2.index t 0 * 1 + 1 * u.val = u.val; rw [e0]; omega
  | ⟨1, _⟩ => show win2_2.index t 1 * 128 + 1 * q.val = q.val; rw [e1]; omega

/-- Entry (p, q) of the block of the affine layer computed at point t is entry (5000 t + p, q) of the affine layer of
    the whole arrays. -/
theorem blockLin (c : Dev nD) (h : Arr 100000 128) (W : Arr 128 128) (b : Arr 1 128)
    (hh : V c (Pipeline.arrRef spec2 0) = h) (hW : V c (Pipeline.arrRef spec2 1) = W) (hb : V c (Pipeline.arrRef spec2 2) = b)
    (t : Fin cfg2.N) (p : Fin 5000) (q : Fin 128) :
    k2_pay3 (iblk2 V c 0 t) (iblk2 V c 1 t) (iblk2 V c 2 t) (ix2 p q)
      = linArr h W b (ix2 ⟨t.val * 5000 + p.val, blockRow_lt t p⟩ q) := by
  subst hh hW hb
  refine (pay3_apply (iblk2 V c 0 t) (iblk2 V c 1 t) (iblk2 V c 2 t) p q).trans ?_
  rw [linArr_apply]
  unfold lin
  refine congrArg₂ (· + ·) (Finset.sum_congr rfl fun k _ => congrArg₂ (· * ·) ?_ ?_) ?_
  · exact blk0_apply V c t p k
  · exact blk1_apply V c t k q
  · exact blk2_apply V c t 0 q

/-! ## The affine layer: every point writes its own block back -/

/-- After the body at any point the block of the affine layer holds the block computed from the point's input blocks. -/
theorem after3 (c : Dev nD) (t : Fin cfg2.N) :
    (outsAt2 V c t.val t.isLt).1 = k2_pay3 (iblk2 V c 0 t) (iblk2 V c 1 t) (iblk2 V c 2 t) := by
  by_cases h0 : t.val % 20 = 0
  · rw [outsAt2_A V c t h0]
    dsimp only
    exact out_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0]
    dsimp only
    exact out_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun hc => h0 ((hcond2_0 t).mp hc)) (iblk2 V c 0 t) (iblk2 V c 1 t) (iblk2 V c 2 t) _ _

/-- What point t writes back is block t of the affine layer of the whole arrays. -/
theorem flushed3_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (t : Fin cfg2.N) :
    (dat2 (F := Ideal) V c).flushed 3 t = ((cfg2.win 3).blk t).view.read (Elt Ideal) (linArr h W b) := by
  show (cfg2.win 3).cut (grid2.coords t) ((dat2 (F := Ideal) V c).after 3 t) = _
  rw [after2_3, after3 V c t]
  obtain ⟨-, -, -, -, -, -, e0, e1, -⟩ := idx_facts t
  refine funext fun (jj : S5000x128.Idx) => ?_
  obtain ⟨p, q, rfl⟩ : ∃ (p : Fin 5000) (q : Fin 128), jj = ix2 p q := ⟨jj 0, jj 1, eq_ix2 jj⟩
  rw [View.read_apply]
  show k2_pay3 (iblk2 V c 0 t) (iblk2 V c 1 t) (iblk2 V c 2 t) (ix2 p q) = linArr h W b (((cfg2.win 3).blk t).view.emb (ix2 p q))
  rw [blockLin V c h W b hh hW hb t p q]
  congr 1
  funext a
  apply Fin.ext
  match a with
  | ⟨0, _⟩ => show t.val * 5000 + p.val = win2_3.index t 0 * 5000 + 1 * p.val; rw [e0]; omega
  | ⟨1, _⟩ => show q.val = win2_3.index t 1 * 128 + 1 * q.val; rw [e1]; omega

/-- An index of the array is in point t's block iff each coordinate is in the block's range on its axis. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v95_0).slice (win2_3.rect t)).set ↔ _
  rw [View.set_slice_whole, Rect.mem_set_unit]
  exact Iff.rfl

/-- Row r lies in the block of point r / 5000: the twenty blocks cover the array. -/
theorem cover3 (i : S100000x128.Idx) :
    ∃ t : Fin cfg2.N, (cfg2.win 3).flush t = true ∧ i ∈ ((cfg2.win 3).blk t).view.set := by
  have hN : cfg2.N = 20 := N_2
  have hi0 : (i 0).val < 100000 := idx2_lt0 i
  have hi1 : (i 1).val < 128 := idx2_lt1 i
  refine ⟨⟨(i 0).val / 5000, by omega⟩, flush2_3 _, ?_⟩
  rw [mem_blk3]
  obtain ⟨-, -, -, -, -, -, e0, e1, -⟩ := idx_facts (⟨(i 0).val / 5000, by omega⟩ : Fin cfg2.N)
  intro a
  match a with
  | ⟨0, _⟩ =>
    show win2_3.index _ 0 * 5000 ≤ (i 0).val ∧ (i 0).val < win2_3.index _ 0 * 5000 + 5000
    rw [e0]; dsimp only; omega
  | ⟨1, _⟩ =>
    show win2_3.index _ 1 * 128 ≤ (i 1).val ∧ (i 1).val < win2_3.index _ 1 * 128 + 128
    rw [e1]; omega

/-- The affine layer's array after the region: h W + b of the arrays the region finds. -/
theorem y_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) :
    (dat2 (F := Ideal) V c).arrAt 3 cfg2.N = linArr h W b :=
  (dat2 (F := Ideal) V c).arrAt_eq_of_cover 3 (linArr h W b) (fun t _ => flushed3_eq V c h W b hh hW hb t) cover3

/-! ## The two one-row accumulators: carried from point to point, written back once, after the last point -/

/-- Column j of an array, as a function of the row number, zero past the last row. -/
def rowsF (Y : Arr 100000 128) (j : Fin 128) (r : ℕ) : EReal := if hr : r < 100000 then Y (ix2 ⟨r, hr⟩ j) else 0

/-- Twenty blocks of 5000 rows are the 100000 rows: only the order of summation changes. -/
theorem rowsF_total (Y : Arr 100000 128) (j : Fin 128) :
    ∑ i ∈ Finset.range 20, ∑ q ∈ Finset.range 5000, rowsF Y j (i * 5000 + q) = ∑ r : Fin 100000, Y (ix2 r j) := by
  rw [Cert.LibBatchNorm.sum_range_blocks 20 5000 (rowsF Y j), show 20 * 5000 = 100000 from rfl, Finset.sum_range]
  refine Finset.sum_congr rfl fun r _ => ?_
  unfold rowsF
  rw [dif_pos r.isLt]

/-- The squared entries of the affine layer, as an array. -/
def sqArr (y : Arr 100000 128) : Arr 100000 128 := fun idx => y idx * y idx

/-- The column sums of the block computed at point t are the sums of the array's column over the block's rows. -/
theorem blockSum (c : Dev nD) (h : Arr 100000 128) (W : Arr 128 128) (b : Arr 1 128)
    (hh : V c (Pipeline.arrRef spec2 0) = h) (hW : V c (Pipeline.arrRef spec2 1) = W) (hb : V c (Pipeline.arrRef spec2 2) = b) (t : Fin cfg2.N) (j : Fin 128) :
    ∑ g : Fin 5000, k2_pay3 (iblk2 V c 0 t) (iblk2 V c 1 t) (iblk2 V c 2 t) (ix2 g j)
      = ∑ q ∈ Finset.range 5000, rowsF (linArr h W b) j (t.val * 5000 + q) := by
  rw [Finset.sum_range]
  refine Finset.sum_congr rfl fun g _ => ?_
  rw [blockLin V c h W b hh hW hb t g j]
  unfold rowsF
  rw [dif_pos (blockRow_lt t g)]

/-- The same for the squared entries. -/
theorem blockSumSq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (t : Fin cfg2.N) (j : Fin 128) :
    ∑ g : Fin 5000, k2_pay3 (iblk2 V c 0 t) (iblk2 V c 1 t) (iblk2 V c 2 t) (ix2 g j) * k2_pay3 (iblk2 V c 0 t) (iblk2 V c 1 t) (iblk2 V c 2 t) (ix2 g j)
      = ∑ q ∈ Finset.range 5000, rowsF (sqArr (linArr h W b)) j (t.val * 5000 + q) := by
  rw [Finset.sum_range]
  refine Finset.sum_congr rfl fun g _ => ?_
  rw [blockLin V c h W b hh hW hb t g j]
  unfold rowsF
  rw [dif_pos (blockRow_lt t g)]
  rfl

/-- The first point leaves, in the accumulator of column sums, the zero row plus its block's column sums, -/
theorem acc4_zero (c : Dev nD) (hn : 0 < cfg2.N) :
    (outsAt2 V c 0 hn).2.1 = k2_pay4 (iblk2 V c 0 ⟨0, hn⟩) (iblk2 V c 1 ⟨0, hn⟩) (iblk2 V c 2 ⟨0, hn⟩) (k2_pay1 (F := Ideal)) := by
  rw [outsAt2_A V c ⟨0, hn⟩ rfl]
  dsimp only
  exact out_A_4 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr rfl) (iblk2 V c 0 ⟨0, hn⟩) (iblk2 V c 1 ⟨0, hn⟩) (iblk2 V c 2 ⟨0, hn⟩)

/-- and each later point what the point before left plus its own block's column sums. -/
theorem acc4_succ (c : Dev nD) (n : ℕ) (hn : n + 1 < cfg2.N) :
    (outsAt2 V c (n + 1) hn).2.1
      = k2_pay4 (iblk2 V c 0 ⟨n + 1, hn⟩) (iblk2 V c 1 ⟨n + 1, hn⟩) (iblk2 V c 2 ⟨n + 1, hn⟩) (outsAt2 V c n (Nat.lt_of_succ_lt hn)).2.1 := by
  have hN : cfg2.N = 20 := N_2
  have hB : ¬(⟨n + 1, hn⟩ : Fin cfg2.N).val % 20 = 0 := by dsimp only; omega
  rw [outsAt2_B V c ⟨n + 1, hn⟩ hB]
  dsimp only
  exact out_B_4 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun hc => hB ((hcond2_0 ⟨n + 1, hn⟩).mp hc)) (iblk2 V c 0 ⟨n + 1, hn⟩) (iblk2 V c 1 ⟨n + 1, hn⟩) (iblk2 V c 2 ⟨n + 1, hn⟩) _ _

/-- The same two facts for the accumulator of column sums of squares. -/
theorem acc5_zero (c : Dev nD) (hn : 0 < cfg2.N) :
    (outsAt2 V c 0 hn).2.2 = k2_pay5 (iblk2 V c 0 ⟨0, hn⟩) (iblk2 V c 1 ⟨0, hn⟩) (iblk2 V c 2 ⟨0, hn⟩) (k2_pay2 (F := Ideal)) := by
  rw [outsAt2_A V c ⟨0, hn⟩ rfl]
  dsimp only
  exact out_A_5 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr rfl) (iblk2 V c 0 ⟨0, hn⟩) (iblk2 V c 1 ⟨0, hn⟩) (iblk2 V c 2 ⟨0, hn⟩)

theorem acc5_succ (c : Dev nD) (n : ℕ) (hn : n + 1 < cfg2.N) :
    (outsAt2 V c (n + 1) hn).2.2
      = k2_pay5 (iblk2 V c 0 ⟨n + 1, hn⟩) (iblk2 V c 1 ⟨n + 1, hn⟩) (iblk2 V c 2 ⟨n + 1, hn⟩) (outsAt2 V c n (Nat.lt_of_succ_lt hn)).2.2 := by
  have hN : cfg2.N = 20 := N_2
  have hB : ¬(⟨n + 1, hn⟩ : Fin cfg2.N).val % 20 = 0 := by dsimp only; omega
  rw [outsAt2_B V c ⟨n + 1, hn⟩ hB]
  dsimp only
  exact out_B_5 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun hc => hB ((hcond2_0 ⟨n + 1, hn⟩).mp hc)) (iblk2 V c 0 ⟨n + 1, hn⟩) (iblk2 V c 1 ⟨n + 1, hn⟩) (iblk2 V c 2 ⟨n + 1, hn⟩) _ _

/-- After point n the accumulator of column sums holds, at column j, the sum of the affine layer's column j over the
    rows of blocks 0 … n: by induction on the point. -/
theorem acc4_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (j : Fin 128) :
    ∀ (n : ℕ) (hn : n < cfg2.N), (outsAt2 V c n hn).2.1 (ix2 (0 : Fin 1) j)
      = ∑ i ∈ Finset.range (n + 1), ∑ q ∈ Finset.range 5000, rowsF (linArr h W b) j (i * 5000 + q)
  | 0, hn => by
    rw [acc4_zero V c hn]
    refine (pay4_apply (iblk2 V c 0 ⟨0, hn⟩) (iblk2 V c 1 ⟨0, hn⟩) (iblk2 V c 2 ⟨0, hn⟩) (k2_pay1 (F := Ideal)) 0 j).trans ?_
    rw [pay1_apply, zero_add, blockSum V c h W b hh hW hb ⟨0, hn⟩ j, Finset.sum_range_one]
  | n + 1, hn => by
    rw [acc4_succ V c n hn]
    refine (pay4_apply (iblk2 V c 0 ⟨n + 1, hn⟩) (iblk2 V c 1 ⟨n + 1, hn⟩) (iblk2 V c 2 ⟨n + 1, hn⟩) (outsAt2 V c n (Nat.lt_of_succ_lt hn)).2.1 0 j).trans ?_
    rw [acc4_eq c h W b hh hW hb j n (Nat.lt_of_succ_lt hn), blockSum V c h W b hh hW hb ⟨n + 1, hn⟩ j]
    exact (Finset.sum_range_succ (fun i => ∑ q ∈ Finset.range 5000, rowsF (linArr h W b) j (i * 5000 + q)) (n + 1)).symm

/-- The same for the accumulator of column sums of squares. -/
theorem acc5_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (j : Fin 128) :
    ∀ (n : ℕ) (hn : n < cfg2.N), (outsAt2 V c n hn).2.2 (ix2 (0 : Fin 1) j)
      = ∑ i ∈ Finset.range (n + 1), ∑ q ∈ Finset.range 5000, rowsF (sqArr (linArr h W b)) j (i * 5000 + q)
  | 0, hn => by
    rw [acc5_zero V c hn]
    refine (pay5_apply (iblk2 V c 0 ⟨0, hn⟩) (iblk2 V c 1 ⟨0, hn⟩) (iblk2 V c 2 ⟨0, hn⟩) (k2_pay2 (F := Ideal)) 0 j).trans ?_
    rw [pay2_apply, zero_add, blockSumSq V c h W b hh hW hb ⟨0, hn⟩ j, Finset.sum_range_one]
  | n + 1, hn => by
    rw [acc5_succ V c n hn]
    refine (pay5_apply (iblk2 V c 0 ⟨n + 1, hn⟩) (iblk2 V c 1 ⟨n + 1, hn⟩) (iblk2 V c 2 ⟨n + 1, hn⟩) (outsAt2 V c n (Nat.lt_of_succ_lt hn)).2.2 0 j).trans ?_
    rw [acc5_eq c h W b hh hW hb j n (Nat.lt_of_succ_lt hn), blockSumSq V c h W b hh hW hb ⟨n + 1, hn⟩ j]
    exact (Finset.sum_range_succ (fun i => ∑ q ∈ Finset.range 5000, rowsF (sqArr (linArr h W b)) j (i * 5000 + q)) (n + 1)).symm

/-- After the last point the accumulator of column sums holds the column sums of the affine layer, -/
theorem last4 (c : Dev nD) (h : Arr 100000 128) (W : Arr 128 128) (b : Arr 1 128)
    (hh : V c (Pipeline.arrRef spec2 0) = h) (hW : V c (Pipeline.arrRef spec2 1) = W) (hb : V c (Pipeline.arrRef spec2 2) = b) :
    (outsAt2 V c (tLast : Fin cfg2.N).val (tLast : Fin cfg2.N).isLt).2.1 = colSumArr (linArr h W b) := by
  refine funext fun (idx : S1x128.Idx) => ?_
  obtain ⟨u, j, rfl⟩ : ∃ (u : Fin 1) (j : Fin 128), idx = ix2 u j := ⟨idx 0, idx 1, eq_ix2 idx⟩
  obtain rfl : u = 0 := Subsingleton.elim _ _
  rw [acc4_eq V c h W b hh hW hb j _ _, colSumArr_apply]
  exact rowsF_total (linArr h W b) j

/-- and the other accumulator the column sums of its squared entries. -/
theorem last5 (c : Dev nD) (h : Arr 100000 128) (W : Arr 128 128) (b : Arr 1 128)
    (hh : V c (Pipeline.arrRef spec2 0) = h) (hW : V c (Pipeline.arrRef spec2 1) = W) (hb : V c (Pipeline.arrRef spec2 2) = b) :
    (outsAt2 V c (tLast : Fin cfg2.N).val (tLast : Fin cfg2.N).isLt).2.2 = colSumSqArr (linArr h W b) := by
  refine funext fun (idx : S1x128.Idx) => ?_
  obtain ⟨u, j, rfl⟩ : ∃ (u : Fin 1) (j : Fin 128), idx = ix2 u j := ⟨idx 0, idx 1, eq_ix2 idx⟩
  obtain rfl : u = 0 := Subsingleton.elim _ _
  rw [acc5_eq V c h W b hh hW hb j _ _, colSumSqArr_apply]
  exact rowsF_total (sqArr (linArr h W b)) j

/-- The one write-back of window 4, after the last point, writes the whole one-row array. -/
theorem flushed4_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (t : Fin cfg2.N) (hf : (cfg2.win 4).flush t = true) :
    (dat2 (F := Ideal) V c).flushed 4 t = ((cfg2.win 4).blk t).view.read (Elt Ideal) (colSumArr (linArr h W b)) := by
  have hN : cfg2.N = 20 := N_2
  have h19 : t.val = 19 := by have := (flush2_4 t).mp hf; have := t.isLt; omega
  obtain rfl : t = tLast := Fin.ext h19
  show (cfg2.win 4).cut (grid2.coords tLast) ((dat2 (F := Ideal) V c).after 4 tLast) = _
  rw [after2_4, last4 V c h W b hh hW hb]
  have hz' : (fun a => win2_4.index tLast a * main_v95_1.ty.shape.size a) = fun _ => 0 := funext fun a => by fin_cases a <;> decide +kernel
  exact (Memref.read_access_unit_zero (Elt Ideal) main_v95_1 hz' (fun a => by rw [congrFun hz' a]; simp) (colSumArr (linArr h W b))).symm

/-- The last point's block is the whole one-row array. -/
theorem cover4 (i : S1x128.Idx) :
    ∃ t : Fin cfg2.N, (cfg2.win 4).flush t = true ∧ i ∈ ((cfg2.win 4).blk t).view.set := by
  refine ⟨tLast, (flush2_4 tLast).mpr rfl, ?_⟩
  show i ∈ ((View.whole main_v95_1).slice (win2_4.rect tLast)).set
  rw [View.set_slice_whole, Rect.mem_set_unit]
  intro a
  have h0 : (i 0 : Nat) < 1 := idx2_lt0 i
  have h1 : (i 1 : Nat) < 128 := idx2_lt1 i
  match a with
  | ⟨0, _⟩ =>
    show win2_4.index tLast 0 * win2_4.size 0 ≤ (i 0 : Nat) ∧ (i 0 : Nat) < win2_4.index tLast 0 * win2_4.size 0 + win2_4.xsize (grid2.coords tLast) 0
    rw [show win2_4.index tLast 0 * win2_4.size 0 = 0 from by decide +kernel, show win2_4.xsize (grid2.coords tLast) 0 = 1 from by decide +kernel]; omega
  | ⟨1, _⟩ =>
    show win2_4.index tLast 1 * win2_4.size 1 ≤ (i 1 : Nat) ∧ (i 1 : Nat) < win2_4.index tLast 1 * win2_4.size 1 + win2_4.xsize (grid2.coords tLast) 1
    rw [show win2_4.index tLast 1 * win2_4.size 1 = 0 from by decide +kernel, show win2_4.xsize (grid2.coords tLast) 1 = 128 from by decide +kernel]; omega

theorem s_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) :
    (dat2 (F := Ideal) V c).arrAt 4 cfg2.N = colSumArr (linArr h W b) :=
  (dat2 (F := Ideal) V c).arrAt_eq_of_cover 4 (colSumArr (linArr h W b)) (flushed4_eq V c h W b hh hW hb) cover4

/-- The one write-back of window 5, after the last point, writes the whole one-row array. -/
theorem flushed5_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) (t : Fin cfg2.N) (hf : (cfg2.win 5).flush t = true) :
    (dat2 (F := Ideal) V c).flushed 5 t = ((cfg2.win 5).blk t).view.read (Elt Ideal) (colSumSqArr (linArr h W b)) := by
  have hN : cfg2.N = 20 := N_2
  have h19 : t.val = 19 := by have := (flush2_5 t).mp hf; have := t.isLt; omega
  obtain rfl : t = tLast := Fin.ext h19
  show (cfg2.win 5).cut (grid2.coords tLast) ((dat2 (F := Ideal) V c).after 5 tLast) = _
  rw [after2_5, last5 V c h W b hh hW hb]
  have hz' : (fun a => win2_5.index tLast a * main_v95_2.ty.shape.size a) = fun _ => 0 := funext fun a => by fin_cases a <;> decide +kernel
  exact (Memref.read_access_unit_zero (Elt Ideal) main_v95_2 hz' (fun a => by rw [congrFun hz' a]; simp) (colSumSqArr (linArr h W b))).symm

/-- The last point's block is the whole one-row array. -/
theorem cover5 (i : S1x128.Idx) :
    ∃ t : Fin cfg2.N, (cfg2.win 5).flush t = true ∧ i ∈ ((cfg2.win 5).blk t).view.set := by
  refine ⟨tLast, (flush2_5 tLast).mpr rfl, ?_⟩
  show i ∈ ((View.whole main_v95_2).slice (win2_5.rect tLast)).set
  rw [View.set_slice_whole, Rect.mem_set_unit]
  intro a
  have h0 : (i 0 : Nat) < 1 := idx2_lt0 i
  have h1 : (i 1 : Nat) < 128 := idx2_lt1 i
  match a with
  | ⟨0, _⟩ =>
    show win2_5.index tLast 0 * win2_5.size 0 ≤ (i 0 : Nat) ∧ (i 0 : Nat) < win2_5.index tLast 0 * win2_5.size 0 + win2_5.xsize (grid2.coords tLast) 0
    rw [show win2_5.index tLast 0 * win2_5.size 0 = 0 from by decide +kernel, show win2_5.xsize (grid2.coords tLast) 0 = 1 from by decide +kernel]; omega
  | ⟨1, _⟩ =>
    show win2_5.index tLast 1 * win2_5.size 1 ≤ (i 1 : Nat) ∧ (i 1 : Nat) < win2_5.index tLast 1 * win2_5.size 1 + win2_5.xsize (grid2.coords tLast) 1
    rw [show win2_5.index tLast 1 * win2_5.size 1 = 0 from by decide +kernel, show win2_5.xsize (grid2.coords tLast) 1 = 128 from by decide +kernel]; omega

theorem q_eq (c : Dev nD) (h : Arr 100000 128) (W : Arr 128 128) (b : Arr 1 128)
    (hh : V c (Pipeline.arrRef spec2 0) = h) (hW : V c (Pipeline.arrRef spec2 1) = W) (hb : V c (Pipeline.arrRef spec2 2) = b) :
    (dat2 (F := Ideal) V c).arrAt 5 cfg2.N = colSumSqArr (linArr h W b) :=
  (dat2 (F := Ideal) V c).arrAt_eq_of_cover 5 (colSumSqArr (linArr h W b)) (flushed5_eq V c h W b hh hW hb) cover5

end Cert.KernelIdeal.Stats2

end
-- ==== Proof.Apply1.lean ====
/-
  The value of a normalisation region: the result array it leaves, as a function of the five arrays it finds.

  The region runs over 20 grid points.  At point t the body reads rows 5000 t … 5000 t + 4999 of the feature array y
  (100000 × 128) and the four whole one-row arrays mu, var, gamma, beta (1 × 128 each), and stores one 5000 × 128
  block: entry (p, q) is (gamma(0, q) · (y(5000 t + p, q) − mu(0, q))) · rsqrt(var(0, q) + eps) + beta(0, q), every
  one-row operand broadcast down the rows, eps the float nearest 1e-5 — block t of the normalisation of y.  The 20
  blocks tile the 100000 rows (row r lies in the block of point r / 5000), so the result array ends holding the
  normalisation everywhere.
-/
import proofs.«111273_j58016418234783_1_alg».proof.Proof.Gen.KernelIdeal.Frame
import proofs.«111273_j58016418234783_1_alg».proof.Proof.Spec
import Idealize.ShloMosaic.Lib.Pipeline.Value
import Idealize.ShloMosaic.Lib.ValueLayout

noncomputable section

open scoped BigOperators

namespace Cert.KernelIdeal.Apply1

open Cert.KernelIdeal Cert.KernelIdeal.Gen Cert.Spec Idealize.ShloMosaic Idealize.ShloMosaic.ValueIdx
open Idealize.ShloMosaic.TcCoe
open Idealize.ShloMosaic.Pipeline (Dat)

theorem hz : (![0, 0] : Fin 2 → Nat) = fun _ => 0 := funext fun a => by fin_cases a <;> rfl

/-- The stored block at an entry, from the loaded blocks (variance, scale, features, mean, shift, in the body's
    order of loading). -/
theorem pay_apply (xv xg : Vec Ideal S1x128 .f32) (xy : Vec Ideal S5000x128 .f32) (xm xb : Vec Ideal S1x128 .f32)
    (p : Fin 5000) (q : Fin 128) :
    k1_pay1 (F := Ideal) xv xg xy xm xb (ix2 p q)
      = (xg (ix2 0 q) * (xy (ix2 p q) - xm (ix2 0 q))) * Ideal.rsqrt (xv (ix2 0 q) + epsE) + xb (ix2 0 q) := by
  unfold k1_pay1
  rw [addf_apply, mulf_apply, mulf_apply, subf_apply]
  refine congrArg₂ (· + ·) (congrArg₂ (· * ·) (congrArg₂ (· * ·) ?_ (congrArg₂ (· - ·) ?_ ?_)) ?_) ?_
  · rw [shapeCast_self]; exact broadcastTo_1b_ab_apply _ _ p q
  · rw [shapeCast_self]
  · rw [shapeCast_self]; exact broadcastTo_1b_ab_apply _ _ p q
  · refine (broadcastTo_1b_ab_apply _ _ p q).trans ?_
    rw [shapeCast_self]; rfl
  · rw [shapeCast_self]; exact broadcastTo_1b_ab_apply _ _ p q

variable (V : (c : Dev nD) → (b : Ref sig .tc) → Buf (Elt Ideal) ((c : Thread nD τ).loc b))

/-- The printed index maps over the grid: the two row-block windows sit at block t, the one-row windows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the feature array is rows 5000 t … 5000 t + 4999 of it. -/
theorem iblk0_apply (c : Dev nD) (t : Fin cfg1.N) (p : Fin 5000) (q : Fin 128) (i : S100000x128.Idx)
    (hi0 : (i 0).val = t.val * 5000 + p.val) (hi1 : (i 1).val = q.val) :
    (iblk1 (F := Ideal) V c 0 t : Vec Ideal S5000x128 .f32) (ix2 p q)
      = (V c (Pipeline.arrRef spec1 0) : S100000x128.Idx → EReal) i := by
  obtain ⟨e0, e1, -⟩ := idx_facts t
  unfold iblk1
  rw [View.read_apply]
  show V c (Pipeline.arrRef spec1 0) _ = V c (Pipeline.arrRef spec1 0) _
  refine congrArg _ ?_
  funext a; apply Fin.ext
  match a with
  | ⟨0, _⟩ => show win1_0.index t (0 : Fin 2) * 5000 + 1 * p.val = (i 0).val; rw [e0, hi0]; omega
  | ⟨1, _⟩ => show win1_0.index t (1 : Fin 2) * 128 + 1 * q.val = (i 1).val; rw [e1, hi1]; omega

/-- The mean's block is the whole one-row array at every point. -/
theorem iblk1_apply (c : Dev nD) (t : Fin cfg1.N) (q : Fin 128) :
    (iblk1 (F := Ideal) V c 1 t : Vec Ideal S1x128 .f32) (ix2 0 q)
      = (V c (Pipeline.arrRef spec1 1) : S1x128.Idx → EReal) (ix2 0 q) := by
  obtain ⟨-, -, e2, e3, -⟩ := idx_facts t
  unfold iblk1
  rw [View.read_apply]
  show V c (Pipeline.arrRef spec1 1) _ = V c (Pipeline.arrRef spec1 1) _
  refine congrArg _ ?_
  funext a; apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- The variance's block is the whole one-row array at every point. -/
theorem iblk2_apply (c : Dev nD) (t : Fin cfg1.N) (q : Fin 128) :
    (iblk1 (F := Ideal) V c 2 t : Vec Ideal S1x128 .f32) (ix2 0 q)
      = (V c (Pipeline.arrRef spec1 2) : S1x128.Idx → EReal) (ix2 0 q) := by
  obtain ⟨-, -, -, -, e4, e5, -⟩ := idx_facts t
  unfold iblk1
  rw [View.read_apply]
  show V c (Pipeline.arrRef spec1 2) _ = V c (Pipeline.arrRef spec1 2) _
  refine congrArg _ ?_
  funext a; apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-- The scale's block is the whole one-row array at every point. -/
theorem iblk3_apply (c : Dev nD) (t : Fin cfg1.N) (q : Fin 128) :
    (iblk1 (F := Ideal) V c 3 t : Vec Ideal S1x128 .f32) (ix2 0 q)
      = (V c (Pipeline.arrRef spec1 3) : S1x128.Idx → EReal) (ix2 0 q) := by
  obtain ⟨-, -, -, -, -, -, e6, e7, -⟩ := idx_facts t
  unfold iblk1
  rw [View.read_apply]
  show V c (Pipeline.arrRef spec1 3) _ = V c (Pipeline.arrRef spec1 3) _
  refine congrArg _ ?_
  funext a; apply Fin.ext
  match a with
  | ⟨0, _⟩ => show win1_3.index t (0 : Fin 2) * 1 + 1 * 0 = 0; rw [e6]
  | ⟨1, _⟩ => show win1_3.index t (1 : Fin 2) * 128 + 1 * q.val = q.val; rw [e7]; omega

/-- The shift's block is the whole one-row array at every point. -/
theorem iblk4_apply (c : Dev nD) (t : Fin cfg1.N) (q : Fin 128) :
    (iblk1 (F := Ideal) V c 4 t : Vec Ideal S1x128 .f32) (ix2 0 q)
      = (V c (Pipeline.arrRef spec1 4) : S1x128.Idx → EReal) (ix2 0 q) := by
  obtain ⟨-, -, -, -, -, -, -, -, e8, e9, -⟩ := idx_facts t
  unfold iblk1
  rw [View.read_apply]
  show V c (Pipeline.arrRef spec1 4) _ = V c (Pipeline.arrRef spec1 4) _
  refine congrArg _ ?_
  funext a; apply Fin.ext
  match a with
  | ⟨0, _⟩ => show win1_4.index t (0 : Fin 2) * 1 + 1 * 0 = 0; rw [e8]
  | ⟨1, _⟩ => show win1_4.index t (1 : Fin 2) * 128 + 1 * q.val = q.val; rw [e9]; omega

/-- A stored block whose operands are rows T·5000 … of y and all of the four one-row arrays is the same rows of the
    normalisation. -/
theorem blk_value (xv xg : Vec Ideal S1x128 .f32) (xy : Vec Ideal S5000x128 .f32) (xm xb : Vec Ideal S1x128 .f32)
    (y : Arr 100000 128) (mu var g be : Arr 1 128) (T : Nat)
    (r0 : ∀ (p : Fin 5000) (q : Fin 128) (i : S100000x128.Idx), (i 0).val = T * 5000 + p.val → (i 1).val = q.val →
      xy (ix2 p q) = y i)
    (r1 : ∀ q : Fin 128, xm (ix2 0 q) = mu (ix2 0 q))
    (r2 : ∀ q : Fin 128, xv (ix2 0 q) = var (ix2 0 q))
    (r3 : ∀ q : Fin 128, xg (ix2 0 q) = g (ix2 0 q))
    (r4 : ∀ q : Fin 128, xb (ix2 0 q) = be (ix2 0 q))
    (j : S5000x128.Idx) (i : S100000x128.Idx) (hi0 : (i 0).val = T * 5000 + (j 0).val) (hi1 : (i 1).val = (j 1).val) :
    k1_pay1 (F := Ideal) xv xg xy xm xb j = bnArr y mu var g be i := by
  obtain ⟨p, q, rfl⟩ : ∃ (p : Fin 5000) (q : Fin 128), j = ix2 p q := ⟨j 0, j 1, eq_ix2 j⟩
  obtain ⟨i0, i1, rfl⟩ : ∃ (i0 : Fin 100000) (i1 : Fin 128), i = ix2 i0 i1 := ⟨i 0, i 1, eq_ix2 i⟩
  have hq : i1 = q := Fin.ext hi1
  subst hq
  rw [pay_apply, bnArr_apply]
  unfold bn
  rw [r0 p i1 (ix2 i0 i1) hi0 rfl, r1, r2, r3, r4]

/-- What point t writes back is block t of the normalisation of the arrays as the region finds them. -/
theorem flushed_eq (c : Dev nD) (t : Fin cfg1.N) :
    (dat1 (F := Ideal) V c).flushed 5 t = ((cfg1.win 5).blk t).view.read (Elt Ideal)
      (bnArr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨-, -, -, -, -, -, -, -, -, -, e10, e11⟩ := idx_facts t
  funext j
  refine blk_value (iblk1 V c 2 t) (iblk1 V c 3 t) (iblk1 V c 0 t) (iblk1 V c 1 t) (iblk1 V c 4 t)
    (V c (Pipeline.arrRef spec1 0)) (V c (Pipeline.arrRef spec1 1)) (V c (Pipeline.arrRef spec1 2))
    (V c (Pipeline.arrRef spec1 3)) (V c (Pipeline.arrRef spec1 4)) t.val
    (fun p q i h0 h1 => iblk0_apply V c t p q i h0 h1) (fun q => iblk1_apply V c t q) (fun q => iblk2_apply V c t q)
    (fun q => iblk3_apply V c t q) (fun q => iblk4_apply V c t q) j (((cfg1.win 5).blk t).view.emb j) ?_ ?_
  · show win1_5.index t (0 : Fin 2) * 5000 + 1 * (j 0).val = _; rw [e10]; omega
  · show win1_5.index t (1 : Fin 2) * 128 + 1 * (j 1).val = _; rw [e11]; omega

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v67).slice (win1_5.rect t)).set ↔ _
  rw [View.set_slice_whole, Rect.mem_set_unit]
  exact Iff.rfl

/-- Row r of the result lies in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e10, e11⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e11]; omega

/-- The result array after the region: the normalisation of the five operand arrays as the region finds them. -/
theorem out_eq (c : Dev nD) (y : Arr 100000 128) (mu var g be : Arr 1 128)
    (h0 : V c (Pipeline.arrRef spec1 0) = y) (h1 : V c (Pipeline.arrRef spec1 1) = mu)
    (h2 : V c (Pipeline.arrRef spec1 2) = var) (h3 : V c (Pipeline.arrRef spec1 3) = g)
    (h4 : V c (Pipeline.arrRef spec1 4) = be) :
    (dat1 (F := Ideal) V c).arrAt 5 cfg1.N = bnArr y mu var g be := by
  subst h0 h1 h2 h3 h4
  exact (dat1 V c).arrAt_eq_of_cover 5 _ (fun t _ => flushed_eq V c t) cover

end Cert.KernelIdeal.Apply1
end
-- ==== Proof.Apply3.lean ====
/-
  The value of a normalisation region: the result array it leaves, as a function of the five arrays it finds.

  The region runs over 20 grid points.  At point t the body reads rows 5000 t … 5000 t + 4999 of the feature array y
  (100000 × 128) and the four whole one-row arrays mu, var, gamma, beta (1 × 128 each), and stores one 5000 × 128
  block: entry (p, q) is (gamma(0, q) · (y(5000 t + p, q) − mu(0, q))) · rsqrt(var(0, q) + eps) + beta(0, q), every
  one-row operand broadcast down the rows, eps the float nearest 1e-5 — block t of the normalisation of y.  The 20
  blocks tile the 100000 rows (row r lies in the block of point r / 5000), so the result array ends holding the
  normalisation everywhere.
-/
import proofs.«111273_j58016418234783_1_alg».proof.Proof.Gen.KernelIdeal.Frame
import proofs.«111273_j58016418234783_1_alg».proof.Proof.Spec
import Idealize.ShloMosaic.Lib.Pipeline.Value
import Idealize.ShloMosaic.Lib.ValueLayout

noncomputable section

open scoped BigOperators

namespace Cert.KernelIdeal.Apply3

open Cert.KernelIdeal Cert.KernelIdeal.Gen Cert.Spec Idealize.ShloMosaic Idealize.ShloMosaic.ValueIdx
open Idealize.ShloMosaic.TcCoe
open Idealize.ShloMosaic.Pipeline (Dat)

theorem hz : (![0, 0] : Fin 2 → Nat) = fun _ => 0 := funext fun a => by fin_cases a <;> rfl

/-- The stored block at an entry, from the loaded blocks (variance, scale, features, mean, shift, in the body's
    order of loading). -/
theorem pay_apply (xv xg : Vec Ideal S1x128 .f32) (xy : Vec Ideal S5000x128 .f32) (xm xb : Vec Ideal S1x128 .f32)
    (p : Fin 5000) (q : Fin 128) :
    k3_pay1 (F := Ideal) xv xg xy xm xb (ix2 p q)
      = (xg (ix2 0 q) * (xy (ix2 p q) - xm (ix2 0 q))) * Ideal.rsqrt (xv (ix2 0 q) + epsE) + xb (ix2 0 q) := by
  unfold k3_pay1
  rw [addf_apply, mulf_apply, mulf_apply, subf_apply]
  refine congrArg₂ (· + ·) (congrArg₂ (· * ·) (congrArg₂ (· * ·) ?_ (congrArg₂ (· - ·) ?_ ?_)) ?_) ?_
  · rw [shapeCast_self]; exact broadcastTo_1b_ab_apply _ _ p q
  · rw [shapeCast_self]
  · rw [shapeCast_self]; exact broadcastTo_1b_ab_apply _ _ p q
  · refine (broadcastTo_1b_ab_apply _ _ p q).trans ?_
    rw [shapeCast_self]; rfl
  · rw [shapeCast_self]; exact broadcastTo_1b_ab_apply _ _ p q

variable (V : (c : Dev nD) → (b : Ref sig .tc) → Buf (Elt Ideal) ((c : Thread nD τ).loc b))

/-- The printed index maps over the grid: the two row-block windows sit at block t, the one-row windows at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block t of the feature array is rows 5000 t … 5000 t + 4999 of it. -/
theorem iblk0_apply (c : Dev nD) (t : Fin cfg3.N) (p : Fin 5000) (q : Fin 128) (i : S100000x128.Idx)
    (hi0 : (i 0).val = t.val * 5000 + p.val) (hi1 : (i 1).val = q.val) :
    (iblk3 (F := Ideal) V c 0 t : Vec Ideal S5000x128 .f32) (ix2 p q)
      = (V c (Pipeline.arrRef spec3 0) : S100000x128.Idx → EReal) i := by
  obtain ⟨e0, e1, -⟩ := idx_facts t
  unfold iblk3
  rw [View.read_apply]
  show V c (Pipeline.arrRef spec3 0) _ = V c (Pipeline.arrRef spec3 0) _
  refine congrArg _ ?_
  funext a; apply Fin.ext
  match a with
  | ⟨0, _⟩ => show win3_0.index t (0 : Fin 2) * 5000 + 1 * p.val = (i 0).val; rw [e0, hi0]; omega
  | ⟨1, _⟩ => show win3_0.index t (1 : Fin 2) * 128 + 1 * q.val = (i 1).val; rw [e1, hi1]; omega

/-- The mean's block is the whole one-row array at every point. -/
theorem iblk1_apply (c : Dev nD) (t : Fin cfg3.N) (q : Fin 128) :
    (iblk3 (F := Ideal) V c 1 t : Vec Ideal S1x128 .f32) (ix2 0 q)
      = (V c (Pipeline.arrRef spec3 1) : S1x128.Idx → EReal) (ix2 0 q) := by
  obtain ⟨-, -, e2, e3, -⟩ := idx_facts t
  unfold iblk3
  rw [View.read_apply]
  show V c (Pipeline.arrRef spec3 1) _ = V c (Pipeline.arrRef spec3 1) _
  refine congrArg _ ?_
  funext a; apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- The variance's block is the whole one-row array at every point. -/
theorem iblk2_apply (c : Dev nD) (t : Fin cfg3.N) (q : Fin 128) :
    (iblk3 (F := Ideal) V c 2 t : Vec Ideal S1x128 .f32) (ix2 0 q)
      = (V c (Pipeline.arrRef spec3 2) : S1x128.Idx → EReal) (ix2 0 q) := by
  obtain ⟨-, -, -, -, e4, e5, -⟩ := idx_facts t
  unfold iblk3
  rw [View.read_apply]
  show V c (Pipeline.arrRef spec3 2) _ = V c (Pipeline.arrRef spec3 2) _
  refine congrArg _ ?_
  funext a; apply Fin.ext
  match a with
  | ⟨0, _⟩ => show win3_2.index t (0 : Fin 2) * 1 + 1 * 0 = 0; rw [e4]
  | ⟨1, _⟩ => show win3_2.index t (1 : Fin 2) * 128 + 1 * q.val = q.val; rw [e5]; omega

/-- The scale's block is the whole one-row array at every point. -/
theorem iblk3_apply (c : Dev nD) (t : Fin cfg3.N) (q : Fin 128) :
    (iblk3 (F := Ideal) V c 3 t : Vec Ideal S1x128 .f32) (ix2 0 q)
      = (V c (Pipeline.arrRef spec3 3) : S1x128.Idx → EReal) (ix2 0 q) := by
  obtain ⟨-, -, -, -, -, -, e6, e7, -⟩ := idx_facts t
  unfold iblk3
  rw [View.read_apply]
  show V c (Pipeline.arrRef spec3 3) _ = V c (Pipeline.arrRef spec3 3) _
  refine congrArg _ ?_
  funext a; apply Fin.ext
  match a with
  | ⟨0, _⟩ => show win3_3.index t (0 : Fin 2) * 1 + 1 * 0 = 0; rw [e6]
  | ⟨1, _⟩ => show win3_3.index t (1 : Fin 2) * 128 + 1 * q.val = q.val; rw [e7]; omega

/-- The shift's block is the whole one-row array at every point. -/
theorem iblk4_apply (c : Dev nD) (t : Fin cfg3.N) (q : Fin 128) :
    (iblk3 (F := Ideal) V c 4 t : Vec Ideal S1x128 .f32) (ix2 0 q)
      = (V c (Pipeline.arrRef spec3 4) : S1x128.Idx → EReal) (ix2 0 q) := by
  obtain ⟨-, -, -, -, -, -, -, -, e8, e9, -⟩ := idx_facts t
  unfold iblk3
  rw [View.read_apply]
  show V c (Pipeline.arrRef spec3 4) _ = V c (Pipeline.arrRef spec3 4) _
  refine congrArg _ ?_
  funext a; apply Fin.ext
  match a with
  | ⟨0, _⟩ => show win3_4.index t (0 : Fin 2) * 1 + 1 * 0 = 0; rw [e8]
  | ⟨1, _⟩ => show win3_4.index t (1 : Fin 2) * 128 + 1 * q.val = q.val; rw [e9]; omega

/-- A stored block whose operands are rows T·5000 … of y and all of the four one-row arrays is the same rows of the
    normalisation. -/
theorem blk_value (xv xg : Vec Ideal S1x128 .f32) (xy : Vec Ideal S5000x128 .f32) (xm xb : Vec Ideal S1x128 .f32)
    (y : Arr 100000 128) (mu var g be : Arr 1 128) (T : Nat)
    (r0 : ∀ (p : Fin 5000) (q : Fin 128) (i : S100000x128.Idx), (i 0).val = T * 5000 + p.val → (i 1).val = q.val →
      xy (ix2 p q) = y i)
    (r1 : ∀ q : Fin 128, xm (ix2 0 q) = mu (ix2 0 q))
    (r2 : ∀ q : Fin 128, xv (ix2 0 q) = var (ix2 0 q))
    (r3 : ∀ q : Fin 128, xg (ix2 0 q) = g (ix2 0 q))
    (r4 : ∀ q : Fin 128, xb (ix2 0 q) = be (ix2 0 q))
    (j : S5000x128.Idx) (i : S100000x128.Idx) (hi0 : (i 0).val = T * 5000 + (j 0).val) (hi1 : (i 1).val = (j 1).val) :
    k3_pay1 (F := Ideal) xv xg xy xm xb j = bnArr y mu var g be i := by
  obtain ⟨p, q, rfl⟩ : ∃ (p : Fin 5000) (q : Fin 128), j = ix2 p q := ⟨j 0, j 1, eq_ix2 j⟩
  obtain ⟨i0, i1, rfl⟩ : ∃ (i0 : Fin 100000) (i1 : Fin 128), i = ix2 i0 i1 := ⟨i 0, i 1, eq_ix2 i⟩
  have hq : i1 = q := Fin.ext hi1
  subst hq
  rw [pay_apply, bnArr_apply]
  unfold bn
  rw [r0 p i1 (ix2 i0 i1) hi0 rfl, r1, r2, r3, r4]

/-- What point t writes back is block t of the normalisation of the arrays as the region finds them. -/
theorem flushed_eq (c : Dev nD) (t : Fin cfg3.N) :
    (dat3 (F := Ideal) V c).flushed 5 t = ((cfg3.win 5).blk t).view.read (Elt Ideal)
      (bnArr (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨-, -, -, -, -, -, -, -, -, -, e10, e11⟩ := idx_facts t
  funext j
  refine blk_value (iblk3 V c 2 t) (iblk3 V c 3 t) (iblk3 V c 0 t) (iblk3 V c 1 t) (iblk3 V c 4 t)
    (V c (Pipeline.arrRef spec3 0)) (V c (Pipeline.arrRef spec3 1)) (V c (Pipeline.arrRef spec3 2))
    (V c (Pipeline.arrRef spec3 3)) (V c (Pipeline.arrRef spec3 4)) t.val
    (fun p q i h0 h1 => iblk0_apply V c t p q i h0 h1) (fun q => iblk1_apply V c t q) (fun q => iblk2_apply V c t q)
    (fun q => iblk3_apply V c t q) (fun q => iblk4_apply V c t q) j (((cfg3.win 5).blk t).view.emb j) ?_ ?_
  · show win3_5.index t (0 : Fin 2) * 5000 + 1 * (j 0).val = _; rw [e10]; omega
  · show win3_5.index t (1 : Fin 2) * 128 + 1 * (j 1).val = _; rw [e11]; omega

/-- An index of the result array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v104).slice (win3_5.rect t)).set ↔ _
  rw [View.set_slice_whole, Rect.mem_set_unit]
  exact Iff.rfl

/-- Row r of the result lies in the block of point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, -, -, e10, e11⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e11]; omega

/-- The result array after the region: the normalisation of the five operand arrays as the region finds them. -/
theorem out_eq (c : Dev nD) (y : Arr 100000 128) (mu var g be : Arr 1 128)
    (h0 : V c (Pipeline.arrRef spec3 0) = y) (h1 : V c (Pipeline.arrRef spec3 1) = mu)
    (h2 : V c (Pipeline.arrRef spec3 2) = var) (h3 : V c (Pipeline.arrRef spec3 3) = g)
    (h4 : V c (Pipeline.arrRef spec3 4) = be) :
    (dat3 (F := Ideal) V c).arrAt 5 cfg3.N = bnArr y mu var g be := by
  subst h0 h1 h2 h3 h4
  exact (dat3 V c).arrAt_eq_of_cover 5 _ (fun t _ => flushed_eq V c t) cover

end Cert.KernelIdeal.Apply3
end
-- ==== Proof.Lin4.lean ====
/-
  The value of the affine-layer region: the result array it leaves, as a function of the three arrays it finds.

  The region runs over 20 grid points.  At point t the body reads rows 5000 t … 5000 t + 4999 of the left operand h
  (100000 × 128), the whole weight matrix W (128 × 64) and the whole one-row bias b (1 × 64), and stores one
  5000 × 64 block: the matrix product of the row block with W, accumulated into the zero block, plus the bias
  broadcast down the rows.  On the extended reals the narrowing of the product's operands to the shorter float format
  is the identity, so entry (p, q) of the stored block is (sum over k of h(5000 t + p, k) · W(k, q)) + b(0, q): block t
  of the affine layer of h, W and b.  The 20 blocks tile the 100000 rows (row r lies in the block of point r / 5000),
  so the result array ends holding the affine layer everywhere.
-/
import proofs.«111273_j58016418234783_1_alg».proof.Proof.Gen.KernelIdeal.Frame
import proofs.«111273_j58016418234783_1_alg».proof.Proof.Spec
import proofs.«111273_j58016418234783_1_alg».proof.Proof.LibPlainProduct
import Idealize.ShloMosaic.Lib.Pipeline.Value
import Idealize.ShloMosaic.Lib.ValueLayout

noncomputable section

open scoped BigOperators

namespace Cert.KernelIdeal.Lin4

open Cert.KernelIdeal Cert.KernelIdeal.Gen Cert.Spec Idealize.ShloMosaic Idealize.ShloMosaic.ValueIdx
open Idealize.ShloMosaic.TcCoe
open Idealize.ShloMosaic.Pipeline (Dat)

theorem hz : (![0, 0] : Fin 2 → Nat) = fun _ => 0 := funext fun a => by fin_cases a <;> rfl

/-- The stored block at an entry: row p of the left block contracted with column q of the weights, plus the bias of
    column q. -/
theorem pay_apply (x0 : Vec Ideal S5000x128 .f32) (x1 : Vec Ideal S128x64 .f32) (x2 : Vec Ideal S1x64 .f32)
    (p : Fin 5000) (q : Fin 64) :
    k4_pay1 (F := Ideal) x0 x1 x2 (ix2 p q) = (∑ k : Fin 128, x0 (ix2 p k) * x1 (ix2 k q)) + x2 (ix2 0 q) := by
  unfold k4_pay1
  rw [addf_apply]
  refine congrArg₂ (· + ·) ?_ ?_
  · refine (Cert.LibPlainProduct.matmul_zero_plain_apply dot_S5000x128_S128x64_S5000x64_1_0_0_1_n_n_wf none
      (truncf .bf16 (shapeCast S5000x128 x0 shapeCasts_S5000x128_S5000x128) bitsLt_bf16_f32)
      (truncf .bf16 x1 bitsLt_bf16_f32) p q).trans ?_
    refine Finset.sum_congr rfl fun k _ => ?_
    rw [truncf_apply, truncf_apply, shapeCast_self]
  · rw [shapeCast_self]
    exact broadcastTo_1b_ab_apply _ _ p q

variable (V : (c : Dev nD) → (b : Ref sig .tc) → Buf (Elt Ideal) ((c : Thread nD τ).loc b))

/-- The printed index maps over the grid: the two row-block windows sit at block t, the whole-array windows at
    block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Block t of the left operand is rows 5000 t … 5000 t + 4999 of its array. -/
theorem iblk0_apply (c : Dev nD) (t : Fin cfg4.N) (p : Fin 5000) (k : Fin 128) (i : S100000x128.Idx)
    (hi0 : (i 0).val = t.val * 5000 + p.val) (hi1 : (i 1).val = k.val) :
    (iblk4 (F := Ideal) V c 0 t : Vec Ideal S5000x128 .f32) (ix2 p k)
      = (V c (Pipeline.arrRef spec4 0) : S100000x128.Idx → EReal) i := by
  obtain ⟨e0, e1, -⟩ := idx_facts t
  unfold iblk4
  rw [View.read_apply]
  show V c (Pipeline.arrRef spec4 0) _ = V c (Pipeline.arrRef spec4 0) _
  refine congrArg _ ?_
  funext a; apply Fin.ext
  match a with
  | ⟨0, _⟩ => show win4_0.index t (0 : Fin 2) * 5000 + 1 * p.val = (i 0).val; rw [e0, hi0]; omega
  | ⟨1, _⟩ => show win4_0.index t (1 : Fin 2) * 128 + 1 * k.val = (i 1).val; rw [e1, hi1]; omega

/-- The weights' block is the whole array at every point. -/
theorem iblk1_apply (c : Dev nD) (t : Fin cfg4.N) (k : Fin 128) (q : Fin 64) :
    (iblk4 (F := Ideal) V c 1 t : Vec Ideal S128x64 .f32) (ix2 k q)
      = (V c (Pipeline.arrRef spec4 1) : S128x64.Idx → EReal) (ix2 k q) := by
  obtain ⟨-, -, e2, e3, -⟩ := idx_facts t
  unfold iblk4
  rw [View.read_apply]
  show V c (Pipeline.arrRef spec4 1) _ = V c (Pipeline.arrRef spec4 1) _
  refine congrArg _ ?_
  funext a; apply Fin.ext
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- The bias's block is the whole one-row array at every point. -/
theorem iblk2_apply (c : Dev nD) (t : Fin cfg4.N) (q : Fin 64) :
    (iblk4 (F := Ideal) V c 2 t : Vec Ideal S1x64 .f32) (ix2 0 q)
      = (V c (Pipeline.arrRef spec4 2) : S1x64.Idx → EReal) (ix2 0 q) := by
  obtain ⟨-, -, -, -, e4, e5, -⟩ := idx_facts t
  unfold iblk4
  rw [View.read_apply]
  show V c (Pipeline.arrRef spec4 2) _ = V c (Pipeline.arrRef spec4 2) _
  refine congrArg _ ?_
  funext a; apply Fin.ext
  match a with
  | ⟨0, _⟩ => show win4_2.index t (0 : Fin 2) * 1 + 1 * 0 = 0; rw [e4]
  | ⟨1, _⟩ => show win4_2.index t (1 : Fin 2) * 64 + 1 * q.val = q.val; rw [e5]; omega

/-- A stored block whose operands are rows T·5000 … of h, all of W and all of b is the same rows of the affine
    layer. -/
theorem blk_value (x0 : Vec Ideal S5000x128 .f32) (x1 : Vec Ideal S128x64 .f32) (x2 : Vec Ideal S1x64 .f32)
    (h : Arr 100000 128) (W : Arr 128 64) (b : Arr 1 64) (T : Nat)
    (r0 : ∀ (p : Fin 5000) (k : Fin 128) (i : S100000x128.Idx), (i 0).val = T * 5000 + p.val → (i 1).val = k.val →
      x0 (ix2 p k) = h i)
    (r1 : ∀ (k : Fin 128) (q : Fin 64), x1 (ix2 k q) = W (ix2 k q))
    (r2 : ∀ q : Fin 64, x2 (ix2 0 q) = b (ix2 0 q))
    (j : S5000x64.Idx) (i : S100000x64.Idx) (hi0 : (i 0).val = T * 5000 + (j 0).val) (hi1 : (i 1).val = (j 1).val) :
    k4_pay1 (F := Ideal) x0 x1 x2 j = linArr h W b i := by
  obtain ⟨p, q, rfl⟩ : ∃ (p : Fin 5000) (q : Fin 64), j = ix2 p q := ⟨j 0, j 1, eq_ix2 j⟩
  obtain ⟨i0, i1, rfl⟩ : ∃ (i0 : Fin 100000) (i1 : Fin 64), i = ix2 i0 i1 := ⟨i 0, i 1, eq_ix2 i⟩
  have hq : i1 = q := Fin.ext hi1
  subst hq
  rw [pay_apply, linArr_apply]
  unfold lin
  refine congrArg₂ (· + ·) (Finset.sum_congr rfl fun k _ => ?_) (r2 _)
  rw [r0 p k (ix2 i0 k) hi0 rfl, r1]

/-- What point t writes back is block t of the affine layer of the arrays as the region finds them. -/
theorem flushed_eq (c : Dev nD) (t : Fin cfg4.N) :
    (dat4 (F := Ideal) V c).flushed 3 t = ((cfg4.win 3).blk t).view.read (Elt Ideal)
      (linArr (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  obtain ⟨-, -, -, -, -, -, e6, e7⟩ := idx_facts t
  funext j
  refine blk_value (iblk4 V c 0 t) (iblk4 V c 1 t) (iblk4 V c 2 t) (V c (Pipeline.arrRef spec4 0))
    (V c (Pipeline.arrRef spec4 1)) (V c (Pipeline.arrRef spec4 2)) t.val
    (fun p k i h0 h1 => iblk0_apply V c t p k i h0 h1) (fun k q => iblk1_apply V c t k q)
    (fun q => iblk2_apply V c t q) j (((cfg4.win 3).blk t).view.emb j) ?_ ?_
  · show win4_3.index t (0 : Fin 2) * 5000 + 1 * (j 0).val = _; rw [e6]; omega
  · show win4_3.index t (1 : Fin 2) * 64 + 1 * (j 1).val = _; rw [e7]; omega

/-- An index of the result array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v106).slice (win4_3.rect t)).set ↔ _
  rw [View.set_slice_whole, Rect.mem_set_unit]
  exact Iff.rfl

/-- Row r of the result lies in the block of point r / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨-, -, -, -, -, -, e6, e7⟩ := idx_facts ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [e7]; omega

/-- The result array after the region: the affine layer of the three operand arrays as the region finds them. -/
theorem out_eq (c : Dev nD) (h : Arr 100000 128) (W : Arr 128 64) (b : Arr 1 64)
    (hh : V c (Pipeline.arrRef spec4 0) = h) (hW : V c (Pipeline.arrRef spec4 1) = W) (hb : V c (Pipeline.arrRef spec4 2) = b) :
    (dat4 (F := Ideal) V c).arrAt 3 cfg4.N = linArr h W b := by
  subst hh hW hb
  exact (dat4 V c).arrAt_eq_of_cover 3 _ (fun t _ => flushed_eq V c t) cover

end Cert.KernelIdeal.Lin4
end
-- ==== Proof.KValue.lean ====
/-
  The idealized kernel's result as the common specification of the twelve argument arrays.

  Walking through @main's twelve segments from the launch memory: the first stretches leave the two propagation steps of
  x and the first bias as a row; region 0 leaves the first linear layer and its column sums and sums of squares; the
  next stretch turns the sums into the mean and the variance (second moment minus squared mean); region 1 normalises;
  the next stretch propagates twice again; regions 2 and 3 repeat the layer; region 4 is the last linear layer.
-/
import proofs.«111273_j58016418234783_1_alg».proof.Proof.KHost
import proofs.«111273_j58016418234783_1_alg».proof.Proof.KHostSmall
import proofs.«111273_j58016418234783_1_alg».proof.Proof.Walk
import proofs.«111273_j58016418234783_1_alg».proof.Proof.Stats0
import proofs.«111273_j58016418234783_1_alg».proof.Proof.Stats2
import proofs.«111273_j58016418234783_1_alg».proof.Proof.Apply1
import proofs.«111273_j58016418234783_1_alg».proof.Proof.Apply3
import proofs.«111273_j58016418234783_1_alg».proof.Proof.Lin4
import proofs.«111273_j58016418234783_1_alg».proof.Proof.OutSpec

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Cert.ReferenceIdeal.HostFn Cert.Spec Cert.Out
open Cert.KernelIdeal.KHost Cert.KernelIdeal.KHostSmall Cert.KernelIdeal.Walk

variable (m : (ℓ : Loc nD τ sig) → Buf (Elt Ideal) ℓ) (ρ : Dev nD → PrngReg) (c : Dev nD)

/-! ### The twelve argument arrays of core c -/

abbrev aX : Arr 100000 128 := m ((c : Thread nD τ).loc main_arg0)
abbrev aE : EI := m ((c : Thread nD τ).loc main_arg1)
abbrev aW1 : Arr 128 128 := m ((c : Thread nD τ).loc main_arg2)
abbrev aB1 : Vec1 128 := m ((c : Thread nD τ).loc main_arg3)
abbrev aG1 : Vec1 128 := m ((c : Thread nD τ).loc main_arg4)
abbrev aBe1 : Vec1 128 := m ((c : Thread nD τ).loc main_arg5)
abbrev aW2 : Arr 128 128 := m ((c : Thread nD τ).loc main_arg6)
abbrev aB2 : Vec1 128 := m ((c : Thread nD τ).loc main_arg7)
abbrev aG2 : Vec1 128 := m ((c : Thread nD τ).loc main_arg8)
abbrev aBe2 : Vec1 128 := m ((c : Thread nD τ).loc main_arg9)
abbrev aW3 : Arr 128 64 := m ((c : Thread nD τ).loc main_arg10)
abbrev aB3 : Vec1 64 := m ((c : Thread nD τ).loc main_arg11)

/-! ### Region 0's operands: two propagation steps of x, the first weights, the first bias as a row -/

set_option maxHeartbeats 1000000 in
theorem W3_v30 : W3 m ρ c (Proc.devRef .tc main_v30) = norm (F := Ideal) (aE m c) ∧
    W3 m ρ c (Proc.devRef .tc main_v1) = rowIx (F := Ideal) (aE m c) ∧
    W3 m ρ c (Proc.devRef .tc main_v3) = colIx (F := Ideal) (aE m c) ∧
    W3 m ρ c (Proc.devRef .tc main_v56) = prop (aE m c) (aX m c) := by
  have e1 := s0_v1 (W0 m ρ c) (aE m c) rfl
  have e3 := s0_v3 (W0 m ρ c) (aE m c) rfl
  have e9 := s0_v9 (W0 m ρ c) (aE m c) rfl
  have e14 := s0_v14 (W0 m ρ c) (aE m c) rfl
  have ez := s0_cst4 (W0 m ρ c)
  have f15 : W2 m ρ c (Proc.devRef .tc main_v15) = dis (F := Ideal) (aE m c) :=
    (s01_v15 (W1 m ρ c) _ _ _ e9 e14 ez).trans (dis_eq (aE m c)).symm
  have f1 : W2 m ρ c (Proc.devRef .tc main_v1) = rowIx (F := Ideal) (aE m c) :=
    (KHost.keeps hostOps0_1 (W1 m ρ c) main_v1 (by kept)).trans e1
  have f3 : W2 m ρ c (Proc.devRef .tc main_v3) = colIx (F := Ideal) (aE m c) :=
    (KHost.keeps hostOps0_1 (W1 m ρ c) main_v3 (by kept)).trans e3
  have f0 : W2 m ρ c (Proc.devRef .tc main_arg0) = aX m c := W2_arg0 m ρ c
  refine ⟨(s02_v30 (W2 m ρ c) _ _ _ f15 f1 f3).trans (norm_eq (aE m c)).symm,
    (KHost.keeps hostOps0_2 (W2 m ρ c) main_v1 (by kept)).trans f1,
    (KHost.keeps hostOps0_2 (W2 m ρ c) main_v3 (by kept)).trans f3,
    (s02_v56 (W2 m ρ c) _ _ _ f15 f1 f3 _ f0).trans ?_⟩
  unfold prop
  rw [step_eq, step_eq, norm_eq]

/-! ### The first layer before its normalisation, and its column sums -/

/-- The first linear layer of the propagated input. -/
abbrev Y1 : Arr 100000 128 := linArr (prop (aE m c) (aX m c)) (aW1 m c) (rowOf (aB1 m c))

theorem region0 : W4 m ρ c (Proc.devRef .tc main_v58_0) = Y1 m c ∧
    W4 m ρ c (Proc.devRef .tc main_v58_1) = colSumArr (Y1 m c) ∧
    W4 m ρ c (Proc.devRef .tc main_v58_2) = colSumSqArr (Y1 m c) := by
  obtain ⟨-, -, -, g56⟩ := W3_v30 m ρ c
  have g2 : W3 m ρ c (Proc.devRef .tc main_arg2) = aW1 m c := W3_arg2 m ρ c
  have g57 : W3 m ρ c (Proc.devRef .tc main_v57) = rowOf (aB1 m c) := s02_b (W2 m ρ c) (aB1 m c) (W2_arg3 m ρ c)
  exact ⟨(W4_arr m ρ c 3).trans (Stats0.y_eq (V3 m ρ) c _ _ _ g56 g2 g57),
    (W4_arr m ρ c 4).trans (Stats0.s_eq (V3 m ρ) c _ _ _ g56 g2 g57),
    (W4_arr m ρ c 5).trans (Stats0.q_eq (V3 m ρ) c _ _ _ g56 g2 g57)⟩

/-! ### The first hidden layer -/

theorem region1 : W6 m ρ c (Proc.devRef .tc main_v67) = hidden (aE m c) (aX m c) (aW1 m c) (aB1 m c) (aG1 m c) (aBe1 m c) := by
  obtain ⟨hy, hs, hq⟩ := region0 m ρ c
  have iy : W5 m ρ c (Proc.devRef .tc main_v58_0) = Y1 m c := (s1_y (W4 m ρ c)).trans hy
  have imu := s1_mu (W4 m ρ c) _ hs
  have ivar := s1_var (W4 m ρ c) _ _ hs hq
  have ig := s1_g (W4 m ρ c) (aG1 m c) (W4_arg4 m ρ c)
  have ibe := s1_be (W4 m ρ c) (aBe1 m c) (W4_arg5 m ρ c)
  exact (W6_arr m ρ c 5).trans (Apply1.out_eq (V5 m ρ) c _ _ _ _ _ iy imu ivar ig ibe)

/-! ### The second layer -/

/-- The first hidden layer. -/
abbrev B1 : Arr 100000 128 := hidden (aE m c) (aX m c) (aW1 m c) (aB1 m c) (aG1 m c) (aBe1 m c)

/-- The second linear layer of the propagated first hidden layer. -/
abbrev Y2 : Arr 100000 128 := linArr (prop (aE m c) (B1 m c)) (aW2 m c) (rowOf (aB2 m c))

theorem region2 : W8 m ρ c (Proc.devRef .tc main_v95_0) = Y2 m c ∧
    W8 m ρ c (Proc.devRef .tc main_v95_1) = colSumArr (Y2 m c) ∧
    W8 m ρ c (Proc.devRef .tc main_v95_2) = colSumSqArr (Y2 m c) := by
  obtain ⟨g30, g1, g3, -⟩ := W3_v30 m ρ c
  have j67 := region1 m ρ c
  have k93 : W7 m ρ c (Proc.devRef .tc main_v93) = prop (aE m c) (B1 m c) := by
    refine (s2_v93 (W6 m ρ c) _ _ _ _ ((W6_v30 m ρ c).trans g30) ((W6_v1 m ρ c).trans g1) ((W6_v3 m ρ c).trans g3) j67).trans ?_
    unfold prop
    rw [step_eq, step_eq]
  have k6 : W7 m ρ c (Proc.devRef .tc main_arg6) = aW2 m c := W7_arg6 m ρ c
  have k94 : W7 m ρ c (Proc.devRef .tc main_v94) = rowOf (aB2 m c) := s2_b (W6 m ρ c) (aB2 m c) (W6_arg7 m ρ c)
  exact ⟨(W8_arr m ρ c 3).trans (Stats2.y_eq (V7 m ρ) c _ _ _ k93 k6 k94),
    (W8_arr m ρ c 4).trans (Stats2.s_eq (V7 m ρ) c _ _ _ k93 k6 k94),
    (W8_arr m ρ c 5).trans (Stats2.q_eq (V7 m ρ) c _ _ _ k93 k6 k94)⟩

theorem region3 : W10 m ρ c (Proc.devRef .tc main_v104) = hidden (aE m c) (B1 m c) (aW2 m c) (aB2 m c) (aG2 m c) (aBe2 m c) := by
  obtain ⟨hy, hs, hq⟩ := region2 m ρ c
  have iy : W9 m ρ c (Proc.devRef .tc main_v95_0) = Y2 m c := (s3_y (W8 m ρ c)).trans hy
  have imu := s3_mu (W8 m ρ c) _ hs
  have ivar := s3_var (W8 m ρ c) _ _ hs hq
  have ig := s3_g (W8 m ρ c) (aG2 m c) (W8_arg8 m ρ c)
  have ibe := s3_be (W8 m ρ c) (aBe2 m c) (W8_arg9 m ρ c)
  exact (W10_arr m ρ c 5).trans (Apply3.out_eq (V9 m ρ) c _ _ _ _ _ iy imu ivar ig ibe)

/-! ### The result -/

/-- The kernel's result buffer at the last boundary is the common specification of the argument arrays. -/
theorem kernel_value : W12 m ρ c (Proc.devRef .tc main_v106)
    = out (aX m c) (aE m c) (aW1 m c) (aB1 m c) (aG1 m c) (aBe1 m c) (aW2 m c) (aB2 m c) (aG2 m c) (aBe2 m c) (aW3 m c) (aB3 m c) := by
  have h104 : W11 m ρ c (Proc.devRef .tc main_v104)
      = hidden (aE m c) (B1 m c) (aW2 m c) (aB2 m c) (aG2 m c) (aBe2 m c) := (s4_h (W10 m ρ c)).trans (region3 m ρ c)
  have h10 : W11 m ρ c (Proc.devRef .tc main_arg10) = aW3 m c := W11_arg10 m ρ c
  have h105 : W11 m ρ c (Proc.devRef .tc main_v105) = rowOf (aB3 m c) := s4_b (W10 m ρ c) (aB3 m c) (W10_arg11 m ρ c)
  exact (W12_arr m ρ c 3).trans (Lin4.out_eq (V11 m ρ) c _ _ _ h104 h10 h105)

end Cert.KernelIdeal.KValue

end
-- ==== Proof.lean ====
/-
  The kernel against its reference: a graph network of two hidden layers and a linear read-out.

  Both programs compute, from the node features x, the edge list and the layers' parameters,
      out = L3 (N2 (L2 (P (N1 (L1 (P x)))))),
  where P is two steps of degree-normalised neighbour propagation (host code, the same in both programs), L is a linear
  layer h W + b, and N normalises every column by its mean and variance over the 100000 nodes.  The kernel runs L and
  the column sums of y and of y * y in one launched region (the sums accumulated over 20 blocks of 5000 rows), takes
  the variance as (sum of y * y) / n - mean * mean on the host, and normalises in a second region; the reference takes
  the variance as the mean of (y - mean) * (y - mean).  On the extended reals the two variances agree for columns of
  real entries, and the entries are real: the inputs are finite by the precondition, the edge weights are products of
  inverse square roots of degrees taken at least one, sums and products of reals are real, and a variance plus a
  positive offset has a real reciprocal square root.  Sums over blocks regroup by the commutative-monoid laws alone.

  The three frames: the kernel's two are the generated ones; the reference's is its run with the result dropped.
  The idealization rewrote nothing, so preserves is trivial.  The algebraic claim names the common result
  (Cert.Out.out) and meets it from both runs (Proof/KValue.lean for the kernel, Proof/RefValue.lean for the reference).
-/
import proofs.«111273_j58016418234783_1_alg».proof.Defs
import proofs.«111273_j58016418234783_1_alg».proof.Proof.Gen.Kernel
import proofs.«111273_j58016418234783_1_alg».proof.Proof.Gen.Kernel.Skeleton
import proofs.«111273_j58016418234783_1_alg».proof.Proof.Gen.Kernel.Launch
import proofs.«111273_j58016418234783_1_alg».proof.Proof.Gen.Kernel.Points
import proofs.«111273_j58016418234783_1_alg».proof.Proof.Gen.Kernel.Frame
import proofs.«111273_j58016418234783_1_alg».proof.Proof.Gen.KernelIdeal
import proofs.«111273_j58016418234783_1_alg».proof.Proof.Gen.KernelIdeal.Skeleton
import proofs.«111273_j58016418234783_1_alg».proof.Proof.Gen.KernelIdeal.Launch
import proofs.«111273_j58016418234783_1_alg».proof.Proof.Gen.KernelIdeal.Points
import proofs.«111273_j58016418234783_1_alg».proof.Proof.Gen.KernelIdeal.Frame
import proofs.«111273_j58016418234783_1_alg».proof.Proof.Gen.ReferenceIdeal
import proofs.«111273_j58016418234783_1_alg».proof.Proof.Gen.Pre_finite_inputs
import proofs.«111273_j58016418234783_1_alg».proof.Proof.Final
import proofs.«111273_j58016418234783_1_alg».proof.Proof.KValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Final.frame_p, Cert.Proof.Final.frame_pi, Cert.Proof.Final.frame_ri, Cert.Proof.Final.preserves,
  Cert.Proof.Final.algebraic_of (fun m ρ c => Cert.KernelIdeal.KValue.kernel_value m ρ c)⟩

end Cert.Proof

end
